-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x1024 : Shape := ⟨3, ![1024, 4, 1024]⟩
abbrev S1024x1024 : Shape := ⟨2, ![1024, 1024]⟩
abbrev S_ : Shape := ⟨0, ![]⟩

class Facts : Prop where
  bcast_S_S1024x4x1024 : S_.BroadcastsInDim S1024x4x1024 (![] : Fin 0 → Fin S1024x4x1024.rank)
  reducesTo_S1024x4x1024_S_d0_1_2 : S1024x4x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024x1024 .f32) (main_arg8 : FVec F S1024x1024 .f32) (main_arg9 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S1024x4x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_v13 : IVec S_ 1) (main_v16 : IVec S1024x4x1024 1) : IVec S_ 1 :=
  let main_c_5 : IVec S_ 1 := constantI S_ 1 1#1
  let main_v17 : IVec S_ 1 := (fun x v => Host.reduce IntOp.andi x v reducesTo_S1024x4x1024_S_d0_1_2 h_S_) main_v16 main_c_5
  let main_v18 : IVec S_ 1 := andi main_v13 main_v17
  let main_v19 : FVec F S1024x4x1024 .f32 := Host.absf main_arg4
  let main_cst_6 : FVec F S_ .f32 := constant S_ .f32 0x7F800000#32
  let main_v20 : FVec F S1024x4x1024 .f32 := broadcastInDim S1024x4x1024 ![] bcast_S_S1024x4x1024 main_cst_6
  let main_v21 : IVec S1024x4x1024 1 := cmpf .olt main_v19 main_v20
  let main_c_7 : IVec S_ 1 := constantI S_ 1 1#1
  let main_v22 : IVec S_ 1 := (fun x v => Host.reduce IntOp.andi x v reducesTo_S1024x4x1024_S_d0_1_2 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x4x1024 .f32) (main_arg1 : FVec F S1024x4x1024 .f32) (main_arg2 : FVec F S1024x4x1024 .f32) (main_arg3 : FVec F S1024x4x1024 .f32) (main_arg4 : FVec F S1024x4x1024 .f32) (main_arg5 : FVec F S1024x1024 .f32) (main_arg6 : FVec F S1024x1024 .f32) (main_arg7 : FVec F S1024x1024 .f32) (main_arg8 : FVec F S1024x1024 .f32) (main_arg9 : FVec F S1024x1024 .f32) : IVec S_ 1 :=
  let main_v0 : FVec F S1024x4x1024 .f32 := Host.absf main_arg0
  let main_cst : FVec F S_ .f32 := constant S_ .f32 0x7F800000#32
  let main_v1 : FVec F S1024x4x1024 .f32 := broadcastInDim S1024x4x1024 ![] bcast_S_S1024x4x1024 main_cst
  let main_v2 : IVec S1024x4x1024 1 := cmpf .olt main_v0 main_v1
  let main_c : IVec S_ 1 := constantI S_ 1 1#1
  let main_v3 : IVec S_ 1 := (fun x v => Host.reduce IntOp.andi x v reducesTo_S1024x4x1024_S_d0_1_2 h_S_) main_v2 main_c
  let main_v4 : FVec F S1024x4x1024 .f32 := Host.absf main_arg1
  let main_cst_0 : FVec F S_ .f32 := constant S_ .f32 0x7F800000#32
  let main_v5 : FVec F S1024x4x1024 .f32 := broadcastInDim S1024x4x1024 ![] bcast_S_S1024x4x1024 main_cst_0
  let main_v6 : IVec S1024x4x1024 1 := cmpf .olt main_v4 main_v5
  let main_c_1 : IVec S_ 1 := constantI S_ 1 1#1
  let main_v7 : IVec S_ 1 := (fun x v => Host.reduce IntOp.andi x v reducesTo_S1024x4x1024_S_d0_1_2 h_S_) main_v6 main_c_1
  let main_v8 : IVec S_ 1 := andi main_v3 main_v7
  let main_v9 : FVec F S1024x4x1024 .f32 := Host.absf main_arg2
  let main_cst_2 : FVec F S_ .f32 := constant S_ .f32 0x7F800000#32
  let main_v10 : FVec F S1024x4x1024 .f32 := broadcastInDim S1024x4x1024 ![] bcast_S_S1024x4x1024 main_cst_2
  let main_v11 : IVec S1024x4x1024 1 := cmpf .olt main_v9 main_v10
  let main_c_3 : IVec S_ 1 := constantI S_ 1 1#1
  let main_v12 : IVec S_ 1 := (fun x v => Host.reduce IntOp.andi x v reducesTo_S1024x4x1024_S_d0_1_2 h_S_) main_v11 main_c_3
  let main_v13 : IVec S_ 1 := andi main_v8 main_v12
  let main_v14 : FVec F S1024x4x1024 .f32 := Host.absf main_arg3
  let main_cst_4 : FVec F S_ .f32 := constant S_ .f32 0x7F800000#32
  let main_v15 : FVec F S1024x4x1024 .f32 := broadcastInDim S1024x4x1024 ![] bcast_S_S1024x4x1024 main_cst_4
  let main_v16 : IVec S1024x4x1024 1 := cmpf .olt main_v14 main_v15
  fn_part1 (F := F) main_arg4 main_arg5 main_arg6 main_arg7 main_arg8 main_arg9 main_v13 main_v16
-- ==== Kernel.lean ====
abbrev S1024x4x1024 : Shape := ⟨3, ![1024, 4, 1024]⟩
abbrev S1024x1024 : Shape := ⟨2, ![1024, 1024]⟩
abbrev S1024x4x1024x1 : Shape := ⟨4, ![1024, 4, 1024, 1]⟩
abbrev S4x8x1024x128 : Shape := ⟨4, ![4, 8, 1024, 128]⟩
abbrev S1024x1x1024x1 : Shape := ⟨4, ![1024, 1, 1024, 1]⟩
abbrev S1x1x1024x128 : Shape := ⟨4, ![1, 1, 1024, 128]⟩
abbrev S1024x128 : Shape := ⟨2, ![1024, 128]⟩
abbrev S4x8x1024x1024 : Shape := ⟨4, ![4, 8, 1024, 1024]⟩
abbrev S1x1x1024x1024 : Shape := ⟨4, ![1, 1, 1024, 1024]⟩
abbrev S1024 : Shape := ⟨1, ![1024]⟩
abbrev S1024x1 : Shape := ⟨2, ![1024, 1]⟩
abbrev S4x1024x8x128 : Shape := ⟨4, ![4, 1024, 8, 128]⟩
abbrev S4x1024x1024 : Shape := ⟨3, ![4, 1024, 1024]⟩

abbrev nBuf : Space → Nat
  | .hbm => 30
  | .vmem => 39
  | .smem => 0
  | _ => 0

abbrev bufTy : (tb : Table) → Fin (tcTables nBuf tb) → BufTy
  | .hbm, ⟨0, _⟩ => ⟨S1024x4x1024, .f32⟩
  | .hbm, ⟨1, _⟩ => ⟨S1024x4x1024, .f32⟩
  | .hbm, ⟨2, _⟩ => ⟨S1024x4x1024, .f32⟩
  | .hbm, ⟨3, _⟩ => ⟨S1024x4x1024, .f32⟩
  | .hbm, ⟨4, _⟩ => ⟨S1024x4x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x4x1024x1, .f32⟩
  | .hbm, ⟨12, _⟩ => ⟨S4x8x1024x128, .bf16⟩
  | .hbm, ⟨13, _⟩ => ⟨S1024x1024, .f32⟩
  | .hbm, ⟨14, _⟩ => ⟨S1024x4x1024x1, .f32⟩
  | .hbm, ⟨15, _⟩ => ⟨S4x8x1024x128, .bf16⟩
  | .hbm, ⟨16, _⟩ => ⟨S1024x1024, .f32⟩
  | .hbm, ⟨17, _⟩ => ⟨S1024x4x1024x1, .f32⟩
  | .hbm, ⟨18, _⟩ => ⟨S4x8x1024x128, .bf16⟩
  | .hbm, ⟨19, _⟩ => ⟨S1024x1024, .f32⟩
  | .hbm, ⟨20, _⟩ => ⟨S1024x4x1024x1, .f32⟩
  | .hbm, ⟨21, _⟩ => ⟨S4x8x1024x128, .bf16⟩
  | .hbm, ⟨22, _⟩ => ⟨S1024x1024, .f32⟩
  | .hbm, ⟨23, _⟩ => ⟨S1024x4x1024x1, .f32⟩
  | .hbm, ⟨24, _⟩ => ⟨S4x8x1024x128, .bf16⟩
  | .hbm, ⟨25, _⟩ => ⟨S4x8x1024x128, .f32⟩
  | .hbm, ⟨26, _⟩ => ⟨S4x8x1024x1024, .f32⟩
  | .hbm, ⟨27, _⟩ => ⟨S4x1024x8x128, .f32⟩
  | .hbm, ⟨28, _⟩ => ⟨S4x1024x1024, .f32⟩
  | .hbm, ⟨29, _⟩ => ⟨S1024x4x1024, .f32⟩
  | .local _ .vmem, ⟨0, _⟩ => ⟨S1024x1x1024x1, .f32⟩
  | .local _ .vmem, ⟨1, _⟩ => ⟨S1024x1x1024x1, .f32⟩
  | .local _ .vmem, ⟨2, _⟩ => ⟨S1024x1024, .f32⟩
  | .local _ .vmem, ⟨3, _⟩ => ⟨S1x1x1024x128, .bf16⟩
  | .local _ .vmem, ⟨4, _⟩ => ⟨S1x1x1024x128, .bf16⟩
  | .local _ .vmem, ⟨5, _⟩ => ⟨S1024x1x1024x1, .f32⟩
  | .local _ .vmem, ⟨6, _⟩ => ⟨S1024x1x1024x1, .f32⟩
  | .local _ .vmem, ⟨7, _⟩ => ⟨S1024x1024, .f32⟩
  | .local _ .vmem, ⟨8, _⟩ => ⟨S1x1x1024x128, .bf16⟩
  | .local _ .vmem, ⟨9, _⟩ => ⟨S1x1x1024x128, .bf16⟩
  | .local _ .vmem, ⟨10, _⟩ => ⟨S1024x1x1024x1, .f32⟩
  | .local _ .vmem, ⟨11, _⟩ => ⟨S1024x1x1024x1, .f32⟩
  | .local _ .vmem, ⟨12, _⟩ => ⟨S1024x1024, .f32⟩
  | .local _ .vmem, ⟨13, _⟩ => ⟨S1x1x1024x128, .bf16⟩
  | .local _ .vmem, ⟨14, _⟩ => ⟨S1x1x1024x128, .bf16⟩
  | .local _ .vmem, ⟨15, _⟩ => ⟨S1024x1x1024x1, .f32⟩
  | .local _ .vmem, ⟨16, _⟩ => ⟨S1024x1x1024x1, .f32⟩
  | .local _ .vmem, ⟨17, _⟩ => ⟨S1024x1024, .f32⟩
  | .local _ .vmem, ⟨18, _⟩ => ⟨S1x1x1024x128, .bf16⟩
  | .local _ .vmem, ⟨19, _⟩ => ⟨S1x1x1024x128, .bf16⟩
  | .local _ .vmem, ⟨20, _⟩ => ⟨S1024x1x1024x1, .f32⟩
  | .local _ .vmem, ⟨21, _⟩ => ⟨S1024x1x1024x1, .f32⟩
  | .local _ .vmem, ⟨22, _⟩ => ⟨S1024x1024, .f32⟩
  | .local _ .vmem, ⟨23, _⟩ => ⟨S1x1x1024x128, .bf16⟩
  | .local _ .vmem, ⟨24, _⟩ => ⟨S1x1x1024x128, .bf16⟩
  | .local _ .vmem, ⟨25, _⟩ => ⟨S1x1x1024x128, .bf16⟩
  | .local _ .vmem, ⟨26, _⟩ => ⟨S1x1x1024x128, .bf16⟩
  | .local _ .vmem, ⟨27, _⟩ => ⟨S1x1x1024x128, .bf16⟩
  | .local _ .vmem, ⟨28, _⟩ => ⟨S1x1x1024x128, .bf16⟩
  | .local _ .vmem, ⟨29, _⟩ => ⟨S1x1x1024x128, .bf16⟩
  | .local _ .vmem, ⟨30, _⟩ => ⟨S1x1x1024x128, .bf16⟩
  | .local _ .vmem, ⟨31, _⟩ => ⟨S1x1x1024x128, .bf16⟩
  | .local _ .vmem, ⟨32, _⟩ => ⟨S1x1x1024x128, .bf16⟩
  | .local _ .vmem, ⟨33, _⟩ => ⟨S1x1x1024x128, .bf16⟩
  | .local _ .vmem, ⟨34, _⟩ => ⟨S1x1x1024x128, .bf16⟩
  | .local _ .vmem, ⟨35, _⟩ => ⟨S1x1x1024x128, .f32⟩
  | .local _ .vmem, ⟨36, _⟩ => ⟨S1x1x1024x128, .f32⟩
  | .local _ .vmem, ⟨37, _⟩ => ⟨S1x1x1024x1024, .f32⟩
  | .local _ .vmem, ⟨38, _⟩ => ⟨S1x1x1024x1024, .f32⟩
  | _, _ => ⟨S1024x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc5_stg4_0 : Ref sig .tc := ⟨.vmem, 33, rfl⟩
abbrev cc5_stg4_1 : Ref sig .tc := ⟨.vmem, 34, rfl⟩
abbrev cc5_stg5_0 : Ref sig .tc := ⟨.vmem, 35, rfl⟩
abbrev cc5_stg5_1 : Ref sig .tc := ⟨.vmem, 36, rfl⟩
abbrev cc5_stg6_0 : Ref sig .tc := ⟨.vmem, 37, rfl⟩
abbrev cc5_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc5_sem3_0 : DmaSem sig := 31
abbrev cc5_sem3_1 : DmaSem sig := 32
abbrev cc5_sem4_0 : DmaSem sig := 33
abbrev cc5_sem4_1 : DmaSem sig := 34
abbrev cc5_sem5_0 : DmaSem sig := 35
abbrev cc5_sem5_1 : DmaSem sig := 36
abbrev cc5_sem6_0 : DmaSem sig := 37
abbrev cc5_sem6_1 : DmaSem sig := 38

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c128_i32 : BitVec 32 := 128#32
  let v0 : BitVec 32 := Scalar.muli arg1 c128_i32
  v0
def k1_off1 (i : grid1.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1024x1x1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 8], ![false, false]⟩

def k2_mult1 (i : grid2.Coords) : BitVec 32 :=
  let arg1 : BitVec 32 := BitVec.ofNat 32 (i 1).val
  let c128_i32 : BitVec 32 := 128#32
  let v0 : BitVec 32 := Scalar.muli arg1 c128_i32
  v0
def k2_off1 (i : grid2.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1024x1x1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 8], ![false, false]⟩

def k3_mult1 (i : grid3.Coords) : BitVec 32 :=
  let arg1 : BitVec 32 := BitVec.ofNat 32 (i 1).val
  let c128_i32 : BitVec 32 := 128#32
  let v0 : BitVec 32 := Scalar.muli arg1 c128_i32
  v0
def k3_off1 (i : grid3.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1024x1x1024x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 8], ![false, false]⟩

def k4_mult1 (i : grid4.Coords) : BitVec 32 :=
  let arg1 : BitVec 32 := BitVec.ofNat 32 (i 1).val
  let c128_i32 : BitVec 32 := 128#32
  let v0 : BitVec 32 := Scalar.muli arg1 c128_i32
  v0
def k4_off1 (i : grid4.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1024x1x1024x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x1x1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 8], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_4 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_5 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_6 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x1x1024x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x1024x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1x1024x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x1x1024x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x1x1024x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x1x1024x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x1x1024x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

class Facts₀ : Prop where
  transposes_S1024x1024_S1024x1024_1_0 : S1024x1024.Transposes [1, 0] S1024x1024
  shapeCasts_S1024x4x1024_S1024x4x1024x1 : S1024x4x1024.ShapeCasts S1024x4x1024x1
  h_S1024x128 : 0 < S1024x128.numel
  shapeCasts_S1024x128_S1024x128 : S1024x128.ShapeCasts S1024x128
  bitsLt_bf16_f32 : FTy.bits .bf16 < FTy.bits .f32
  inb_S1024x1x1024x1_S1024x1x1024x1_0_0_0_0 : ∀ a, (![0, 0, 0, 0] : Fin 4 → Nat) a + S1024x1x1024x1.size a ≤ S1024x1x1024x1.size a
  h_S1024x1x1024x1 : 0 < S1024x1x1024x1.numel
  shapeCasts_S1024x1x1024x1_S1024x1024 : S1024x1x1024x1.ShapeCasts S1024x1024
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  packedbf16_S1x1x1024x128_S1x1x1024x128_0_0_0_0 : (Rect.unit (s := S1x1x1024x128) ![0, 0, 0, 0] S1x1x1024x128.size inb_S1x1x1024x128_S1x1x1024x128_0_0_0_0).PackedRows (EltTy.packing .bf16)
  reduces_S1024x128_S1024 : S1024x128.Reduces [1] S1024
  shapeCasts_S1024_S1024x1 : S1024.ShapeCasts S1024x1
  broadcasts_S1024x1_S1024x128 : S1024x1.Broadcasts S1024x128
  reduces_S1024x1024_S1024 : S1024x1024.Reduces [1] S1024
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  transposes_S4x8x1024x128_S4x1024x8x128_0_2_1_3 : S4x8x1024x128.Transposes [0, 2, 1, 3] S4x1024x8x128
  shapeCasts_S4x1024x8x128_S4x1024x1024 : S4x1024x8x128.ShapeCasts S4x1024x1024
  transposes_S4x1024x1024_S1024x4x1024_1_0_2 : S4x1024x1024.Transposes [1, 0, 2] S1024x4x1024
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x128.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x1024x1.size a ≤ S1024x4x1024x1.size a
  hwx0_0 : ∀ i : grid0.Coords, EltTy.bits .f32 = 32 ∨ (Rect.block (s := S1024x4x1024x1) S1024x1x1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x128.size a ≤ S4x8x1024x128.size a
  hwx0_2 : ∀ i : grid0.Coords, EltTy.bits .bf16 = 32 ∨ (Rect.block (s := S4x8x1024x128) S1x1x1024x128.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x128.size a ≤ S1024x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1x1024x1.size a ≤ S1024x4x1024x1.size a
  hwx1_0 : ∀ i : grid1.Coords, EltTy.bits .f32 = 32 ∨ (Rect.block (s := S1024x4x1024x1) S1024x1x1024x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x128.size a ≤ S4x8x1024x128.size a
  hwx1_2 : ∀ i : grid1.Coords, EltTy.bits .bf16 = 32 ∨ (Rect.block (s := S4x8x1024x128) S1x1x1024x128.size (cc1_transform_2 i) (hinb1_2 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S1024x128.size a ≤ S1024x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1x1024x1.size a ≤ S1024x4x1024x1.size a
  hwx2_0 : ∀ i : grid2.Coords, EltTy.bits .f32 = 32 ∨ (Rect.block (s := S1024x4x1024x1) S1024x1x1024x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x128.size a ≤ S4x8x1024x128.size a
  hwx2_2 : ∀ i : grid2.Coords, EltTy.bits .bf16 = 32 ∨ (Rect.block (s := S4x8x1024x128) S1x1x1024x128.size (cc2_transform_2 i) (hinb2_2 i)).WholeWords (EltTy.packing .bf16)
  hrank3 : 0 < grid3.rank
  k3_mult1_dvd : ∀ i : grid3.Coords, 128 ∣ (k3_mult1 i).toNat
  k3_off1_inb : ∀ i : grid3.Coords, ∀ a, (k3_off1 i) a + S1024x128.size a ≤ S1024x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1x1024x1.size a ≤ S1024x4x1024x1.size a
  hwx3_0 : ∀ i : grid3.Coords, EltTy.bits .f32 = 32 ∨ (Rect.block (s := S1024x4x1024x1) S1024x1x1024x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .f32 = 32 ∨ (Rect.block (s := S1024x1024) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1024x128.size a ≤ S4x8x1024x128.size a
  hwx3_2 : ∀ i : grid3.Coords, EltTy.bits .bf16 = 32 ∨ (Rect.block (s := S4x8x1024x128) S1x1x1024x128.size (cc3_transform_2 i) (hinb3_2 i)).WholeWords (EltTy.packing .bf16)
  hrank4 : 0 < grid4.rank
  k4_mult1_dvd : ∀ i : grid4.Coords, 128 ∣ (k4_mult1 i).toNat
  k4_off1_inb : ∀ i : grid4.Coords, ∀ a, (k4_off1 i) a + S1024x128.size a ≤ S1024x1024.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1x1024x1.size a ≤ S1024x4x1024x1.size a
  hwx4_0 : ∀ i : grid4.Coords, EltTy.bits .f32 = 32 ∨ (Rect.block (s := S1024x4x1024x1) S1024x1x1024x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x1024x128.size a ≤ S4x8x1024x128.size a
  hwx4_2 : ∀ i : grid4.Coords, EltTy.bits .bf16 = 32 ∨ (Rect.block (s := S4x8x1024x128) S1x1x1024x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1x1024x128.size a ≤ S4x8x1024x128.size a
  hwx5_0 : ∀ i : grid5.Coords, EltTy.bits .bf16 = 32 ∨ (Rect.block (s := S4x8x1024x128) S1x1x1024x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x1024x128.size a ≤ S4x8x1024x128.size a
  hwx5_1 : ∀ i : grid5.Coords, EltTy.bits .bf16 = 32 ∨ (Rect.block (s := S4x8x1024x128) S1x1x1024x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x1024x128.size a ≤ S4x8x1024x128.size a
  hwx5_2 : ∀ i : grid5.Coords, EltTy.bits .bf16 = 32 ∨ (Rect.block (s := S4x8x1024x128) S1x1x1024x128.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x1024x128.size a ≤ S4x8x1024x128.size a
  hwx5_3 : ∀ i : grid5.Coords, EltTy.bits .bf16 = 32 ∨ (Rect.block (s := S4x8x1024x128) S1x1x1024x128.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x1024x128.size a ≤ S4x8x1024x128.size a
  hwx5_4 : ∀ i : grid5.Coords, EltTy.bits .bf16 = 32 ∨ (Rect.block (s := S4x8x1024x128) S1x1x1024x128.size (cc5_transform_4 i) (hinb5_4 i)).WholeWords (EltTy.packing .bf16)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x1x1024x128.size a ≤ S4x8x1024x128.size a
  hwx5_5 : ∀ i : grid5.Coords, EltTy.bits .f32 = 32 ∨ (Rect.block (s := S4x8x1024x128) S1x1x1024x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x1x1024x1024.size a ≤ S4x8x1024x1024.size a
  hwx5_6 : ∀ i : grid5.Coords, EltTy.bits .f32 = 32 ∨ (Rect.block (s := S4x8x1024x1024) S1x1x1024x1024.size (cc5_transform_6 i) (hinb5_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v1) S1024x1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x1x1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1x1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S1024x1x1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1x1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1024x1x1024x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1x1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v13) S1024x1x1024x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x1x1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v2) S1x1x1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1x1x1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S1x1x1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v11) S1x1x1024x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v14) S1x1x1024x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v15_0) S1x1x1024x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v15_1) S1x1x1024x1024.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S1024x4x1024 : Shape := ⟨3, ![1024, 4, 1024]⟩
abbrev S1024x1024 : Shape := ⟨2, ![1024, 1024]⟩
abbrev S1024x4x8x128 : Shape := ⟨4, ![1024, 4, 8, 128]⟩
abbrev S4x8x1024x128 : Shape := ⟨4, ![4, 8, 1024, 128]⟩
abbrev S_ : Shape := ⟨0, ![]⟩
abbrev S4x8x1024 : Shape := ⟨3, ![4, 8, 1024]⟩
abbrev S4x8x1024x1 : Shape := ⟨4, ![4, 8, 1024, 1]⟩
abbrev S4x8x1024x1024 : Shape := ⟨4, ![4, 8, 1024, 1024]⟩
abbrev S4x1024x8x128 : Shape := ⟨4, ![4, 1024, 8, 128]⟩
abbrev S4x1024x1024 : Shape := ⟨3, ![4, 1024, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1024x4x1024, .f32⟩
  | .hbm, ⟨1, _⟩ => ⟨S1024x4x1024, .f32⟩
  | .hbm, ⟨2, _⟩ => ⟨S1024x4x1024, .f32⟩
  | .hbm, ⟨3, _⟩ => ⟨S1024x4x1024, .f32⟩
  | .hbm, ⟨4, _⟩ => ⟨S1024x4x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x4x1024, .f32⟩
  | .hbm, ⟨11, _⟩ => ⟨S1024x4x8x128, .f32⟩
  | .hbm, ⟨12, _⟩ => ⟨S4x8x1024x128, .f32⟩
  | .hbm, ⟨13, _⟩ => ⟨S4x8x1024x128, .f32⟩
  | .hbm, ⟨14, _⟩ => ⟨S_, .f32⟩
  | .hbm, ⟨15, _⟩ => ⟨S4x8x1024, .f32⟩
  | .hbm, ⟨16, _⟩ => ⟨S4x8x1024x1, .f32⟩
  | .hbm, ⟨17, _⟩ => ⟨S4x8x1024x1, .f32⟩
  | .hbm, ⟨18, _⟩ => ⟨S4x8x1024x128, .f32⟩
  | .hbm, ⟨19, _⟩ => ⟨S4x8x1024x128, .f32⟩
  | .hbm, ⟨20, _⟩ => ⟨S1024x4x1024, .f32⟩
  | .hbm, ⟨21, _⟩ => ⟨S1024x4x8x128, .f32⟩
  | .hbm, ⟨22, _⟩ => ⟨S4x8x1024x128, .f32⟩
  | .hbm, ⟨23, _⟩ => ⟨S4x8x1024x128, .f32⟩
  | .hbm, ⟨24, _⟩ => ⟨S_, .f32⟩
  | .hbm, ⟨25, _⟩ => ⟨S4x8x1024, .f32⟩
  | .hbm, ⟨26, _⟩ => ⟨S4x8x1024x1, .f32⟩
  | .hbm, ⟨27, _⟩ => ⟨S4x8x1024x1, .f32⟩
  | .hbm, ⟨28, _⟩ => ⟨S4x8x1024x128, .f32⟩
  | .hbm, ⟨29, _⟩ => ⟨S4x8x1024x128, .f32⟩
  | .hbm, ⟨30, _⟩ => ⟨S1024x4x1024, .f32⟩
  | .hbm, ⟨31, _⟩ => ⟨S1024x4x8x128, .f32⟩
  | .hbm, ⟨32, _⟩ => ⟨S4x8x1024x128, .f32⟩
  | .hbm, ⟨33, _⟩ => ⟨S4x8x1024x128, .f32⟩
  | .hbm, ⟨34, _⟩ => ⟨S_, .f32⟩
  | .hbm, ⟨35, _⟩ => ⟨S4x8x1024, .f32⟩
  | .hbm, ⟨36, _⟩ => ⟨S4x8x1024x1, .f32⟩
  | .hbm, ⟨37, _⟩ => ⟨S4x8x1024x1, .f32⟩
  | .hbm, ⟨38, _⟩ => ⟨S4x8x1024x128, .f32⟩
  | .hbm, ⟨39, _⟩ => ⟨S4x8x1024x128, .f32⟩
  | .hbm, ⟨40, _⟩ => ⟨S1024x4x1024, .f32⟩
  | .hbm, ⟨41, _⟩ => ⟨S1024x4x8x128, .f32⟩
  | .hbm, ⟨42, _⟩ => ⟨S4x8x1024x128, .f32⟩
  | .hbm, ⟨43, _⟩ => ⟨S4x8x1024x128, .f32⟩
  | .hbm, ⟨44, _⟩ => ⟨S_, .f32⟩
  | .hbm, ⟨45, _⟩ => ⟨S4x8x1024, .f32⟩
  | .hbm, ⟨46, _⟩ => ⟨S4x8x1024x1, .f32⟩
  | .hbm, ⟨47, _⟩ => ⟨S4x8x1024x1, .f32⟩
  | .hbm, ⟨48, _⟩ => ⟨S4x8x1024x128, .f32⟩
  | .hbm, ⟨49, _⟩ => ⟨S4x8x1024x128, .f32⟩
  | .hbm, ⟨50, _⟩ => ⟨S1024x4x1024, .f32⟩
  | .hbm, ⟨51, _⟩ => ⟨S1024x4x8x128, .f32⟩
  | .hbm, ⟨52, _⟩ => ⟨S4x8x1024x128, .f32⟩
  | .hbm, ⟨53, _⟩ => ⟨S4x8x1024x1024, .f32⟩
  | .hbm, ⟨54, _⟩ => ⟨S_, .f32⟩
  | .hbm, ⟨55, _⟩ => ⟨S4x8x1024, .f32⟩
  | .hbm, ⟨56, _⟩ => ⟨S_, .f32⟩
  | .hbm, ⟨57, _⟩ => ⟨S4x8x1024, .f32⟩
  | .hbm, ⟨58, _⟩ => ⟨S4x8x1024, .f32⟩
  | .hbm, ⟨59, _⟩ => ⟨S4x8x1024x1, .f32⟩
  | .hbm, ⟨60, _⟩ => ⟨S4x8x1024x1024, .f32⟩
  | .hbm, ⟨61, _⟩ => ⟨S4x8x1024x1024, .f32⟩
  | .hbm, ⟨62, _⟩ => ⟨S4x8x1024x1024, .f32⟩
  | .hbm, ⟨63, _⟩ => ⟨S_, .f32⟩
  | .hbm, ⟨64, _⟩ => ⟨S4x8x1024, .f32⟩
  | .hbm, ⟨65, _⟩ => ⟨S4x8x1024x1, .f32⟩
  | .hbm, ⟨66, _⟩ => ⟨S4x8x1024x1024, .f32⟩
  | .hbm, ⟨67, _⟩ => ⟨S4x8x1024x1024, .f32⟩
  | .hbm, ⟨68, _⟩ => ⟨S4x8x1024x1024, .f32⟩
  | .hbm, ⟨69, _⟩ => ⟨S_, .f32⟩
  | .hbm, ⟨70, _⟩ => ⟨S4x8x1024, .f32⟩
  | .hbm, ⟨71, _⟩ => ⟨S_, .f32⟩
  | .hbm, ⟨72, _⟩ => ⟨S4x8x1024, .f32⟩
  | .hbm, ⟨73, _⟩ => ⟨S4x8x1024, .f32⟩
  | .hbm, ⟨74, _⟩ => ⟨S4x8x1024x1, .f32⟩
  | .hbm, ⟨75, _⟩ => ⟨S4x8x1024x1024, .f32⟩
  | .hbm, ⟨76, _⟩ => ⟨S4x8x1024x1024, .f32⟩
  | .hbm, ⟨77, _⟩ => ⟨S4x8x1024x1024, .f32⟩
  | .hbm, ⟨78, _⟩ => ⟨S_, .f32⟩
  | .hbm, ⟨79, _⟩ => ⟨S4x8x1024, .f32⟩
  | .hbm, ⟨80, _⟩ => ⟨S4x8x1024x1, .f32⟩
  | .hbm, ⟨81, _⟩ => ⟨S4x8x1024x1024, .f32⟩
  | .hbm, ⟨82, _⟩ => ⟨S4x8x1024x1024, .f32⟩
  | .hbm, ⟨83, _⟩ => ⟨S4x8x1024x1024, .f32⟩
  | .hbm, ⟨84, _⟩ => ⟨S_, .f32⟩
  | .hbm, ⟨85, _⟩ => ⟨S4x8x1024x1024, .f32⟩
  | .hbm, ⟨86, _⟩ => ⟨S4x8x1024x1024, .f32⟩
  | .hbm, ⟨87, _⟩ => ⟨S4x8x1024x128, .f32⟩
  | .hbm, ⟨88, _⟩ => ⟨S4x1024x8x128, .f32⟩
  | .hbm, ⟨89, _⟩ => ⟨S4x1024x1024, .f32⟩
  | .hbm, ⟨90, _⟩ => ⟨S1024x4x1024, .f32⟩
  | _, _ => ⟨S1024x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_call2_v2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_call3_v2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_cst_0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_2 : Ref sig .tc := ⟨.hbm, 69, rfl⟩
abbrev main_v40 : Ref sig .tc := ⟨.hbm, 70, rfl⟩
abbrev main_cst_3 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_5 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]

class Facts₀ : Prop where
  shapeCasts_S1024x4x1024_S1024x4x8x128 : S1024x4x1024.ShapeCasts S1024x4x8x128
  transposes_S1024x4x8x128_S4x8x1024x128_1_2_0_3 : S1024x4x8x128.Transposes [1, 2, 0, 3] S4x8x1024x128
  reducesTo_S4x8x1024x128_S4x8x1024_d3 : S4x8x1024x128.ReducesTo [3] S4x8x1024
  h_S_ : 0 < S_.numel
  bcast_S4x8x1024_S4x8x1024x1_0_1_2 : S4x8x1024.BroadcastsInDim S4x8x1024x1 (![0, 1, 2] : Fin 3 → Fin S4x8x1024x1.rank)
  bcast_S4x8x1024x1_S4x8x1024x128_0_1_2_3 : S4x8x1024x1.BroadcastsInDim S4x8x1024x128 (![0, 1, 2, 3] : Fin 4 → Fin S4x8x1024x128.rank)
  reducesTo_S4x8x1024x1024_S4x8x1024_d3 : S4x8x1024x1024.ReducesTo [3] S4x8x1024
  bcast_S_S4x8x1024 : S_.BroadcastsInDim S4x8x1024 (![] : Fin 0 → Fin S4x8x1024.rank)
  bcast_S4x8x1024x1_S4x8x1024x1024_0_1_2_3 : S4x8x1024x1.BroadcastsInDim S4x8x1024x1024 (![0, 1, 2, 3] : Fin 4 → Fin S4x8x1024x1024.rank)
  bcast_S_S4x8x1024x1024 : S_.BroadcastsInDim S4x8x1024x1024 (![] : Fin 0 → Fin S4x8x1024x1024.rank)
  transposes_S4x8x1024x128_S4x1024x8x128_0_2_1_3 : S4x8x1024x128.Transposes [0, 2, 1, 3] S4x1024x8x128
  shapeCasts_S4x1024x8x128_S4x1024x1024 : S4x1024x8x128.ShapeCasts S4x1024x1024
  transposes_S4x1024x1024_S1024x4x1024_1_0_2 : S4x1024x1024.Transposes [1, 0, 2] S1024x4x1024
  dot_S1024x4x1024_S1024x1024_S1024x4x1024_2_1_01_0_n_n_wf : DotDims.WF S1024x4x1024 S1024x1024 S1024x4x1024 [2] [1] [0, 1] [0] [] []
  dot_S4x8x1024x128_S4x8x1024x128_S4x8x1024x1024_3_3_2_2_01_01_wf : DotDims.WF S4x8x1024x128 S4x8x1024x128 S4x8x1024x1024 [3] [3] [2] [2] [0, 1] [0, 1]
  dot_S4x8x1024x1024_S4x8x1024x128_S4x8x1024x128_3_2_2_3_01_01_wf : DotDims.WF S4x8x1024x1024 S4x8x1024x128 S4x8x1024x128 [3] [2] [2] [3] [0, 1] [0, 1]

variable [Facts₀]

def dot_S1024x4x1024_S1024x1024_S1024x4x1024_2_1_01_0_n_n : DotDims S1024x4x1024 S1024x1024 S1024x4x1024 where
  lhsContracting := [2]
  rhsContracting := [1]
  lhsNonContracting := [0, 1]
  rhsNonContracting := [0]
  lhsBatch := []
  rhsBatch := []
  wf := dot_S1024x4x1024_S1024x1024_S1024x4x1024_2_1_01_0_n_n_wf
def dot_S4x8x1024x128_S4x8x1024x128_S4x8x1024x1024_3_3_2_2_01_01 : DotDims S4x8x1024x128 S4x8x1024x128 S4x8x1024x1024 where
  lhsContracting := [3]
  rhsContracting := [3]
  lhsNonContracting := [2]
  rhsNonContracting := [2]
  lhsBatch := [0, 1]
  rhsBatch := [0, 1]
  wf := dot_S4x8x1024x128_S4x8x1024x128_S4x8x1024x1024_3_3_2_2_01_01_wf
def dot_S4x8x1024x1024_S4x8x1024x128_S4x8x1024x128_3_2_2_3_01_01 : DotDims S4x8x1024x1024 S4x8x1024x128 S4x8x1024x128 where
  lhsContracting := [3]
  rhsContracting := [2]
  lhsNonContracting := [2]
  rhsNonContracting := [3]
  lhsBatch := [0, 1]
  rhsBatch := [0, 1]
  wf := dot_S4x8x1024x1024_S4x8x1024x128_S4x8x1024x128_3_2_2_3_01_01_wf

class Facts : Prop extends Facts₀ where

variable [Facts]
-- ==== Proof.KernelRun.lean ====
/-
  The idealized kernel's run with its two results NAMED.  @main is six pipelined regions among stretches of host
  operations; the buffer contents at each boundary are a fold from the launch memory, and the last boundary's
  contents are `Gen.W12`.  Every weakly fair execution terminates without a fault in a state whose unscoped buffers
  hold exactly `Gen.W12`; read at the two result buffers and at the ten argument buffers this is the statement
  below.  What `Gen.W12` holds at the two results is computed in the modules that import this one.
-/
import proofs.«182138_j12103217840332_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the attention output (after the
    host's two transposes and reshape) and the attention weights at the last boundary's contents, and the
    arguments as launched. -/
theorem run : θ_run defs (onTc (τ := τ) (main (F := F))) ⟨m, fun _ => 0, ρ⟩ (fun r => ∀ c : Dev nD,
      r.2.mem ((c.tc : Thread nD τ).loc main_v18) = W12 m ρ c (Proc.devRef .tc main_v18)
      ∧ r.2.mem ((c.tc : Thread nD τ).loc main_v15_1) = W12 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v18 (by decide)),
       h c _ (mem_uc main_v15_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Named

end
-- ==== Proof.Spec.lean ====
/-
  The mathematics both programs compute, stated once and index by index over plain finite index types, with no
  program in sight.  One attention head works on [1024, 128] tiles: a tile's rows are normalised to unit Euclidean
  length, two such tiles give the [1024, 1024] matrix of row-by-row inner products, every row of that matrix is
  turned into a softmax, the two branches' softmaxes are averaged, and the average is applied to the value tile.
  The float words of −∞ and of 1/2 stay words: the same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic

/-- One head's [1024, 128] tile, and one head's [1024, 1024] matrix. -/
abbrev Tile := Fin 1024 → Fin 128 → EReal
abbrev Sq := Fin 1024 → Fin 1024 → EReal

/-- The f32 words of −∞ (the initial value of a row maximum) and of 1/2 (the average of the two branches). -/
abbrev ninf : EReal := Ideal.ofBits .f32 0xFF800000#32
abbrev half : EReal := Ideal.ofBits .f32 0x3F000000#32

/-- Each row divided by the square root of the sum of its squares. -/
def l2n (P : Tile) : Tile := fun n d => Ideal.div (P n d) (Ideal.sqrt (∑ k : Fin 128, P n k * P n k))

/-- Inner products of the rows of `Q` with the rows of `K`. -/
def score (Q K : Tile) : Sq := fun n m => ∑ k : Fin 128, Q n k * K m k

/-- A row's maximum, folded from −∞. -/
def rowmax (S : Sq) (n : Fin 1024) : EReal := (Finset.univ : Finset (Fin 1024)).fold max ninf (S n)

/-- The row softmax: exp of the entry less the row maximum, over the sum of those along the row. -/
def smax (S : Sq) : Sq := fun n m =>
  Ideal.div (Ideal.exp (S n m - rowmax S n)) (∑ k : Fin 1024, Ideal.exp (S n k - rowmax S n))

/-- Half the sum of the two branches' softmaxes. -/
def attn (Q K Q' K' : Tile) : Sq := fun n m =>
  half * (smax (score (l2n Q) (l2n K)) n m + smax (score (l2n Q') (l2n K')) n m)

/-- The attention matrix applied to the value tile. -/
def ctx (A : Sq) (V : Tile) : Tile := fun n d => ∑ k : Fin 1024, A n k * V k d

/-- A head's projected tile: row `n` of batch `b` of the input against row `128 h + d` of the weight. -/
def proj (X : Fin 1024 → Fin 4 → Fin 1024 → EReal) (W : Fin 1024 → Fin 1024 → EReal) (b : Fin 4) (h : Fin 8) : Tile :=
  fun n d => ∑ k : Fin 1024, X n b k * W ⟨128 * h.val + d.val, by have := h.isLt; have := d.isLt; omega⟩ k

/-! ## All thirty-two heads at once: arrays indexed (batch, head, row, column) -/

/-- The five projected arrays' shape, and the attention weights' shape. -/
abbrev SH : Shape := ⟨4, ![4, 8, 1024, 128]⟩
abbrev SA : Shape := ⟨4, ![4, 8, 1024, 1024]⟩

/-- Head `(b, h)`'s tile of a [4, 8, 1024, 128] array. -/
def headOf (A : SH.Idx → EReal) (b : Fin 4) (h : Fin 8) : Tile := fun n d => A (ValueIdx.ix4 b h n d)

/-- The attention weights of every head: entry `(b, h, n, m)` is head `(b, h)`'s `attn` at `(n, m)`. -/
def attnArr (A0 A1 A2 A3 : SH.Idx → EReal) : SA.Idx → EReal := fun i =>
  attn (headOf A0 (i 0) (i 1)) (headOf A1 (i 0) (i 1)) (headOf A2 (i 0) (i 1)) (headOf A3 (i 0) (i 1)) (i 2) (i 3)

/-- The context of every head: the head's attention weights applied to its value tile. -/
def ctxArr (A0 A1 A2 A3 A4 : SH.Idx → EReal) : SH.Idx → EReal := fun i =>
  ctx (attn (headOf A0 (i 0) (i 1)) (headOf A1 (i 0) (i 1)) (headOf A2 (i 0) (i 1)) (headOf A3 (i 0) (i 1)))
    (headOf A4 (i 0) (i 1)) (i 2) (i 3)

/-- The projection of every head. -/
def projArr (X : (⟨3, ![1024, 4, 1024]⟩ : Shape).Idx → EReal) (W : (⟨2, ![1024, 1024]⟩ : Shape).Idx → EReal) : SH.Idx → EReal := fun i =>
  proj (fun n b k => X (ValueIdx.ix3 n b k)) (fun r k => W (ValueIdx.ix2 r k)) (i 0) (i 1) (i 2) (i 3)

/-- Taking the maximum with the fold's own initial value changes nothing: the fold is already above it. -/
theorem max_init_fold {ι : Type} (s : Finset ι) (a : EReal) (f : ι → EReal) : max a (s.fold max a f) = s.fold max a f :=
  max_eq_right ((Finset.le_fold_max a).mpr (Or.inl le_rfl))

end Cert.Spec

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.AttnTile.lean ====
/-
  One attention head, as the idealized kernel's body computes it on the staged [1, 1, 1024, 128] blocks, read entry
  by entry over the extended reals: the three building blocks — a tile's rows scaled to unit length, the matrix of
  inner products of two tiles' rows, the row softmax — and the two matrix products, each equal to the
  specification's function of the same name.  Changes of float format are the identity here, so the bf16 operands of
  the matrix unit are the f32 values themselves.
-/
import proofs.«182138_j12103217840332_2_alg».proof.Proof.Gen.KernelIdeal.Skeleton
import proofs.«182138_j12103217840332_2_alg».proof.Proof.Spec
import proofs.«182138_j12103217840332_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Tile

open Cert.KernelIdeal Cert.KernelIdeal.Gen Idealize.ShloMosaic Idealize.ShloMosaic.ValueIdx Cert.LibKeepdims

/-! ## The two matrix products -/

/-- rows against rows: the contraction runs over the second axis of both operands -/
abbrev Dnt := dot_S1024x128_S1024x128_S1024x1024_1_1_0_0_n_n
/-- rows against columns -/
abbrev Dnn := dot_S1024x1024_S1024x128_S1024x128_1_0_0_1_n_n

theorem Dnt_lhs0 (i : S1024x1024.Idx) (q : Dnt.contr.Idx) : (Dnt.lhsIdx i q 0).val = (i 0).val := by
  unfold DotDims.lhsIdx
  rw [dif_neg (show ¬(0 : Fin S1024x128.rank) ∈ Dnt.lhsBatch by decide), dif_pos (show (0 : Fin S1024x128.rank) ∈ Dnt.lhsNonContracting by decide)]
  rfl
theorem Dnt_lhs1 (i : S1024x1024.Idx) (q : Dnt.contr.Idx) : (Dnt.lhsIdx i q 1).val = (q ⟨0, by decide⟩).val :=
  Dnt.lhsIdx_val_of_single rfl i q
theorem Dnt_rhs0 (i : S1024x1024.Idx) (q : Dnt.contr.Idx) : (Dnt.rhsIdx i q 0).val = (i 1).val := by
  unfold DotDims.rhsIdx
  rw [dif_neg (show ¬(0 : Fin S1024x128.rank) ∈ Dnt.rhsBatch by decide), dif_pos (show (0 : Fin S1024x128.rank) ∈ Dnt.rhsNonContracting by decide)]
  rfl
theorem Dnt_rhs1 (i : S1024x1024.Idx) (q : Dnt.contr.Idx) : (Dnt.rhsIdx i q 1).val = (q ⟨0, by decide⟩).val :=
  Dnt.rhsIdx_val_of_single rfl i q

/-- Entry `(n, m)` of the product of `q` with the transpose of `k`, into a zero accumulator: the inner product
    of row `n` of `q` and row `m` of `k`. -/
theorem matmul_nt_apply (q k : FVec Ideal S1024x128 .bf16) (n m : Fin 1024) :
    matmul Dnt none q k (constant S1024x1024 .f32 0x00000000#32) (ix2 n m) = ∑ j : Fin 128, q (ix2 n j) * k (ix2 m j) := by
  refine (Ideal.matmul_constant_zero_apply Dnt none q k (ix2 n m)).trans ?_
  rw [← Equiv.sum_comp (contrEquiv1 Dnt 128 rfl rfl).symm]
  refine Finset.sum_congr rfl fun j _ => ?_
  have hj := contrEquiv1_symm_val Dnt 128 rfl rfl j
  have el : Dnt.lhsIdx (ix2 n m) ((contrEquiv1 Dnt 128 rfl rfl).symm j) = ix2 n j := funext fun a => Fin.ext (by
    match a with
    | ⟨0, _⟩ => exact Dnt_lhs0 _ _
    | ⟨1, _⟩ => exact (Dnt_lhs1 _ _).trans hj)
  have er : Dnt.rhsIdx (ix2 n m) ((contrEquiv1 Dnt 128 rfl rfl).symm j) = ix2 m j := funext fun a => Fin.ext (by
    match a with
    | ⟨0, _⟩ => exact Dnt_rhs0 _ _
    | ⟨1, _⟩ => exact (Dnt_rhs1 _ _).trans hj)
  rw [el, er]

theorem Dnn_lhs0 (i : S1024x128.Idx) (q : Dnn.contr.Idx) : (Dnn.lhsIdx i q 0).val = (i 0).val := by
  unfold DotDims.lhsIdx
  rw [dif_neg (show ¬(0 : Fin S1024x1024.rank) ∈ Dnn.lhsBatch by decide), dif_pos (show (0 : Fin S1024x1024.rank) ∈ Dnn.lhsNonContracting by decide)]
  rfl
theorem Dnn_lhs1 (i : S1024x128.Idx) (q : Dnn.contr.Idx) : (Dnn.lhsIdx i q 1).val = (q ⟨0, by decide⟩).val :=
  Dnn.lhsIdx_val_of_single rfl i q
theorem Dnn_rhs0 (i : S1024x128.Idx) (q : Dnn.contr.Idx) : (Dnn.rhsIdx i q 0).val = (q ⟨0, by decide⟩).val :=
  Dnn.rhsIdx_val_of_single rfl i q
theorem Dnn_rhs1 (i : S1024x128.Idx) (q : Dnn.contr.Idx) : (Dnn.rhsIdx i q 1).val = (i 1).val := by
  unfold DotDims.rhsIdx
  rw [dif_neg (show ¬(1 : Fin S1024x128.rank) ∈ Dnn.rhsBatch by decide), dif_pos (show (1 : Fin S1024x128.rank) ∈ Dnn.rhsNonContracting by decide)]
  rfl

/-- Entry `(n, d)` of the product of a [1024, 1024] matrix with a [1024, 128] one, into a zero accumulator. -/
theorem matmul_nn_apply (a : FVec Ideal S1024x1024 .bf16) (v : FVec Ideal S1024x128 .bf16) (n : Fin 1024) (d : Fin 128) :
    matmul Dnn none a v (constant S1024x128 .f32 0x00000000#32) (ix2 n d) = ∑ j : Fin 1024, a (ix2 n j) * v (ix2 j d) := by
  refine (Ideal.matmul_constant_zero_apply Dnn none a v (ix2 n d)).trans ?_
  rw [← Equiv.sum_comp (contrEquiv1 Dnn 1024 rfl rfl).symm]
  refine Finset.sum_congr rfl fun j _ => ?_
  have hj := contrEquiv1_symm_val Dnn 1024 rfl rfl j
  have el : Dnn.lhsIdx (ix2 n d) ((contrEquiv1 Dnn 1024 rfl rfl).symm j) = ix2 n j := funext fun a => Fin.ext (by
    match a with
    | ⟨0, _⟩ => exact Dnn_lhs0 _ _
    | ⟨1, _⟩ => exact (Dnn_lhs1 _ _).trans hj)
  have er : Dnn.rhsIdx (ix2 n d) ((contrEquiv1 Dnn 1024 rfl rfl).symm j) = ix2 j d := funext fun a => Fin.ext (by
    match a with
    | ⟨0, _⟩ => exact (Dnn_rhs0 _ _).trans hj
    | ⟨1, _⟩ => exact Dnn_rhs1 _ _)
  rw [el, er]

/-! ## A staged block as a tile -/

/-- The [1024, 128] tile a staged [1, 1, 1024, 128] block holds. -/
def tileOf (x : FVec Ideal S1x1x1024x128 .bf16) : Cert.Spec.Tile := fun n d => x (ix4 (0 : Fin 1) (0 : Fin 1) n d)

/-- Dropping the two unit axes keeps every entry where it is. -/
theorem cast_in_apply (x : FVec Ideal S1x1x1024x128 .bf16) (n : Fin 1024) (d : Fin 128) :
    shapeCast S1024x128 x shapeCasts_S1x1x1024x128_S1024x128 (ix2 n d) = tileOf x n d :=
  shapeCast_apply x shapeCasts_S1x1x1024x128_S1024x128 (ix2 n d) (ix4 (0 : Fin 1) (0 : Fin 1) n d) (by
    rw [Shape.rowMajor_val_four, Shape.rowMajor_val_two]
    show ((0 * 1 + 0) * 1024 + n.val) * 128 + d.val = n.val * 128 + d.val
    omega)

/-! ## Rows scaled to unit length -/

/-- The body's normalisation of an f32 tile: each entry over the square root of its row's sum of squares. -/
def nrm (u : FVec Ideal S1024x128 .f32) : FVec Ideal S1024x128 .f32 :=
  divf u (broadcastTo S1024x128 (sqrt (shapeCast S1024x1 (multiReduction .add [1] S1024 (mulf u u) 0x00000000#32 reduces_S1024x128_S1024 (.inl rfl) rfl) shapeCasts_S1024_S1024x1)) broadcasts_S1024x1_S1024x128)

theorem nrm_apply (u : FVec Ideal S1024x128 .f32) (n : Fin 1024) (d : Fin 128) :
    nrm u (ix2 n d) = Ideal.div (u (ix2 n d)) (Ideal.sqrt (∑ k : Fin 128, u (ix2 n k) * u (ix2 n k))) :=
  congrArg (Ideal.div (u (ix2 n d))) <|
    (broadcastTo_col_apply _ broadcasts_S1024x1_S1024x128 n d).trans <| congrArg Ideal.sqrt <|
      (shapeCast_col_apply _ shapeCasts_S1024_S1024x1 n).trans
        (rowsum_apply (mulf u u) 0x00000000#32 reduces_S1024x128_S1024 (.inl rfl) rfl n)

/-- A staged block, cast to a tile, widened and normalised, is the specification's `l2n` of the block's tile. -/
theorem nrm_block_apply (x : FVec Ideal S1x1x1024x128 .bf16) (n : Fin 1024) (d : Fin 128) :
    nrm (extf .f32 (shapeCast S1024x128 x shapeCasts_S1x1x1024x128_S1024x128) bitsLt_bf16_f32) (ix2 n d)
      = Cert.Spec.l2n (tileOf x) n d := by
  refine (nrm_apply _ n d).trans ?_
  show Ideal.div (shapeCast S1024x128 x shapeCasts_S1x1x1024x128_S1024x128 (ix2 n d))
      (Ideal.sqrt (∑ k : Fin 128, shapeCast S1024x128 x shapeCasts_S1x1x1024x128_S1024x128 (ix2 n k)
        * shapeCast S1024x128 x shapeCasts_S1x1x1024x128_S1024x128 (ix2 n k))) = _
  simp only [cast_in_apply]
  rfl

/-! ## The row softmax -/

/-- The body's softmax of a [1024, 1024] matrix: the row maximum taken off, the exponential, over its row sum. -/
def smx (s : FVec Ideal S1024x1024 .f32) : FVec Ideal S1024x1024 .f32 :=
  divf (exp (subf s (broadcastTo S1024x1024 (shapeCast S1024x1 (multiReduction .maximumf [1] S1024 s 0xFF800000#32 reduces_S1024x1024_S1024 (.inl rfl) rfl) shapeCasts_S1024_S1024x1) broadcasts_S1024x1_S1024x1024)))
    (broadcastTo S1024x1024 (shapeCast S1024x1 (multiReduction .add [1] S1024
      (exp (subf s (broadcastTo S1024x1024 (shapeCast S1024x1 (multiReduction .maximumf [1] S1024 s 0xFF800000#32 reduces_S1024x1024_S1024 (.inl rfl) rfl) shapeCasts_S1024_S1024x1) broadcasts_S1024x1_S1024x1024)))
      0x00000000#32 reduces_S1024x1024_S1024 (.inl rfl) rfl) shapeCasts_S1024_S1024x1) broadcasts_S1024x1_S1024x1024)

/-- The row maximum, broadcast back, read at an entry. -/
theorem rowmax_bcast_apply (s : FVec Ideal S1024x1024 .f32) (n m : Fin 1024) :
    broadcastTo S1024x1024 (shapeCast S1024x1 (multiReduction .maximumf [1] S1024 s 0xFF800000#32 reduces_S1024x1024_S1024 (.inl rfl) rfl) shapeCasts_S1024_S1024x1) broadcasts_S1024x1_S1024x1024 (ix2 n m)
      = Cert.Spec.rowmax (fun a b => s (ix2 a b)) n :=
  (broadcastTo_col_apply _ broadcasts_S1024x1_S1024x1024 n m).trans <|
    (shapeCast_col_apply _ shapeCasts_S1024_S1024x1 n).trans
      (rowmax_apply s 0xFF800000#32 reduces_S1024x1024_S1024 (.inl rfl) rfl n)

theorem smx_apply (s : FVec Ideal S1024x1024 .f32) (n m : Fin 1024) :
    smx s (ix2 n m) = Cert.Spec.smax (fun a b => s (ix2 a b)) n m := by
  show Ideal.div (Ideal.exp (s (ix2 n m) - _)) _ = Ideal.div (Ideal.exp (s (ix2 n m) - _)) _
  rw [rowmax_bcast_apply s n m]
  refine congrArg (Ideal.div _) ?_
  refine (broadcastTo_col_apply _ broadcasts_S1024x1_S1024x1024 n m).trans ?_
  refine (shapeCast_col_apply _ shapeCasts_S1024_S1024x1 n).trans ?_
  refine (rowsum_apply _ 0x00000000#32 reduces_S1024x1024_S1024 (.inl rfl) rfl n).trans ?_
  refine Finset.sum_congr rfl fun k _ => ?_
  show Ideal.exp (s (ix2 n k) - _) = Ideal.exp (s (ix2 n k) - _)
  rw [rowmax_bcast_apply s n k]

end Cert.KernelIdeal.Tile

end
-- ==== Proof.AttnBody.lean ====
/-
  What the attention kernel's body leaves in its two output blocks, entry by entry: the attention-weights block is
  the specification's averaged double softmax of the four query / key blocks' tiles, and the context block is that
  matrix applied to the value block's tile.  The body's stores each cover their whole block, so a block is just the
  store's payload; the payloads are unfolded into the three building blocks of the tile module.
-/
import proofs.«182138_j12103217840332_2_alg».proof.Proof.Gen.KernelIdeal.Frame
import proofs.«182138_j12103217840332_2_alg».proof.Proof.AttnTile

set_option maxRecDepth 16384

noncomputable section

namespace Cert.KernelIdeal.Body

open Cert.KernelIdeal Cert.KernelIdeal.Gen Idealize.ShloMosaic Idealize.ShloMosaic.ValueIdx Cert.LibKeepdims
open Cert.KernelIdeal.Tile

theorem hz4 : (![0, 0, 0, 0] : Fin 4 → Nat) = fun _ => 0 := funext fun a => by fin_cases a <;> rfl

/-! ## The payloads as compositions of the tile module's building blocks -/

theorem pay5_eq (v30 : FVec Ideal S1x1x1024x128 .bf16) :
    k5_pay5 (F := Ideal) v30 = nrm (extf .f32 (shapeCast S1024x128 v30 shapeCasts_S1x1x1024x128_S1024x128) bitsLt_bf16_f32) := rfl

theorem pay4_eq (v0 v9 : FVec Ideal S1x1x1024x128 .bf16) :
    k5_pay4 (F := Ideal) v0 v9 = smx (matmul Dnt none
      (truncf .bf16 (nrm (extf .f32 (shapeCast S1024x128 v0 shapeCasts_S1x1x1024x128_S1024x128) bitsLt_bf16_f32)) bitsLt_bf16_f32)
      (truncf .bf16 (nrm (extf .f32 (shapeCast S1024x128 v9 shapeCasts_S1x1x1024x128_S1024x128) bitsLt_bf16_f32)) bitsLt_bf16_f32)
      (constant S1024x1024 .f32 0x00000000#32)) := rfl

theorem pay1_eq (v29 : FVec Ideal S1024x1024 .f32) (v38 : FVec Ideal S1024x128 .f32) (v39 : FVec Ideal S1x1x1024x128 .bf16) :
    k5_pay1 (F := Ideal) v29 v38 v39 = mulf (broadcast S1024x1024 (Scalar.ofBits .f32 0x3F000000#32))
      (addf v29 (smx (matmul Dnt none (truncf .bf16 v38 bitsLt_bf16_f32)
        (truncf .bf16 (nrm (extf .f32 (shapeCast S1024x128 v39 shapeCasts_S1x1x1024x128_S1024x128) bitsLt_bf16_f32)) bitsLt_bf16_f32)
        (constant S1024x1024 .f32 0x00000000#32)))) := rfl

/-! ## Read at an entry -/

/-- The normalised tiles' inner products, through the matrix unit. -/
theorem score_apply (u w : FVec Ideal S1x1x1024x128 .bf16) (n m : Fin 1024) :
    matmul Dnt none
      (truncf .bf16 (nrm (extf .f32 (shapeCast S1024x128 u shapeCasts_S1x1x1024x128_S1024x128) bitsLt_bf16_f32)) bitsLt_bf16_f32)
      (truncf .bf16 (nrm (extf .f32 (shapeCast S1024x128 w shapeCasts_S1x1x1024x128_S1024x128) bitsLt_bf16_f32)) bitsLt_bf16_f32)
      (constant S1024x1024 .f32 0x00000000#32) (ix2 n m)
      = Cert.Spec.score (Cert.Spec.l2n (tileOf u)) (Cert.Spec.l2n (tileOf w)) n m := by
  refine (matmul_nt_apply _ _ n m).trans ?_
  refine Finset.sum_congr rfl fun j _ => ?_
  show nrm _ (ix2 n j) * nrm _ (ix2 m j) = _
  rw [nrm_block_apply u n j, nrm_block_apply w m j]

/-- The first branch's softmax (the first part of the body). -/
theorem pay4_apply (x0 x1 : FVec Ideal S1x1x1024x128 .bf16) (n m : Fin 1024) :
    k5_pay4 (F := Ideal) x0 x1 (ix2 n m)
      = Cert.Spec.smax (Cert.Spec.score (Cert.Spec.l2n (tileOf x0)) (Cert.Spec.l2n (tileOf x1))) n m := by
  rw [pay4_eq]
  refine (smx_apply _ n m).trans ?_
  exact congrArg (fun S => Cert.Spec.smax S n m) (funext fun a => funext fun b => score_apply x0 x1 a b)

/-- The averaged double softmax. -/
theorem pay1_apply (x0 x1 x2 x3 : FVec Ideal S1x1x1024x128 .bf16) (n m : Fin 1024) :
    k5_pay1 (F := Ideal) (k5_pay4 x0 x1) (k5_pay5 x2) x3 (ix2 n m)
      = Cert.Spec.attn (tileOf x0) (tileOf x1) (tileOf x2) (tileOf x3) n m := by
  rw [pay1_eq, pay5_eq]
  show Ideal.ofBits .f32 0x3F000000#32 * (k5_pay4 (F := Ideal) x0 x1 (ix2 n m) + smx _ (ix2 n m)) = _
  rw [pay4_apply x0 x1 n m]
  unfold Cert.Spec.attn
  refine congrArg (HMul.hMul _) (congrArg (HAdd.hAdd _) ?_)
  refine (smx_apply _ n m).trans ?_
  exact congrArg (fun S => Cert.Spec.smax S n m) (funext fun a => funext fun b => score_apply x2 x3 a b)

/-! ## The two output blocks -/

/-- The attention-weights block (window 6). -/
theorem out5_6_apply (x0 x1 x2 x3 x4 : FVec Ideal S1x1x1024x128 .bf16) (n m : Fin 1024) :
    out5_6 (F := Ideal) x0 x1 x2 x3 x4 (ix4 (0 : Fin 1) (0 : Fin 1) n m)
      = Cert.Spec.attn (tileOf x0) (tileOf x1) (tileOf x2) (tileOf x3) n m := by
  unfold out5_6
  rw [View.canon_unit_zero hz4]
  simp only [View.ld_unit_zero (S := S1x1x1024x128) hz4]
  unfold k5_pay2
  refine (shapeCast_apply _ shapeCasts_S1024x1024_S1x1x1024x1024 (ix4 (0 : Fin 1) (0 : Fin 1) n m) (ix2 n m) (by
    rw [Shape.rowMajor_val_four, Shape.rowMajor_val_two]
    show n.val * 1024 + m.val = ((0 * 1 + 0) * 1024 + n.val) * 1024 + m.val
    omega)).trans ?_
  exact pay1_apply x0 x1 x2 x3 n m

/-- The context block (window 5). -/
theorem out5_5_apply (x0 x1 x2 x3 x4 : FVec Ideal S1x1x1024x128 .bf16) (n : Fin 1024) (d : Fin 128) :
    out5_5 (F := Ideal) x0 x1 x2 x3 x4 (ix4 (0 : Fin 1) (0 : Fin 1) n d)
      = Cert.Spec.ctx (Cert.Spec.attn (tileOf x0) (tileOf x1) (tileOf x2) (tileOf x3)) (tileOf x4) n d := by
  unfold out5_5
  rw [View.canon_unit_zero hz4]
  simp only [View.ld_unit_zero (S := S1x1x1024x128) hz4]
  unfold k5_pay3
  refine (shapeCast_apply _ shapeCasts_S1024x128_S1x1x1024x128 (ix4 (0 : Fin 1) (0 : Fin 1) n d) (ix2 n d) (by
    rw [Shape.rowMajor_val_four, Shape.rowMajor_val_two]
    show n.val * 128 + d.val = ((0 * 1 + 0) * 1024 + n.val) * 128 + d.val
    omega)).trans ?_
  refine (matmul_nn_apply _ _ n d).trans ?_
  refine Finset.sum_congr rfl fun j _ => ?_
  show k5_pay1 (F := Ideal) (k5_pay4 x0 x1) (k5_pay5 x2) x3 (ix2 n j) * shapeCast S1024x128 x4 shapeCasts_S1x1x1024x128_S1024x128 (ix2 j d) = _
  rw [pay1_apply x0 x1 x2 x3 n j, cast_in_apply x4 j d]

end Cert.KernelIdeal.Body

end
-- ==== Proof.AttnArr.lean ====
/-
  The attention kernel's two result arrays after its thirty-two grid points, each as ONE function of the five
  projected arrays the region finds.  Point `t` works on head `(t / 8, t % 8)`: every window's block at `t` is
  that head's slice of its array, so the block a point writes back is that head's slice of the array-level
  function, and the thirty-two blocks fill the array.
-/
import proofs.«182138_j12103217840332_2_alg».proof.Proof.AttnBody
import Idealize.ShloMosaic.Lib.Pipeline.Value

set_option maxRecDepth 16384

noncomputable section

namespace Cert.KernelIdeal.AttnArr

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Tile

variable (V : (c : Dev nD) → (b : Ref sig .tc) → Buf (Elt Ideal) ((c : Thread nD τ).loc b))

/-- The head a grid point works on. -/
def bq (t : Fin cfg5.N) : Fin 4 := ⟨t.val / 8, by have h : t.val < 32 := lt_of_lt_of_eq t.isLt N_5; omega⟩
def hq (t : Fin cfg5.N) : Fin 8 := ⟨t.val % 8, Nat.mod_lt _ (by decide)⟩

/-- The printed index maps, decided once over the grid: every window's block index at point `t` is `(t / 8, t % 8, 0, 0)`. -/
theorem idx5 : ∀ t : Fin cfg5.N,
    win5_0.index t = ![t.val / 8, t.val % 8, 0, 0] ∧ win5_1.index t = ![t.val / 8, t.val % 8, 0, 0]
    ∧ win5_2.index t = ![t.val / 8, t.val % 8, 0, 0] ∧ win5_3.index t = ![t.val / 8, t.val % 8, 0, 0]
    ∧ win5_4.index t = ![t.val / 8, t.val % 8, 0, 0] ∧ win5_5.index t = ![t.val / 8, t.val % 8, 0, 0]
    ∧ win5_6.index t = ![t.val / 8, t.val % 8, 0, 0] :=
  (by decide +kernel : ∀ t : Fin grid5.N, _)

/-- Input window 0's block at point `t`, as a tile, is head `(t / 8, t % 8)` of its array. -/
theorem tile_iblk0 (c : Dev nD) (t : Fin cfg5.N) :
    tileOf (iblk5 V c 0 t) = Cert.Spec.headOf (V c main_v2) (bq t) (hq t) := by
  funext n d
  show V c main_v2 (((cfg5.win 0).blk t).view.emb (ix4 (0 : Fin 1) (0 : Fin 1) n d)) = V c main_v2 (ix4 (bq t) (hq t) n d)
  refine congrArg (V c main_v2) (funext fun a => Fin.ext ?_)
  have e := (idx5 t).1
  match a with
  | ⟨0, _⟩ => show win5_0.index t (0 : Fin 4) * 1 + 1 * 0 = t.val / 8; rw [show win5_0.index t (0 : Fin 4) = t.val / 8 from congrFun e 0]; omega
  | ⟨1, _⟩ => show win5_0.index t (1 : Fin 4) * 1 + 1 * 0 = t.val % 8; rw [show win5_0.index t (1 : Fin 4) = t.val % 8 from congrFun e 1]; omega
  | ⟨2, _⟩ => show win5_0.index t (2 : Fin 4) * 1024 + 1 * n.val = n.val; rw [show win5_0.index t (2 : Fin 4) = 0 from congrFun e 2]; omega
  | ⟨3, _⟩ => show win5_0.index t (3 : Fin 4) * 128 + 1 * d.val = d.val; rw [show win5_0.index t (3 : Fin 4) = 0 from congrFun e 3]; omega

/-- Input window 1's block at point `t`, as a tile, is head `(t / 8, t % 8)` of its array. -/
theorem tile_iblk1 (c : Dev nD) (t : Fin cfg5.N) :
    tileOf (iblk5 V c 1 t) = Cert.Spec.headOf (V c main_v5) (bq t) (hq t) := by
  funext n d
  show V c main_v5 (((cfg5.win 1).blk t).view.emb (ix4 (0 : Fin 1) (0 : Fin 1) n d)) = V c main_v5 (ix4 (bq t) (hq t) n d)
  refine congrArg (V c main_v5) (funext fun a => Fin.ext ?_)
  have e := (idx5 t).2.1
  match a with
  | ⟨0, _⟩ => show win5_1.index t (0 : Fin 4) * 1 + 1 * 0 = t.val / 8; rw [show win5_1.index t (0 : Fin 4) = t.val / 8 from congrFun e 0]; omega
  | ⟨1, _⟩ => show win5_1.index t (1 : Fin 4) * 1 + 1 * 0 = t.val % 8; rw [show win5_1.index t (1 : Fin 4) = t.val % 8 from congrFun e 1]; omega
  | ⟨2, _⟩ => show win5_1.index t (2 : Fin 4) * 1024 + 1 * n.val = n.val; rw [show win5_1.index t (2 : Fin 4) = 0 from congrFun e 2]; omega
  | ⟨3, _⟩ => show win5_1.index t (3 : Fin 4) * 128 + 1 * d.val = d.val; rw [show win5_1.index t (3 : Fin 4) = 0 from congrFun e 3]; omega

/-- Input window 2's block at point `t`, as a tile, is head `(t / 8, t % 8)` of its array. -/
theorem tile_iblk2 (c : Dev nD) (t : Fin cfg5.N) :
    tileOf (iblk5 V c 2 t) = Cert.Spec.headOf (V c main_v8) (bq t) (hq t) := by
  funext n d
  show V c main_v8 (((cfg5.win 2).blk t).view.emb (ix4 (0 : Fin 1) (0 : Fin 1) n d)) = V c main_v8 (ix4 (bq t) (hq t) n d)
  refine congrArg (V c main_v8) (funext fun a => Fin.ext ?_)
  have e := (idx5 t).2.2.1
  match a with
  | ⟨0, _⟩ => show win5_2.index t (0 : Fin 4) * 1 + 1 * 0 = t.val / 8; rw [show win5_2.index t (0 : Fin 4) = t.val / 8 from congrFun e 0]; omega
  | ⟨1, _⟩ => show win5_2.index t (1 : Fin 4) * 1 + 1 * 0 = t.val % 8; rw [show win5_2.index t (1 : Fin 4) = t.val % 8 from congrFun e 1]; omega
  | ⟨2, _⟩ => show win5_2.index t (2 : Fin 4) * 1024 + 1 * n.val = n.val; rw [show win5_2.index t (2 : Fin 4) = 0 from congrFun e 2]; omega
  | ⟨3, _⟩ => show win5_2.index t (3 : Fin 4) * 128 + 1 * d.val = d.val; rw [show win5_2.index t (3 : Fin 4) = 0 from congrFun e 3]; omega

/-- Input window 3's block at point `t`, as a tile, is head `(t / 8, t % 8)` of its array. -/
theorem tile_iblk3 (c : Dev nD) (t : Fin cfg5.N) :
    tileOf (iblk5 V c 3 t) = Cert.Spec.headOf (V c main_v11) (bq t) (hq t) := by
  funext n d
  show V c main_v11 (((cfg5.win 3).blk t).view.emb (ix4 (0 : Fin 1) (0 : Fin 1) n d)) = V c main_v11 (ix4 (bq t) (hq t) n d)
  refine congrArg (V c main_v11) (funext fun a => Fin.ext ?_)
  have e := (idx5 t).2.2.2.1
  match a with
  | ⟨0, _⟩ => show win5_3.index t (0 : Fin 4) * 1 + 1 * 0 = t.val / 8; rw [show win5_3.index t (0 : Fin 4) = t.val / 8 from congrFun e 0]; omega
  | ⟨1, _⟩ => show win5_3.index t (1 : Fin 4) * 1 + 1 * 0 = t.val % 8; rw [show win5_3.index t (1 : Fin 4) = t.val % 8 from congrFun e 1]; omega
  | ⟨2, _⟩ => show win5_3.index t (2 : Fin 4) * 1024 + 1 * n.val = n.val; rw [show win5_3.index t (2 : Fin 4) = 0 from congrFun e 2]; omega
  | ⟨3, _⟩ => show win5_3.index t (3 : Fin 4) * 128 + 1 * d.val = d.val; rw [show win5_3.index t (3 : Fin 4) = 0 from congrFun e 3]; omega

/-- Input window 4's block at point `t`, as a tile, is head `(t / 8, t % 8)` of its array. -/
theorem tile_iblk4 (c : Dev nD) (t : Fin cfg5.N) :
    tileOf (iblk5 V c 4 t) = Cert.Spec.headOf (V c main_v14) (bq t) (hq t) := by
  funext n d
  show V c main_v14 (((cfg5.win 4).blk t).view.emb (ix4 (0 : Fin 1) (0 : Fin 1) n d)) = V c main_v14 (ix4 (bq t) (hq t) n d)
  refine congrArg (V c main_v14) (funext fun a => Fin.ext ?_)
  have e := (idx5 t).2.2.2.2.1
  match a with
  | ⟨0, _⟩ => show win5_4.index t (0 : Fin 4) * 1 + 1 * 0 = t.val / 8; rw [show win5_4.index t (0 : Fin 4) = t.val / 8 from congrFun e 0]; omega
  | ⟨1, _⟩ => show win5_4.index t (1 : Fin 4) * 1 + 1 * 0 = t.val % 8; rw [show win5_4.index t (1 : Fin 4) = t.val % 8 from congrFun e 1]; omega
  | ⟨2, _⟩ => show win5_4.index t (2 : Fin 4) * 1024 + 1 * n.val = n.val; rw [show win5_4.index t (2 : Fin 4) = 0 from congrFun e 2]; omega
  | ⟨3, _⟩ => show win5_4.index t (3 : Fin 4) * 128 + 1 * d.val = d.val; rw [show win5_4.index t (3 : Fin 4) = 0 from congrFun e 3]; omega

/-! ## The attention weights (output window 6) -/

/-- An index of the array lies in point `t`'s block of output window 6 iff every coordinate is in the block's range. -/
theorem mem_blk6 (t : Fin cfg5.N) (i : S4x8x1024x1024.Idx) :
    i ∈ ((cfg5.win 6).blk t).view.set ↔ ∀ a : Fin 4, win5_6.index t a * S1x1x1024x1024.size a ≤ (i a).val ∧ (i a).val < win5_6.index t a * S1x1x1024x1024.size a + S1x1x1024x1024.size a := by
  show i ∈ ((View.whole main_v15_1).slice (win5_6.rect t)).set ↔ _
  rw [View.set_slice_whole, Rect.mem_set_unit]
  exact Iff.rfl

/-- Where output window 6's block at point `t` puts its entry `(0, 0, n, m)`: at `(t / 8, t % 8, n, m)`. -/
theorem emb6 (t : Fin cfg5.N) (n : Fin 1024) (m : Fin 1024) :
    ((cfg5.win 6).blk t).view.emb (ix4 (0 : Fin 1) (0 : Fin 1) n m) = ix4 (bq t) (hq t) n m := by
  funext a; apply Fin.ext
  have e := (idx5 t).2.2.2.2.2.2
  match a with
  | ⟨0, _⟩ => show win5_6.index t (0 : Fin 4) * 1 + 1 * 0 = t.val / 8; rw [show win5_6.index t (0 : Fin 4) = t.val / 8 from congrFun e 0]; omega
  | ⟨1, _⟩ => show win5_6.index t (1 : Fin 4) * 1 + 1 * 0 = t.val % 8; rw [show win5_6.index t (1 : Fin 4) = t.val % 8 from congrFun e 1]; omega
  | ⟨2, _⟩ => show win5_6.index t (2 : Fin 4) * 1024 + 1 * n.val = n.val; rw [show win5_6.index t (2 : Fin 4) = 0 from congrFun e 2]; omega
  | ⟨3, _⟩ => show win5_6.index t (3 : Fin 4) * 1024 + 1 * m.val = m.val; rw [show win5_6.index t (3 : Fin 4) = 0 from congrFun e 3]; omega

/-- What point `t` writes back through output window 6 is block `t` of the array-level function. -/
theorem flushed6_eq (c : Dev nD) (t : Fin cfg5.N) :
    (dat5 V c).flushed 6 t = ((cfg5.win 6).blk t).view.read (Elt Ideal) (Cert.Spec.attnArr (V c main_v2) (V c main_v5) (V c main_v8) (V c main_v11)) := by
  show (cfg5.win 6).cut (grid5.coords t) ((dat5 V c).after 6 t) = _
  rw [after5_6]
  have key : ∀ y : S1x1x1024x1024.Idx,
      out5_6 (F := Ideal) (iblk5 V c 0 t) (iblk5 V c 1 t) (iblk5 V c 2 t) (iblk5 V c 3 t) (iblk5 V c 4 t) y
        = (Cert.Spec.attnArr (V c main_v2) (V c main_v5) (V c main_v8) (V c main_v11)) (((cfg5.win 6).blk t).view.emb y) := by
    intro y
    obtain ⟨n, m, rfl⟩ : ∃ (n : Fin 1024) (m : Fin 1024), y = ix4 (0 : Fin 1) (0 : Fin 1) n m :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (Cert.KernelIdeal.Body.out5_6_apply (iblk5 V c 0 t) (iblk5 V c 1 t) (iblk5 V c 2 t) (iblk5 V c 3 t) (iblk5 V c 4 t) n m).trans ?_
    rw [emb6 t n m, tile_iblk0 V c t, tile_iblk1 V c t, tile_iblk2 V c t, tile_iblk3 V c t]
    rfl
  exact funext key

/-- Output window 6's blocks fill its array: index `(b, h, ·, ·)` is in point `8 b + h`'s block. -/
theorem cover6 (i : S4x8x1024x1024.Idx) : ∃ t : Fin cfg5.N, (cfg5.win 6).flush t = true ∧ i ∈ ((cfg5.win 6).blk t).view.set := by
  have h0 : (i 0).val < 4 := (i 0).isLt
  have h1 : (i 1).val < 8 := (i 1).isLt
  have h2 : (i 2).val < 1024 := (i 2).isLt
  have h3 : (i 3).val < 1024 := (i 3).isLt
  have hN : cfg5.N = 32 := N_5
  refine ⟨⟨8 * (i 0).val + (i 1).val, by rw [hN]; omega⟩, flush5_6 _, ?_⟩
  rw [mem_blk6]
  have e := (idx5 ⟨8 * (i 0).val + (i 1).val, by rw [hN]; omega⟩).2.2.2.2.2.2
  intro a
  match a with
  | ⟨0, _⟩ =>
    show win5_6.index _ (0 : Fin 4) * 1 ≤ (i 0).val ∧ (i 0).val < win5_6.index _ (0 : Fin 4) * 1 + 1
    rw [show win5_6.index _ (0 : Fin 4) = (8 * (i 0).val + (i 1).val) / 8 from congrFun e 0]; omega
  | ⟨1, _⟩ =>
    show win5_6.index _ (1 : Fin 4) * 1 ≤ (i 1).val ∧ (i 1).val < win5_6.index _ (1 : Fin 4) * 1 + 1
    rw [show win5_6.index _ (1 : Fin 4) = (8 * (i 0).val + (i 1).val) % 8 from congrFun e 1]; omega
  | ⟨2, _⟩ =>
    show win5_6.index _ (2 : Fin 4) * 1024 ≤ (i 2).val ∧ (i 2).val < win5_6.index _ (2 : Fin 4) * 1024 + 1024
    rw [show win5_6.index _ (2 : Fin 4) = 0 from congrFun e 2]; omega
  | ⟨3, _⟩ =>
    show win5_6.index _ (3 : Fin 4) * 1024 ≤ (i 3).val ∧ (i 3).val < win5_6.index _ (3 : Fin 4) * 1024 + 1024
    rw [show win5_6.index _ (3 : Fin 4) = 0 from congrFun e 3]; omega

/-- So the array of output window 6 ends holding the array-level function of the five input arrays. -/
theorem final6 (c : Dev nD) : (dat5 V c).arrAt 6 cfg5.N = Cert.Spec.attnArr (V c main_v2) (V c main_v5) (V c main_v8) (V c main_v11) :=
  (dat5 V c).arrAt_eq_of_cover 6 (Cert.Spec.attnArr (V c main_v2) (V c main_v5) (V c main_v8) (V c main_v11)) (fun t _ => flushed6_eq V c t) cover6

/-! ## The context (output window 5) -/

/-- An index of the array lies in point `t`'s block of output window 5 iff every coordinate is in the block's range. -/
theorem mem_blk5 (t : Fin cfg5.N) (i : S4x8x1024x128.Idx) :
    i ∈ ((cfg5.win 5).blk t).view.set ↔ ∀ a : Fin 4, win5_5.index t a * S1x1x1024x128.size a ≤ (i a).val ∧ (i a).val < win5_5.index t a * S1x1x1024x128.size a + S1x1x1024x128.size a := by
  show i ∈ ((View.whole main_v15_0).slice (win5_5.rect t)).set ↔ _
  rw [View.set_slice_whole, Rect.mem_set_unit]
  exact Iff.rfl

/-- Where output window 5's block at point `t` puts its entry `(0, 0, n, m)`: at `(t / 8, t % 8, n, m)`. -/
theorem emb5 (t : Fin cfg5.N) (n : Fin 1024) (m : Fin 128) :
    ((cfg5.win 5).blk t).view.emb (ix4 (0 : Fin 1) (0 : Fin 1) n m) = ix4 (bq t) (hq t) n m := by
  funext a; apply Fin.ext
  have e := (idx5 t).2.2.2.2.2.1
  match a with
  | ⟨0, _⟩ => show win5_5.index t (0 : Fin 4) * 1 + 1 * 0 = t.val / 8; rw [show win5_5.index t (0 : Fin 4) = t.val / 8 from congrFun e 0]; omega
  | ⟨1, _⟩ => show win5_5.index t (1 : Fin 4) * 1 + 1 * 0 = t.val % 8; rw [show win5_5.index t (1 : Fin 4) = t.val % 8 from congrFun e 1]; omega
  | ⟨2, _⟩ => show win5_5.index t (2 : Fin 4) * 1024 + 1 * n.val = n.val; rw [show win5_5.index t (2 : Fin 4) = 0 from congrFun e 2]; omega
  | ⟨3, _⟩ => show win5_5.index t (3 : Fin 4) * 128 + 1 * m.val = m.val; rw [show win5_5.index t (3 : Fin 4) = 0 from congrFun e 3]; omega

/-- What point `t` writes back through output window 5 is block `t` of the array-level function. -/
theorem flushed5_eq (c : Dev nD) (t : Fin cfg5.N) :
    (dat5 V c).flushed 5 t = ((cfg5.win 5).blk t).view.read (Elt Ideal) (Cert.Spec.ctxArr (V c main_v2) (V c main_v5) (V c main_v8) (V c main_v11) (V c main_v14)) := by
  show (cfg5.win 5).cut (grid5.coords t) ((dat5 V c).after 5 t) = _
  rw [after5_5]
  have key : ∀ y : S1x1x1024x128.Idx,
      out5_5 (F := Ideal) (iblk5 V c 0 t) (iblk5 V c 1 t) (iblk5 V c 2 t) (iblk5 V c 3 t) (iblk5 V c 4 t) y
        = (Cert.Spec.ctxArr (V c main_v2) (V c main_v5) (V c main_v8) (V c main_v11) (V c main_v14)) (((cfg5.win 5).blk t).view.emb y) := by
    intro y
    obtain ⟨n, m, rfl⟩ : ∃ (n : Fin 1024) (m : Fin 128), y = ix4 (0 : Fin 1) (0 : Fin 1) n m :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (Cert.KernelIdeal.Body.out5_5_apply (iblk5 V c 0 t) (iblk5 V c 1 t) (iblk5 V c 2 t) (iblk5 V c 3 t) (iblk5 V c 4 t) n m).trans ?_
    rw [emb5 t n m, tile_iblk0 V c t, tile_iblk1 V c t, tile_iblk2 V c t, tile_iblk3 V c t, tile_iblk4 V c t]
    rfl
  exact funext key

/-- Output window 5's blocks fill its array: index `(b, h, ·, ·)` is in point `8 b + h`'s block. -/
theorem cover5 (i : S4x8x1024x128.Idx) : ∃ t : Fin cfg5.N, (cfg5.win 5).flush t = true ∧ i ∈ ((cfg5.win 5).blk t).view.set := by
  have h0 : (i 0).val < 4 := (i 0).isLt
  have h1 : (i 1).val < 8 := (i 1).isLt
  have h2 : (i 2).val < 1024 := (i 2).isLt
  have h3 : (i 3).val < 128 := (i 3).isLt
  have hN : cfg5.N = 32 := N_5
  refine ⟨⟨8 * (i 0).val + (i 1).val, by rw [hN]; omega⟩, flush5_5 _, ?_⟩
  rw [mem_blk5]
  have e := (idx5 ⟨8 * (i 0).val + (i 1).val, by rw [hN]; omega⟩).2.2.2.2.2.1
  intro a
  match a with
  | ⟨0, _⟩ =>
    show win5_5.index _ (0 : Fin 4) * 1 ≤ (i 0).val ∧ (i 0).val < win5_5.index _ (0 : Fin 4) * 1 + 1
    rw [show win5_5.index _ (0 : Fin 4) = (8 * (i 0).val + (i 1).val) / 8 from congrFun e 0]; omega
  | ⟨1, _⟩ =>
    show win5_5.index _ (1 : Fin 4) * 1 ≤ (i 1).val ∧ (i 1).val < win5_5.index _ (1 : Fin 4) * 1 + 1
    rw [show win5_5.index _ (1 : Fin 4) = (8 * (i 0).val + (i 1).val) % 8 from congrFun e 1]; omega
  | ⟨2, _⟩ =>
    show win5_5.index _ (2 : Fin 4) * 1024 ≤ (i 2).val ∧ (i 2).val < win5_5.index _ (2 : Fin 4) * 1024 + 1024
    rw [show win5_5.index _ (2 : Fin 4) = 0 from congrFun e 2]; omega
  | ⟨3, _⟩ =>
    show win5_5.index _ (3 : Fin 4) * 128 ≤ (i 3).val ∧ (i 3).val < win5_5.index _ (3 : Fin 4) * 128 + 128
    rw [show win5_5.index _ (3 : Fin 4) = 0 from congrFun e 3]; omega

/-- So the array of output window 5 ends holding the array-level function of the five input arrays. -/
theorem final5 (c : Dev nD) : (dat5 V c).arrAt 5 cfg5.N = Cert.Spec.ctxArr (V c main_v2) (V c main_v5) (V c main_v8) (V c main_v11) (V c main_v14) :=
  (dat5 V c).arrAt_eq_of_cover 5 (Cert.Spec.ctxArr (V c main_v2) (V c main_v5) (V c main_v8) (V c main_v11) (V c main_v14)) (fun t _ => flushed5_eq V c t) cover5

end Cert.KernelIdeal.AttnArr

end
-- ==== Proof.ProjTile.lean ====
/-
  One head's projection, as the projection kernel's body computes it: the staged input block [1024, 1, 1024, 1]
  (all rows of one batch entry) times the 128 weight columns of one head, through the matrix unit into a zero
  accumulator.  Read at an entry this is a plain sum over the 1024 input features.  The five projection kernels
  have one and the same body.
-/
import proofs.«182138_j12103217840332_2_alg».proof.Proof.Gen.KernelIdeal.Skeleton
import proofs.«182138_j12103217840332_2_alg».proof.Proof.AttnTile

set_option maxRecDepth 16384

noncomputable section

namespace Cert.KernelIdeal.ProjTile

open Cert.KernelIdeal Cert.KernelIdeal.Gen Idealize.ShloMosaic Idealize.ShloMosaic.ValueIdx
open Cert.KernelIdeal.Tile

/-- Entry `(0, 0, n, d)` of the body's stored value: row `n` of the input block against column `d` of the
    loaded weight columns. -/
theorem pay_apply (v3 : FVec Ideal S1024x128 .f32) (v6 : FVec Ideal S1024x1x1024x1 .f32) (n : Fin 1024) (d : Fin 128) :
    k0_pay1 (F := Ideal) v3 v6 (ix4 (0 : Fin 1) (0 : Fin 1) n d)
      = ∑ j : Fin 1024, v6 (ix4 n (0 : Fin 1) j (0 : Fin 1)) * v3 (ix2 j d) := by
  unfold k0_pay1
  refine (shapeCast_apply _ shapeCasts_S1024x128_S1x1x1024x128 (ix4 (0 : Fin 1) (0 : Fin 1) n d) (ix2 n d) (by
    rw [Shape.rowMajor_val_four, Shape.rowMajor_val_two]
    show n.val * 128 + d.val = ((0 * 1 + 0) * 1024 + n.val) * 128 + d.val
    omega)).trans ?_
  refine (matmul_nn_apply _ _ n d).trans ?_
  refine Finset.sum_congr rfl fun j _ => ?_
  show shapeCast S1024x1024 v6 shapeCasts_S1024x1x1024x1_S1024x1024 (ix2 n j) * shapeCast S1024x128 v3 shapeCasts_S1024x128_S1024x128 (ix2 j d) = _
  rw [shapeCast_self]
  refine congrArg (· * v3 (ix2 j d)) ?_
  exact shapeCast_apply v6 shapeCasts_S1024x1x1024x1_S1024x1024 (ix2 n j) (ix4 n (0 : Fin 1) j (0 : Fin 1)) (by
    rw [Shape.rowMajor_val_four, Shape.rowMajor_val_two]
    show ((n.val * 1 + 0) * 1024 + j.val) * 1 + 0 = n.val * 1024 + j.val
    omega)

/-- The other four kernels' payloads are the same function. -/
theorem pay1_eq : k1_pay1 (F := Ideal) = k0_pay1 := rfl
theorem pay2_eq : k2_pay1 (F := Ideal) = k0_pay1 := rfl
theorem pay3_eq : k3_pay1 (F := Ideal) = k0_pay1 := rfl
theorem pay4_eq : k4_pay1 (F := Ideal) = k0_pay1 := rfl

/-- The projected array as the kernel computes it from the arrays it is handed — the input with a trailing unit
    axis, and the weight already transposed: entry `(b, h, n, d)` sums row `(n, b)` of the input against column
    `128 h + d` of the transposed weight. -/
def projK (X4 : S1024x4x1024x1.Idx → EReal) (WT : S1024x1024.Idx → EReal) : S4x8x1024x128.Idx → EReal := fun i =>
  ∑ j : Fin 1024, X4 (ix4 (i 2) (i 0) j (0 : Fin 1))
    * WT (ix2 j (⟨128 * (i 1).val + (i 3).val, by have h1 : (i 1).val < 8 := (i 1).isLt; have h3 : (i 3).val < 128 := (i 3).isLt; omega⟩ : Fin 1024))

end Cert.KernelIdeal.ProjTile

end
-- ==== Proof.Proj0.lean ====
/-
  Projection kernel 0: its result array after the thirty-two grid points, as one function of the two arrays the
  region finds (the input with a trailing unit axis, the transposed weight).  Point `t` works on batch entry
  `t / 8` and head `t % 8`: it is handed all rows of that batch entry and the whole weight, loads the head's 128
  weight columns, and writes the head's [1024, 128] tile of the result.
-/
import proofs.«182138_j12103217840332_2_alg».proof.Proof.Gen.KernelIdeal.Frame
import proofs.«182138_j12103217840332_2_alg».proof.Proof.ProjTile
import Idealize.ShloMosaic.Lib.Pipeline.Value
import Idealize.ShloMosaic.Lib.Tactic

set_option maxRecDepth 16384

noncomputable section

namespace Cert.KernelIdeal.Proj0

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)
open Cert.KernelIdeal.ProjTile

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output's staging buffer: its one store covers the buffer, so it is the store's
    payload, of the loaded weight columns and the whole input block. -/
theorem out_A (c : Dev nD) (i : grid0.Coords) (a2 : Memref sig .tc .vmem S1024x1x1024x1 .f32) (h2 : a2.IsWhole)
    (a3 : Memref sig .tc .vmem S1024x1024 .f32) (h3 : a3.IsWhole) (a4 : Memref sig .tc .vmem S1x1x1024x128 .bf16) (h4 : a4.IsWhole)
    (x0 : Vec Ideal S1024x1x1024x1 .f32) (x1 : Vec Ideal S1024x1024 .f32) :
    out0_A_2 (F := Ideal) c i a2 h2 a3 h3 a4 h4 x0 x1
      = k0_pay1 (View.ld x1 (Rect.unit (s := S1024x1024) (k0_off1 i) S1024x128.size (k0_off1_inb i))) x0 := by
  unfold out0_A_2
  rw [View.read_writes_eq_canon _ _ _ (cover0_A_2 c i a2 h2 a3 h3 a4 h4 x0 x1)]
  unfold kernelRun0_A
  dsimp only
  rw [View.canon_unit_zero hz4]
  simp only [View.readAt_eq_ld, h2.read_unread, h3.read_unread, View.ld_unit_zero (S := S1024x1x1024x1) hz4]

/-- The head a grid point works on. -/
def bq (t : Fin cfg0.N) : Fin 4 := ⟨t.val / 8, by have h : t.val < 32 := lt_of_lt_of_eq t.isLt N_0; omega⟩
def hq (t : Fin cfg0.N) : Fin 8 := ⟨t.val % 8, Nat.mod_lt _ (by decide)⟩

/-- The printed index maps and the body's load offsets, decided once over the grid. -/
theorem idx : ∀ t : Fin cfg0.N,
    win0_0.index t = ![0, t.val / 8, 0, 0] ∧ win0_1.index t = ![0, 0]
    ∧ win0_2.index t = ![t.val / 8, t.val % 8, 0, 0] ∧ k0_off1 (grid0.coords t) = ![0, 128 * (t.val % 8)] :=
  (by decide +kernel : ∀ t : Fin grid0.N, _)

/-- Entry `(n, 0, j, 0)` of the input block at point `t` is entry `(n, t / 8, j, 0)` of the input array. -/
theorem iblk0_apply (c : Dev nD) (t : Fin cfg0.N) (n j : Fin 1024) :
    iblk0 V c 0 t (ix4 n (0 : Fin 1) j (0 : Fin 1)) = V c main_v1 (ix4 n (bq t) j (0 : Fin 1)) := by
  show V c main_v1 (((cfg0.win 0).blk t).view.emb (ix4 n (0 : Fin 1) j (0 : Fin 1))) = _
  refine congrArg (V c main_v1) (funext fun a => Fin.ext ?_)
  have e := (idx t).1
  match a with
  | ⟨0, _⟩ => show win0_0.index t (0 : Fin 4) * 1024 + 1 * n.val = n.val; rw [show win0_0.index t (0 : Fin 4) = 0 from congrFun e 0]; omega
  | ⟨1, _⟩ => show win0_0.index t (1 : Fin 4) * 1 + 1 * 0 = t.val / 8; rw [show win0_0.index t (1 : Fin 4) = t.val / 8 from congrFun e 1]; omega
  | ⟨2, _⟩ => show win0_0.index t (2 : Fin 4) * 1024 + 1 * j.val = j.val; rw [show win0_0.index t (2 : Fin 4) = 0 from congrFun e 2]; omega
  | ⟨3, _⟩ => show win0_0.index t (3 : Fin 4) * 1 + 1 * 0 = 0; rw [show win0_0.index t (3 : Fin 4) = 0 from congrFun e 3]

/-- Entry `(j, d)` of the weight columns the body loads at point `t` is entry `(j, 128 (t % 8) + d)` of the
    transposed weight array. -/
theorem wcols_apply (c : Dev nD) (t : Fin cfg0.N) (j : Fin 1024) (d : Fin 128) :
    View.ld (iblk0 V c 1 t) (Rect.unit (s := S1024x1024) (k0_off1 (grid0.coords t)) S1024x128.size (k0_off1_inb (grid0.coords t))) (ix2 j d)
      = V c main_v0 (ix2 j (⟨128 * (t.val % 8) + d.val, by have := d.isLt; omega⟩ : Fin 1024)) := by
  show V c main_v0 (((cfg0.win 1).blk t).view.emb ((Rect.unit (s := S1024x1024) (k0_off1 (grid0.coords t)) S1024x128.size (k0_off1_inb (grid0.coords t))).emb (ix2 j d))) = _
  refine congrArg (V c main_v0) (funext fun a => Fin.ext ?_)
  have e1 := (idx t).2.1
  have e3 := (idx t).2.2.2
  match a with
  | ⟨0, _⟩ =>
    show win0_1.index t (0 : Fin 2) * 1024 + 1 * (k0_off1 (grid0.coords t) 0 + 1 * j.val) = j.val
    rw [show win0_1.index t (0 : Fin 2) = 0 from congrFun e1 0, show k0_off1 (grid0.coords t) 0 = 0 from congrFun e3 0]; omega
  | ⟨1, _⟩ =>
    show win0_1.index t (1 : Fin 2) * 1024 + 1 * (k0_off1 (grid0.coords t) 1 + 1 * d.val) = 128 * (t.val % 8) + d.val
    rw [show win0_1.index t (1 : Fin 2) = 0 from congrFun e1 1, show k0_off1 (grid0.coords t) 1 = 128 * (t.val % 8) from congrFun e3 1]; omega

/-- An index of the result array lies in point `t`'s block iff every coordinate is in the block's range. -/
theorem mem_blk (t : Fin cfg0.N) (i : S4x8x1024x128.Idx) :
    i ∈ ((cfg0.win 2).blk t).view.set ↔ ∀ a : Fin 4, win0_2.index t a * S1x1x1024x128.size a ≤ (i a).val ∧ (i a).val < win0_2.index t a * S1x1x1024x128.size a + S1x1x1024x128.size a := by
  show i ∈ ((View.whole main_v2).slice (win0_2.rect t)).set ↔ _
  rw [View.set_slice_whole, Rect.mem_set_unit]
  exact Iff.rfl

/-- Where the output block at point `t` puts its entry `(0, 0, n, d)`. -/
theorem emb2 (t : Fin cfg0.N) (n : Fin 1024) (d : Fin 128) :
    ((cfg0.win 2).blk t).view.emb (ix4 (0 : Fin 1) (0 : Fin 1) n d) = ix4 (bq t) (hq t) n d := by
  funext a; apply Fin.ext
  have e := (idx t).2.2.1
  match a with
  | ⟨0, _⟩ => show win0_2.index t (0 : Fin 4) * 1 + 1 * 0 = t.val / 8; rw [show win0_2.index t (0 : Fin 4) = t.val / 8 from congrFun e 0]; omega
  | ⟨1, _⟩ => show win0_2.index t (1 : Fin 4) * 1 + 1 * 0 = t.val % 8; rw [show win0_2.index t (1 : Fin 4) = t.val % 8 from congrFun e 1]; omega
  | ⟨2, _⟩ => show win0_2.index t (2 : Fin 4) * 1024 + 1 * n.val = n.val; rw [show win0_2.index t (2 : Fin 4) = 0 from congrFun e 2]; omega
  | ⟨3, _⟩ => show win0_2.index t (3 : Fin 4) * 128 + 1 * d.val = d.val; rw [show win0_2.index t (3 : Fin 4) = 0 from congrFun e 3]; omega

/-- What point `t` writes back is block `t` of the projected array. -/
theorem flushed_eq (c : Dev nD) (t : Fin cfg0.N) :
    (dat0 V c).flushed 2 t = ((cfg0.win 2).blk t).view.read (Elt Ideal) (projK (V c main_v1) (V c main_v0)) := by
  show (cfg0.win 2).cut (grid0.coords t) ((dat0 V c).after 2 t) = _
  rw [after0_2]
  unfold outsAt0
  rw [out_A]
  have key : ∀ y : S1x1x1024x128.Idx,
      k0_pay1 (F := Ideal) (View.ld (iblk0 V c 1 t) (Rect.unit (s := S1024x1024) (k0_off1 (grid0.coords t)) S1024x128.size (k0_off1_inb (grid0.coords t)))) (iblk0 V c 0 t) y
        = (projK (V c main_v1) (V c main_v0)) (((cfg0.win 2).blk t).view.emb y) := by
    intro y
    obtain ⟨n, d, rfl⟩ : ∃ (n : Fin 1024) (d : Fin 128), y = ix4 (0 : Fin 1) (0 : Fin 1) n d :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (pay_apply _ _ n d).trans ?_
    rw [emb2 t n d]
    unfold projK
    refine Finset.sum_congr rfl fun j _ => ?_
    rw [iblk0_apply V c t n j, wcols_apply V c t j d]
    rfl
  exact funext key

/-- The output blocks fill the result array: index `(b, h, ·, ·)` is in point `8 b + h`'s block. -/
theorem cover (i : S4x8x1024x128.Idx) : ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 1024 := (i 2).isLt
  have h3 : (i 3).val < 128 := (i 3).isLt
  have hN : cfg0.N = 32 := N_0
  refine ⟨⟨8 * (i 0).val + (i 1).val, by rw [hN]; omega⟩, flush0_2 _, ?_⟩
  rw [mem_blk]
  have e := (idx ⟨8 * (i 0).val + (i 1).val, by rw [hN]; omega⟩).2.2.1
  intro a
  match a with
  | ⟨0, _⟩ =>
    show win0_2.index _ (0 : Fin 4) * 1 ≤ (i 0).val ∧ (i 0).val < win0_2.index _ (0 : Fin 4) * 1 + 1
    rw [show win0_2.index _ (0 : Fin 4) = (8 * (i 0).val + (i 1).val) / 8 from congrFun e 0]; omega
  | ⟨1, _⟩ =>
    show win0_2.index _ (1 : Fin 4) * 1 ≤ (i 1).val ∧ (i 1).val < win0_2.index _ (1 : Fin 4) * 1 + 1
    rw [show win0_2.index _ (1 : Fin 4) = (8 * (i 0).val + (i 1).val) % 8 from congrFun e 1]; omega
  | ⟨2, _⟩ =>
    show win0_2.index _ (2 : Fin 4) * 1024 ≤ (i 2).val ∧ (i 2).val < win0_2.index _ (2 : Fin 4) * 1024 + 1024
    rw [show win0_2.index _ (2 : Fin 4) = 0 from congrFun e 2]; omega
  | ⟨3, _⟩ =>
    show win0_2.index _ (3 : Fin 4) * 128 ≤ (i 3).val ∧ (i 3).val < win0_2.index _ (3 : Fin 4) * 128 + 128
    rw [show win0_2.index _ (3 : Fin 4) = 0 from congrFun e 3]; omega

/-- So the result array ends holding the projected array. -/
theorem final (c : Dev nD) : (dat0 V c).arrAt 2 cfg0.N = projK (V c main_v1) (V c main_v0) :=
  (dat0 V c).arrAt_eq_of_cover 2 (projK (V c main_v1) (V c main_v0)) (fun t _ => flushed_eq V c t) cover

end Cert.KernelIdeal.Proj0

end
-- ==== Proof.Proj1.lean ====
/-
  Projection kernel 1: its result array after the thirty-two grid points, as one function of the two arrays the
  region finds (the input with a trailing unit axis, the transposed weight).  Point `t` works on batch entry
  `t / 8` and head `t % 8`: it is handed all rows of that batch entry and the whole weight, loads the head's 128
  weight columns, and writes the head's [1024, 128] tile of the result.
-/
import proofs.«182138_j12103217840332_2_alg».proof.Proof.Gen.KernelIdeal.Frame
import proofs.«182138_j12103217840332_2_alg».proof.Proof.ProjTile
import Idealize.ShloMosaic.Lib.Pipeline.Value
import Idealize.ShloMosaic.Lib.Tactic

set_option maxRecDepth 16384

noncomputable section

namespace Cert.KernelIdeal.Proj1

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)
open Cert.KernelIdeal.ProjTile

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output's staging buffer: its one store covers the buffer, so it is the store's
    payload, of the loaded weight columns and the whole input block. -/
theorem out_A (c : Dev nD) (i : grid1.Coords) (a2 : Memref sig .tc .vmem S1024x1x1024x1 .f32) (h2 : a2.IsWhole)
    (a3 : Memref sig .tc .vmem S1024x1024 .f32) (h3 : a3.IsWhole) (a4 : Memref sig .tc .vmem S1x1x1024x128 .bf16) (h4 : a4.IsWhole)
    (x0 : Vec Ideal S1024x1x1024x1 .f32) (x1 : Vec Ideal S1024x1024 .f32) :
    out1_A_2 (F := Ideal) c i a2 h2 a3 h3 a4 h4 x0 x1
      = k0_pay1 (View.ld x1 (Rect.unit (s := S1024x1024) (k1_off1 i) S1024x128.size (k1_off1_inb i))) x0 := by
  unfold out1_A_2
  rw [View.read_writes_eq_canon _ _ _ (cover1_A_2 c i a2 h2 a3 h3 a4 h4 x0 x1)]
  unfold kernelRun1_A
  dsimp only
  rw [View.canon_unit_zero hz4]
  simp only [View.readAt_eq_ld, h2.read_unread, h3.read_unread, View.ld_unit_zero (S := S1024x1x1024x1) hz4]
  rw [pay1_eq]

/-- The head a grid point works on. -/
def bq (t : Fin cfg1.N) : Fin 4 := ⟨t.val / 8, by have h : t.val < 32 := lt_of_lt_of_eq t.isLt N_1; omega⟩
def hq (t : Fin cfg1.N) : Fin 8 := ⟨t.val % 8, Nat.mod_lt _ (by decide)⟩

/-- The printed index maps and the body's load offsets, decided once over the grid. -/
theorem idx : ∀ t : Fin cfg1.N,
    win1_0.index t = ![0, t.val / 8, 0, 0] ∧ win1_1.index t = ![0, 0]
    ∧ win1_2.index t = ![t.val / 8, t.val % 8, 0, 0] ∧ k1_off1 (grid1.coords t) = ![0, 128 * (t.val % 8)] :=
  (by decide +kernel : ∀ t : Fin grid1.N, _)

/-- Entry `(n, 0, j, 0)` of the input block at point `t` is entry `(n, t / 8, j, 0)` of the input array. -/
theorem iblk0_apply (c : Dev nD) (t : Fin cfg1.N) (n j : Fin 1024) :
    iblk1 V c 0 t (ix4 n (0 : Fin 1) j (0 : Fin 1)) = V c main_v4 (ix4 n (bq t) j (0 : Fin 1)) := by
  show V c main_v4 (((cfg1.win 0).blk t).view.emb (ix4 n (0 : Fin 1) j (0 : Fin 1))) = _
  refine congrArg (V c main_v4) (funext fun a => Fin.ext ?_)
  have e := (idx t).1
  match a with
  | ⟨0, _⟩ => show win1_0.index t (0 : Fin 4) * 1024 + 1 * n.val = n.val; rw [show win1_0.index t (0 : Fin 4) = 0 from congrFun e 0]; omega
  | ⟨1, _⟩ => show win1_0.index t (1 : Fin 4) * 1 + 1 * 0 = t.val / 8; rw [show win1_0.index t (1 : Fin 4) = t.val / 8 from congrFun e 1]; omega
  | ⟨2, _⟩ => show win1_0.index t (2 : Fin 4) * 1024 + 1 * j.val = j.val; rw [show win1_0.index t (2 : Fin 4) = 0 from congrFun e 2]; omega
  | ⟨3, _⟩ => show win1_0.index t (3 : Fin 4) * 1 + 1 * 0 = 0; rw [show win1_0.index t (3 : Fin 4) = 0 from congrFun e 3]

/-- Entry `(j, d)` of the weight columns the body loads at point `t` is entry `(j, 128 (t % 8) + d)` of the
    transposed weight array. -/
theorem wcols_apply (c : Dev nD) (t : Fin cfg1.N) (j : Fin 1024) (d : Fin 128) :
    View.ld (iblk1 V c 1 t) (Rect.unit (s := S1024x1024) (k1_off1 (grid1.coords t)) S1024x128.size (k1_off1_inb (grid1.coords t))) (ix2 j d)
      = V c main_v3 (ix2 j (⟨128 * (t.val % 8) + d.val, by have := d.isLt; omega⟩ : Fin 1024)) := by
  show V c main_v3 (((cfg1.win 1).blk t).view.emb ((Rect.unit (s := S1024x1024) (k1_off1 (grid1.coords t)) S1024x128.size (k1_off1_inb (grid1.coords t))).emb (ix2 j d))) = _
  refine congrArg (V c main_v3) (funext fun a => Fin.ext ?_)
  have e1 := (idx t).2.1
  have e3 := (idx t).2.2.2
  match a with
  | ⟨0, _⟩ =>
    show win1_1.index t (0 : Fin 2) * 1024 + 1 * (k1_off1 (grid1.coords t) 0 + 1 * j.val) = j.val
    rw [show win1_1.index t (0 : Fin 2) = 0 from congrFun e1 0, show k1_off1 (grid1.coords t) 0 = 0 from congrFun e3 0]; omega
  | ⟨1, _⟩ =>
    show win1_1.index t (1 : Fin 2) * 1024 + 1 * (k1_off1 (grid1.coords t) 1 + 1 * d.val) = 128 * (t.val % 8) + d.val
    rw [show win1_1.index t (1 : Fin 2) = 0 from congrFun e1 1, show k1_off1 (grid1.coords t) 1 = 128 * (t.val % 8) from congrFun e3 1]; omega

/-- An index of the result array lies in point `t`'s block iff every coordinate is in the block's range. -/
theorem mem_blk (t : Fin cfg1.N) (i : S4x8x1024x128.Idx) :
    i ∈ ((cfg1.win 2).blk t).view.set ↔ ∀ a : Fin 4, win1_2.index t a * S1x1x1024x128.size a ≤ (i a).val ∧ (i a).val < win1_2.index t a * S1x1x1024x128.size a + S1x1x1024x128.size a := by
  show i ∈ ((View.whole main_v5).slice (win1_2.rect t)).set ↔ _
  rw [View.set_slice_whole, Rect.mem_set_unit]
  exact Iff.rfl

/-- Where the output block at point `t` puts its entry `(0, 0, n, d)`. -/
theorem emb2 (t : Fin cfg1.N) (n : Fin 1024) (d : Fin 128) :
    ((cfg1.win 2).blk t).view.emb (ix4 (0 : Fin 1) (0 : Fin 1) n d) = ix4 (bq t) (hq t) n d := by
  funext a; apply Fin.ext
  have e := (idx t).2.2.1
  match a with
  | ⟨0, _⟩ => show win1_2.index t (0 : Fin 4) * 1 + 1 * 0 = t.val / 8; rw [show win1_2.index t (0 : Fin 4) = t.val / 8 from congrFun e 0]; omega
  | ⟨1, _⟩ => show win1_2.index t (1 : Fin 4) * 1 + 1 * 0 = t.val % 8; rw [show win1_2.index t (1 : Fin 4) = t.val % 8 from congrFun e 1]; omega
  | ⟨2, _⟩ => show win1_2.index t (2 : Fin 4) * 1024 + 1 * n.val = n.val; rw [show win1_2.index t (2 : Fin 4) = 0 from congrFun e 2]; omega
  | ⟨3, _⟩ => show win1_2.index t (3 : Fin 4) * 128 + 1 * d.val = d.val; rw [show win1_2.index t (3 : Fin 4) = 0 from congrFun e 3]; omega

/-- What point `t` writes back is block `t` of the projected array. -/
theorem flushed_eq (c : Dev nD) (t : Fin cfg1.N) :
    (dat1 V c).flushed 2 t = ((cfg1.win 2).blk t).view.read (Elt Ideal) (projK (V c main_v4) (V c main_v3)) := by
  show (cfg1.win 2).cut (grid1.coords t) ((dat1 V c).after 2 t) = _
  rw [after1_2]
  unfold outsAt1
  rw [out_A]
  have key : ∀ y : S1x1x1024x128.Idx,
      k0_pay1 (F := Ideal) (View.ld (iblk1 V c 1 t) (Rect.unit (s := S1024x1024) (k1_off1 (grid1.coords t)) S1024x128.size (k1_off1_inb (grid1.coords t)))) (iblk1 V c 0 t) y
        = (projK (V c main_v4) (V c main_v3)) (((cfg1.win 2).blk t).view.emb y) := by
    intro y
    obtain ⟨n, d, rfl⟩ : ∃ (n : Fin 1024) (d : Fin 128), y = ix4 (0 : Fin 1) (0 : Fin 1) n d :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (pay_apply _ _ n d).trans ?_
    rw [emb2 t n d]
    unfold projK
    refine Finset.sum_congr rfl fun j _ => ?_
    rw [iblk0_apply V c t n j, wcols_apply V c t j d]
    rfl
  exact funext key

/-- The output blocks fill the result array: index `(b, h, ·, ·)` is in point `8 b + h`'s block. -/
theorem cover (i : S4x8x1024x128.Idx) : ∃ t : Fin cfg1.N, (cfg1.win 2).flush t = true ∧ i ∈ ((cfg1.win 2).blk t).view.set := by
  have h0 : (i 0).val < 4 := (i 0).isLt
  have h1 : (i 1).val < 8 := (i 1).isLt
  have h2 : (i 2).val < 1024 := (i 2).isLt
  have h3 : (i 3).val < 128 := (i 3).isLt
  have hN : cfg1.N = 32 := N_1
  refine ⟨⟨8 * (i 0).val + (i 1).val, by rw [hN]; omega⟩, flush1_2 _, ?_⟩
  rw [mem_blk]
  have e := (idx ⟨8 * (i 0).val + (i 1).val, by rw [hN]; omega⟩).2.2.1
  intro a
  match a with
  | ⟨0, _⟩ =>
    show win1_2.index _ (0 : Fin 4) * 1 ≤ (i 0).val ∧ (i 0).val < win1_2.index _ (0 : Fin 4) * 1 + 1
    rw [show win1_2.index _ (0 : Fin 4) = (8 * (i 0).val + (i 1).val) / 8 from congrFun e 0]; omega
  | ⟨1, _⟩ =>
    show win1_2.index _ (1 : Fin 4) * 1 ≤ (i 1).val ∧ (i 1).val < win1_2.index _ (1 : Fin 4) * 1 + 1
    rw [show win1_2.index _ (1 : Fin 4) = (8 * (i 0).val + (i 1).val) % 8 from congrFun e 1]; omega
  | ⟨2, _⟩ =>
    show win1_2.index _ (2 : Fin 4) * 1024 ≤ (i 2).val ∧ (i 2).val < win1_2.index _ (2 : Fin 4) * 1024 + 1024
    rw [show win1_2.index _ (2 : Fin 4) = 0 from congrFun e 2]; omega
  | ⟨3, _⟩ =>
    show win1_2.index _ (3 : Fin 4) * 128 ≤ (i 3).val ∧ (i 3).val < win1_2.index _ (3 : Fin 4) * 128 + 128
    rw [show win1_2.index _ (3 : Fin 4) = 0 from congrFun e 3]; omega

/-- So the result array ends holding the projected array. -/
theorem final (c : Dev nD) : (dat1 V c).arrAt 2 cfg1.N = projK (V c main_v4) (V c main_v3) :=
  (dat1 V c).arrAt_eq_of_cover 2 (projK (V c main_v4) (V c main_v3)) (fun t _ => flushed_eq V c t) cover

end Cert.KernelIdeal.Proj1

end
-- ==== Proof.Proj2.lean ====
/-
  Projection kernel 2: its result array after the thirty-two grid points, as one function of the two arrays the
  region finds (the input with a trailing unit axis, the transposed weight).  Point `t` works on batch entry
  `t / 8` and head `t % 8`: it is handed all rows of that batch entry and the whole weight, loads the head's 128
  weight columns, and writes the head's [1024, 128] tile of the result.
-/
import proofs.«182138_j12103217840332_2_alg».proof.Proof.Gen.KernelIdeal.Frame
import proofs.«182138_j12103217840332_2_alg».proof.Proof.ProjTile
import Idealize.ShloMosaic.Lib.Pipeline.Value
import Idealize.ShloMosaic.Lib.Tactic

set_option maxRecDepth 16384

noncomputable section

namespace Cert.KernelIdeal.Proj2

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)
open Cert.KernelIdeal.ProjTile

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output's staging buffer: its one store covers the buffer, so it is the store's
    payload, of the loaded weight columns and the whole input block. -/
theorem out_A (c : Dev nD) (i : grid2.Coords) (a2 : Memref sig .tc .vmem S1024x1x1024x1 .f32) (h2 : a2.IsWhole)
    (a3 : Memref sig .tc .vmem S1024x1024 .f32) (h3 : a3.IsWhole) (a4 : Memref sig .tc .vmem S1x1x1024x128 .bf16) (h4 : a4.IsWhole)
    (x0 : Vec Ideal S1024x1x1024x1 .f32) (x1 : Vec Ideal S1024x1024 .f32) :
    out2_A_2 (F := Ideal) c i a2 h2 a3 h3 a4 h4 x0 x1
      = k0_pay1 (View.ld x1 (Rect.unit (s := S1024x1024) (k2_off1 i) S1024x128.size (k2_off1_inb i))) x0 := by
  unfold out2_A_2
  rw [View.read_writes_eq_canon _ _ _ (cover2_A_2 c i a2 h2 a3 h3 a4 h4 x0 x1)]
  unfold kernelRun2_A
  dsimp only
  rw [View.canon_unit_zero hz4]
  simp only [View.readAt_eq_ld, h2.read_unread, h3.read_unread, View.ld_unit_zero (S := S1024x1x1024x1) hz4]
  rw [pay2_eq]

/-- The head a grid point works on. -/
def bq (t : Fin cfg2.N) : Fin 4 := ⟨t.val / 8, by have h : t.val < 32 := lt_of_lt_of_eq t.isLt N_2; omega⟩
def hq (t : Fin cfg2.N) : Fin 8 := ⟨t.val % 8, Nat.mod_lt _ (by decide)⟩

/-- The printed index maps and the body's load offsets, decided once over the grid. -/
theorem idx : ∀ t : Fin cfg2.N,
    win2_0.index t = ![0, t.val / 8, 0, 0] ∧ win2_1.index t = ![0, 0]
    ∧ win2_2.index t = ![t.val / 8, t.val % 8, 0, 0] ∧ k2_off1 (grid2.coords t) = ![0, 128 * (t.val % 8)] :=
  (by decide +kernel : ∀ t : Fin grid2.N, _)

/-- Entry `(n, 0, j, 0)` of the input block at point `t` is entry `(n, t / 8, j, 0)` of the input array. -/
theorem iblk0_apply (c : Dev nD) (t : Fin cfg2.N) (n j : Fin 1024) :
    iblk2 V c 0 t (ix4 n (0 : Fin 1) j (0 : Fin 1)) = V c main_v7 (ix4 n (bq t) j (0 : Fin 1)) := by
  show V c main_v7 (((cfg2.win 0).blk t).view.emb (ix4 n (0 : Fin 1) j (0 : Fin 1))) = _
  refine congrArg (V c main_v7) (funext fun a => Fin.ext ?_)
  have e := (idx t).1
  match a with
  | ⟨0, _⟩ => show win2_0.index t (0 : Fin 4) * 1024 + 1 * n.val = n.val; rw [show win2_0.index t (0 : Fin 4) = 0 from congrFun e 0]; omega
  | ⟨1, _⟩ => show win2_0.index t (1 : Fin 4) * 1 + 1 * 0 = t.val / 8; rw [show win2_0.index t (1 : Fin 4) = t.val / 8 from congrFun e 1]; omega
  | ⟨2, _⟩ => show win2_0.index t (2 : Fin 4) * 1024 + 1 * j.val = j.val; rw [show win2_0.index t (2 : Fin 4) = 0 from congrFun e 2]; omega
  | ⟨3, _⟩ => show win2_0.index t (3 : Fin 4) * 1 + 1 * 0 = 0; rw [show win2_0.index t (3 : Fin 4) = 0 from congrFun e 3]

/-- Entry `(j, d)` of the weight columns the body loads at point `t` is entry `(j, 128 (t % 8) + d)` of the
    transposed weight array. -/
theorem wcols_apply (c : Dev nD) (t : Fin cfg2.N) (j : Fin 1024) (d : Fin 128) :
    View.ld (iblk2 V c 1 t) (Rect.unit (s := S1024x1024) (k2_off1 (grid2.coords t)) S1024x128.size (k2_off1_inb (grid2.coords t))) (ix2 j d)
      = V c main_v6 (ix2 j (⟨128 * (t.val % 8) + d.val, by have := d.isLt; omega⟩ : Fin 1024)) := by
  show V c main_v6 (((cfg2.win 1).blk t).view.emb ((Rect.unit (s := S1024x1024) (k2_off1 (grid2.coords t)) S1024x128.size (k2_off1_inb (grid2.coords t))).emb (ix2 j d))) = _
  refine congrArg (V c main_v6) (funext fun a => Fin.ext ?_)
  have e1 := (idx t).2.1
  have e3 := (idx t).2.2.2
  match a with
  | ⟨0, _⟩ =>
    show win2_1.index t (0 : Fin 2) * 1024 + 1 * (k2_off1 (grid2.coords t) 0 + 1 * j.val) = j.val
    rw [show win2_1.index t (0 : Fin 2) = 0 from congrFun e1 0, show k2_off1 (grid2.coords t) 0 = 0 from congrFun e3 0]; omega
  | ⟨1, _⟩ =>
    show win2_1.index t (1 : Fin 2) * 1024 + 1 * (k2_off1 (grid2.coords t) 1 + 1 * d.val) = 128 * (t.val % 8) + d.val
    rw [show win2_1.index t (1 : Fin 2) = 0 from congrFun e1 1, show k2_off1 (grid2.coords t) 1 = 128 * (t.val % 8) from congrFun e3 1]; omega

/-- An index of the result array lies in point `t`'s block iff every coordinate is in the block's range. -/
theorem mem_blk (t : Fin cfg2.N) (i : S4x8x1024x128.Idx) :
    i ∈ ((cfg2.win 2).blk t).view.set ↔ ∀ a : Fin 4, win2_2.index t a * S1x1x1024x128.size a ≤ (i a).val ∧ (i a).val < win2_2.index t a * S1x1x1024x128.size a + S1x1x1024x128.size a := by
  show i ∈ ((View.whole main_v8).slice (win2_2.rect t)).set ↔ _
  rw [View.set_slice_whole, Rect.mem_set_unit]
  exact Iff.rfl

/-- Where the output block at point `t` puts its entry `(0, 0, n, d)`. -/
theorem emb2 (t : Fin cfg2.N) (n : Fin 1024) (d : Fin 128) :
    ((cfg2.win 2).blk t).view.emb (ix4 (0 : Fin 1) (0 : Fin 1) n d) = ix4 (bq t) (hq t) n d := by
  funext a; apply Fin.ext
  have e := (idx t).2.2.1
  match a with
  | ⟨0, _⟩ => show win2_2.index t (0 : Fin 4) * 1 + 1 * 0 = t.val / 8; rw [show win2_2.index t (0 : Fin 4) = t.val / 8 from congrFun e 0]; omega
  | ⟨1, _⟩ => show win2_2.index t (1 : Fin 4) * 1 + 1 * 0 = t.val % 8; rw [show win2_2.index t (1 : Fin 4) = t.val % 8 from congrFun e 1]; omega
  | ⟨2, _⟩ => show win2_2.index t (2 : Fin 4) * 1024 + 1 * n.val = n.val; rw [show win2_2.index t (2 : Fin 4) = 0 from congrFun e 2]; omega
  | ⟨3, _⟩ => show win2_2.index t (3 : Fin 4) * 128 + 1 * d.val = d.val; rw [show win2_2.index t (3 : Fin 4) = 0 from congrFun e 3]; omega

/-- What point `t` writes back is block `t` of the projected array. -/
theorem flushed_eq (c : Dev nD) (t : Fin cfg2.N) :
    (dat2 V c).flushed 2 t = ((cfg2.win 2).blk t).view.read (Elt Ideal) (projK (V c main_v7) (V c main_v6)) := by
  show (cfg2.win 2).cut (grid2.coords t) ((dat2 V c).after 2 t) = _
  rw [after2_2]
  unfold outsAt2
  rw [out_A]
  have key : ∀ y : S1x1x1024x128.Idx,
      k0_pay1 (F := Ideal) (View.ld (iblk2 V c 1 t) (Rect.unit (s := S1024x1024) (k2_off1 (grid2.coords t)) S1024x128.size (k2_off1_inb (grid2.coords t)))) (iblk2 V c 0 t) y
        = (projK (V c main_v7) (V c main_v6)) (((cfg2.win 2).blk t).view.emb y) := by
    intro y
    obtain ⟨n, d, rfl⟩ : ∃ (n : Fin 1024) (d : Fin 128), y = ix4 (0 : Fin 1) (0 : Fin 1) n d :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (pay_apply _ _ n d).trans ?_
    rw [emb2 t n d]
    unfold projK
    refine Finset.sum_congr rfl fun j _ => ?_
    rw [iblk0_apply V c t n j, wcols_apply V c t j d]
    rfl
  exact funext key

/-- The output blocks fill the result array: index `(b, h, ·, ·)` is in point `8 b + h`'s block. -/
theorem cover (i : S4x8x1024x128.Idx) : ∃ t : Fin cfg2.N, (cfg2.win 2).flush t = true ∧ i ∈ ((cfg2.win 2).blk t).view.set := by
  have h0 : (i 0).val < 4 := (i 0).isLt
  have h1 : (i 1).val < 8 := (i 1).isLt
  have h2 : (i 2).val < 1024 := (i 2).isLt
  have h3 : (i 3).val < 128 := (i 3).isLt
  have hN : cfg2.N = 32 := N_2
  refine ⟨⟨8 * (i 0).val + (i 1).val, by rw [hN]; omega⟩, flush2_2 _, ?_⟩
  rw [mem_blk]
  have e := (idx ⟨8 * (i 0).val + (i 1).val, by rw [hN]; omega⟩).2.2.1
  intro a
  match a with
  | ⟨0, _⟩ =>
    show win2_2.index _ (0 : Fin 4) * 1 ≤ (i 0).val ∧ (i 0).val < win2_2.index _ (0 : Fin 4) * 1 + 1
    rw [show win2_2.index _ (0 : Fin 4) = (8 * (i 0).val + (i 1).val) / 8 from congrFun e 0]; omega
  | ⟨1, _⟩ =>
    show win2_2.index _ (1 : Fin 4) * 1 ≤ (i 1).val ∧ (i 1).val < win2_2.index _ (1 : Fin 4) * 1 + 1
    rw [show win2_2.index _ (1 : Fin 4) = (8 * (i 0).val + (i 1).val) % 8 from congrFun e 1]; omega
  | ⟨2, _⟩ =>
    show win2_2.index _ (2 : Fin 4) * 1024 ≤ (i 2).val ∧ (i 2).val < win2_2.index _ (2 : Fin 4) * 1024 + 1024
    rw [show win2_2.index _ (2 : Fin 4) = 0 from congrFun e 2]; omega
  | ⟨3, _⟩ =>
    show win2_2.index _ (3 : Fin 4) * 128 ≤ (i 3).val ∧ (i 3).val < win2_2.index _ (3 : Fin 4) * 128 + 128
    rw [show win2_2.index _ (3 : Fin 4) = 0 from congrFun e 3]; omega

/-- So the result array ends holding the projected array. -/
theorem final (c : Dev nD) : (dat2 V c).arrAt 2 cfg2.N = projK (V c main_v7) (V c main_v6) :=
  (dat2 V c).arrAt_eq_of_cover 2 (projK (V c main_v7) (V c main_v6)) (fun t _ => flushed_eq V c t) cover

end Cert.KernelIdeal.Proj2

end
-- ==== Proof.Proj3.lean ====
/-
  Projection kernel 3: its result array after the thirty-two grid points, as one function of the two arrays the
  region finds (the input with a trailing unit axis, the transposed weight).  Point `t` works on batch entry
  `t / 8` and head `t % 8`: it is handed all rows of that batch entry and the whole weight, loads the head's 128
  weight columns, and writes the head's [1024, 128] tile of the result.
-/
import proofs.«182138_j12103217840332_2_alg».proof.Proof.Gen.KernelIdeal.Frame
import proofs.«182138_j12103217840332_2_alg».proof.Proof.ProjTile
import Idealize.ShloMosaic.Lib.Pipeline.Value
import Idealize.ShloMosaic.Lib.Tactic

set_option maxRecDepth 16384

noncomputable section

namespace Cert.KernelIdeal.Proj3

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)
open Cert.KernelIdeal.ProjTile

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output's staging buffer: its one store covers the buffer, so it is the store's
    payload, of the loaded weight columns and the whole input block. -/
theorem out_A (c : Dev nD) (i : grid3.Coords) (a2 : Memref sig .tc .vmem S1024x1x1024x1 .f32) (h2 : a2.IsWhole)
    (a3 : Memref sig .tc .vmem S1024x1024 .f32) (h3 : a3.IsWhole) (a4 : Memref sig .tc .vmem S1x1x1024x128 .bf16) (h4 : a4.IsWhole)
    (x0 : Vec Ideal S1024x1x1024x1 .f32) (x1 : Vec Ideal S1024x1024 .f32) :
    out3_A_2 (F := Ideal) c i a2 h2 a3 h3 a4 h4 x0 x1
      = k0_pay1 (View.ld x1 (Rect.unit (s := S1024x1024) (k3_off1 i) S1024x128.size (k3_off1_inb i))) x0 := by
  unfold out3_A_2
  rw [View.read_writes_eq_canon _ _ _ (cover3_A_2 c i a2 h2 a3 h3 a4 h4 x0 x1)]
  unfold kernelRun3_A
  dsimp only
  rw [View.canon_unit_zero hz4]
  simp only [View.readAt_eq_ld, h2.read_unread, h3.read_unread, View.ld_unit_zero (S := S1024x1x1024x1) hz4]
  rw [pay3_eq]

/-- The head a grid point works on. -/
def bq (t : Fin cfg3.N) : Fin 4 := ⟨t.val / 8, by have h : t.val < 32 := lt_of_lt_of_eq t.isLt N_3; omega⟩
def hq (t : Fin cfg3.N) : Fin 8 := ⟨t.val % 8, Nat.mod_lt _ (by decide)⟩

/-- The printed index maps and the body's load offsets, decided once over the grid. -/
theorem idx : ∀ t : Fin cfg3.N,
    win3_0.index t = ![0, t.val / 8, 0, 0] ∧ win3_1.index t = ![0, 0]
    ∧ win3_2.index t = ![t.val / 8, t.val % 8, 0, 0] ∧ k3_off1 (grid3.coords t) = ![0, 128 * (t.val % 8)] :=
  (by decide +kernel : ∀ t : Fin grid3.N, _)

/-- Entry `(n, 0, j, 0)` of the input block at point `t` is entry `(n, t / 8, j, 0)` of the input array. -/
theorem iblk0_apply (c : Dev nD) (t : Fin cfg3.N) (n j : Fin 1024) :
    iblk3 V c 0 t (ix4 n (0 : Fin 1) j (0 : Fin 1)) = V c main_v10 (ix4 n (bq t) j (0 : Fin 1)) := by
  show V c main_v10 (((cfg3.win 0).blk t).view.emb (ix4 n (0 : Fin 1) j (0 : Fin 1))) = _
  refine congrArg (V c main_v10) (funext fun a => Fin.ext ?_)
  have e := (idx t).1
  match a with
  | ⟨0, _⟩ => show win3_0.index t (0 : Fin 4) * 1024 + 1 * n.val = n.val; rw [show win3_0.index t (0 : Fin 4) = 0 from congrFun e 0]; omega
  | ⟨1, _⟩ => show win3_0.index t (1 : Fin 4) * 1 + 1 * 0 = t.val / 8; rw [show win3_0.index t (1 : Fin 4) = t.val / 8 from congrFun e 1]; omega
  | ⟨2, _⟩ => show win3_0.index t (2 : Fin 4) * 1024 + 1 * j.val = j.val; rw [show win3_0.index t (2 : Fin 4) = 0 from congrFun e 2]; omega
  | ⟨3, _⟩ => show win3_0.index t (3 : Fin 4) * 1 + 1 * 0 = 0; rw [show win3_0.index t (3 : Fin 4) = 0 from congrFun e 3]

/-- Entry `(j, d)` of the weight columns the body loads at point `t` is entry `(j, 128 (t % 8) + d)` of the
    transposed weight array. -/
theorem wcols_apply (c : Dev nD) (t : Fin cfg3.N) (j : Fin 1024) (d : Fin 128) :
    View.ld (iblk3 V c 1 t) (Rect.unit (s := S1024x1024) (k3_off1 (grid3.coords t)) S1024x128.size (k3_off1_inb (grid3.coords t))) (ix2 j d)
      = V c main_v9 (ix2 j (⟨128 * (t.val % 8) + d.val, by have := d.isLt; omega⟩ : Fin 1024)) := by
  show V c main_v9 (((cfg3.win 1).blk t).view.emb ((Rect.unit (s := S1024x1024) (k3_off1 (grid3.coords t)) S1024x128.size (k3_off1_inb (grid3.coords t))).emb (ix2 j d))) = _
  refine congrArg (V c main_v9) (funext fun a => Fin.ext ?_)
  have e1 := (idx t).2.1
  have e3 := (idx t).2.2.2
  match a with
  | ⟨0, _⟩ =>
    show win3_1.index t (0 : Fin 2) * 1024 + 1 * (k3_off1 (grid3.coords t) 0 + 1 * j.val) = j.val
    rw [show win3_1.index t (0 : Fin 2) = 0 from congrFun e1 0, show k3_off1 (grid3.coords t) 0 = 0 from congrFun e3 0]; omega
  | ⟨1, _⟩ =>
    show win3_1.index t (1 : Fin 2) * 1024 + 1 * (k3_off1 (grid3.coords t) 1 + 1 * d.val) = 128 * (t.val % 8) + d.val
    rw [show win3_1.index t (1 : Fin 2) = 0 from congrFun e1 1, show k3_off1 (grid3.coords t) 1 = 128 * (t.val % 8) from congrFun e3 1]; omega

/-- An index of the result array lies in point `t`'s block iff every coordinate is in the block's range. -/
theorem mem_blk (t : Fin cfg3.N) (i : S4x8x1024x128.Idx) :
    i ∈ ((cfg3.win 2).blk t).view.set ↔ ∀ a : Fin 4, win3_2.index t a * S1x1x1024x128.size a ≤ (i a).val ∧ (i a).val < win3_2.index t a * S1x1x1024x128.size a + S1x1x1024x128.size a := by
  show i ∈ ((View.whole main_v11).slice (win3_2.rect t)).set ↔ _
  rw [View.set_slice_whole, Rect.mem_set_unit]
  exact Iff.rfl

/-- Where the output block at point `t` puts its entry `(0, 0, n, d)`. -/
theorem emb2 (t : Fin cfg3.N) (n : Fin 1024) (d : Fin 128) :
    ((cfg3.win 2).blk t).view.emb (ix4 (0 : Fin 1) (0 : Fin 1) n d) = ix4 (bq t) (hq t) n d := by
  funext a; apply Fin.ext
  have e := (idx t).2.2.1
  match a with
  | ⟨0, _⟩ => show win3_2.index t (0 : Fin 4) * 1 + 1 * 0 = t.val / 8; rw [show win3_2.index t (0 : Fin 4) = t.val / 8 from congrFun e 0]; omega
  | ⟨1, _⟩ => show win3_2.index t (1 : Fin 4) * 1 + 1 * 0 = t.val % 8; rw [show win3_2.index t (1 : Fin 4) = t.val % 8 from congrFun e 1]; omega
  | ⟨2, _⟩ => show win3_2.index t (2 : Fin 4) * 1024 + 1 * n.val = n.val; rw [show win3_2.index t (2 : Fin 4) = 0 from congrFun e 2]; omega
  | ⟨3, _⟩ => show win3_2.index t (3 : Fin 4) * 128 + 1 * d.val = d.val; rw [show win3_2.index t (3 : Fin 4) = 0 from congrFun e 3]; omega

/-- What point `t` writes back is block `t` of the projected array. -/
theorem flushed_eq (c : Dev nD) (t : Fin cfg3.N) :
    (dat3 V c).flushed 2 t = ((cfg3.win 2).blk t).view.read (Elt Ideal) (projK (V c main_v10) (V c main_v9)) := by
  show (cfg3.win 2).cut (grid3.coords t) ((dat3 V c).after 2 t) = _
  rw [after3_2]
  unfold outsAt3
  rw [out_A]
  have key : ∀ y : S1x1x1024x128.Idx,
      k0_pay1 (F := Ideal) (View.ld (iblk3 V c 1 t) (Rect.unit (s := S1024x1024) (k3_off1 (grid3.coords t)) S1024x128.size (k3_off1_inb (grid3.coords t)))) (iblk3 V c 0 t) y
        = (projK (V c main_v10) (V c main_v9)) (((cfg3.win 2).blk t).view.emb y) := by
    intro y
    obtain ⟨n, d, rfl⟩ : ∃ (n : Fin 1024) (d : Fin 128), y = ix4 (0 : Fin 1) (0 : Fin 1) n d :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (pay_apply _ _ n d).trans ?_
    rw [emb2 t n d]
    unfold projK
    refine Finset.sum_congr rfl fun j _ => ?_
    rw [iblk0_apply V c t n j, wcols_apply V c t j d]
    rfl
  exact funext key

/-- The output blocks fill the result array: index `(b, h, ·, ·)` is in point `8 b + h`'s block. -/
theorem cover (i : S4x8x1024x128.Idx) : ∃ t : Fin cfg3.N, (cfg3.win 2).flush t = true ∧ i ∈ ((cfg3.win 2).blk t).view.set := by
  have h0 : (i 0).val < 4 := (i 0).isLt
  have h1 : (i 1).val < 8 := (i 1).isLt
  have h2 : (i 2).val < 1024 := (i 2).isLt
  have h3 : (i 3).val < 128 := (i 3).isLt
  have hN : cfg3.N = 32 := N_3
  refine ⟨⟨8 * (i 0).val + (i 1).val, by rw [hN]; omega⟩, flush3_2 _, ?_⟩
  rw [mem_blk]
  have e := (idx ⟨8 * (i 0).val + (i 1).val, by rw [hN]; omega⟩).2.2.1
  intro a
  match a with
  | ⟨0, _⟩ =>
    show win3_2.index _ (0 : Fin 4) * 1 ≤ (i 0).val ∧ (i 0).val < win3_2.index _ (0 : Fin 4) * 1 + 1
    rw [show win3_2.index _ (0 : Fin 4) = (8 * (i 0).val + (i 1).val) / 8 from congrFun e 0]; omega
  | ⟨1, _⟩ =>
    show win3_2.index _ (1 : Fin 4) * 1 ≤ (i 1).val ∧ (i 1).val < win3_2.index _ (1 : Fin 4) * 1 + 1
    rw [show win3_2.index _ (1 : Fin 4) = (8 * (i 0).val + (i 1).val) % 8 from congrFun e 1]; omega
  | ⟨2, _⟩ =>
    show win3_2.index _ (2 : Fin 4) * 1024 ≤ (i 2).val ∧ (i 2).val < win3_2.index _ (2 : Fin 4) * 1024 + 1024
    rw [show win3_2.index _ (2 : Fin 4) = 0 from congrFun e 2]; omega
  | ⟨3, _⟩ =>
    show win3_2.index _ (3 : Fin 4) * 128 ≤ (i 3).val ∧ (i 3).val < win3_2.index _ (3 : Fin 4) * 128 + 128
    rw [show win3_2.index _ (3 : Fin 4) = 0 from congrFun e 3]; omega

/-- So the result array ends holding the projected array. -/
theorem final (c : Dev nD) : (dat3 V c).arrAt 2 cfg3.N = projK (V c main_v10) (V c main_v9) :=
  (dat3 V c).arrAt_eq_of_cover 2 (projK (V c main_v10) (V c main_v9)) (fun t _ => flushed_eq V c t) cover

end Cert.KernelIdeal.Proj3

end
-- ==== Proof.Proj4.lean ====
/-
  Projection kernel 4: its result array after the thirty-two grid points, as one function of the two arrays the
  region finds (the input with a trailing unit axis, the transposed weight).  Point `t` works on batch entry
  `t / 8` and head `t % 8`: it is handed all rows of that batch entry and the whole weight, loads the head's 128
  weight columns, and writes the head's [1024, 128] tile of the result.
-/
import proofs.«182138_j12103217840332_2_alg».proof.Proof.Gen.KernelIdeal.Frame
import proofs.«182138_j12103217840332_2_alg».proof.Proof.ProjTile
import Idealize.ShloMosaic.Lib.Pipeline.Value
import Idealize.ShloMosaic.Lib.Tactic

set_option maxRecDepth 16384

noncomputable section

namespace Cert.KernelIdeal.Proj4

open Cert.KernelIdeal Cert.KernelIdeal.Gen Idealize.ShloMosaic Idealize.ShloMosaic.TcCoe Idealize.ShloMosaic.ValueIdx Idealize.SL.Sem
open Idealize.ShloMosaic.Tactic
open Idealize.ShloMosaic.Pipeline (Dat)
open Cert.KernelIdeal.ProjTile

variable (V : (c : Dev nD) → (b : Ref sig .tc) → Buf (Elt Ideal) ((c : Thread nD τ).loc b))

theorem hz4 : (![0, 0, 0, 0] : Fin 4 → Nat) = fun _ => 0 := funext fun a => by fin_cases a <;> rfl

/-- What the body leaves in the output's staging buffer: its one store covers the buffer, so it is the store's
    payload, of the loaded weight columns and the whole input block. -/
theorem out_A (c : Dev nD) (i : grid4.Coords) (a2 : Memref sig .tc .vmem S1024x1x1024x1 .f32) (h2 : a2.IsWhole)
    (a3 : Memref sig .tc .vmem S1024x1024 .f32) (h3 : a3.IsWhole) (a4 : Memref sig .tc .vmem S1x1x1024x128 .bf16) (h4 : a4.IsWhole)
    (x0 : Vec Ideal S1024x1x1024x1 .f32) (x1 : Vec Ideal S1024x1024 .f32) :
    out4_A_2 (F := Ideal) c i a2 h2 a3 h3 a4 h4 x0 x1
      = k0_pay1 (View.ld x1 (Rect.unit (s := S1024x1024) (k4_off1 i) S1024x128.size (k4_off1_inb i))) x0 := by
  unfold out4_A_2
  rw [View.read_writes_eq_canon _ _ _ (cover4_A_2 c i a2 h2 a3 h3 a4 h4 x0 x1)]
  unfold kernelRun4_A
  dsimp only
  rw [View.canon_unit_zero hz4]
  simp only [View.readAt_eq_ld, h2.read_unread, h3.read_unread, View.ld_unit_zero (S := S1024x1x1024x1) hz4]
  rw [pay4_eq]

/-- The head a grid point works on. -/
def bq (t : Fin cfg4.N) : Fin 4 := ⟨t.val / 8, by have h : t.val < 32 := lt_of_lt_of_eq t.isLt N_4; omega⟩
def hq (t : Fin cfg4.N) : Fin 8 := ⟨t.val % 8, Nat.mod_lt _ (by decide)⟩

/-- The printed index maps and the body's load offsets, decided once over the grid. -/
theorem idx : ∀ t : Fin cfg4.N,
    win4_0.index t = ![0, t.val / 8, 0, 0] ∧ win4_1.index t = ![0, 0]
    ∧ win4_2.index t = ![t.val / 8, t.val % 8, 0, 0] ∧ k4_off1 (grid4.coords t) = ![0, 128 * (t.val % 8)] :=
  (by decide +kernel : ∀ t : Fin grid4.N, _)

/-- Entry `(n, 0, j, 0)` of the input block at point `t` is entry `(n, t / 8, j, 0)` of the input array. -/
theorem iblk0_apply (c : Dev nD) (t : Fin cfg4.N) (n j : Fin 1024) :
    iblk4 V c 0 t (ix4 n (0 : Fin 1) j (0 : Fin 1)) = V c main_v13 (ix4 n (bq t) j (0 : Fin 1)) := by
  show V c main_v13 (((cfg4.win 0).blk t).view.emb (ix4 n (0 : Fin 1) j (0 : Fin 1))) = _
  refine congrArg (V c main_v13) (funext fun a => Fin.ext ?_)
  have e := (idx t).1
  match a with
  | ⟨0, _⟩ => show win4_0.index t (0 : Fin 4) * 1024 + 1 * n.val = n.val; rw [show win4_0.index t (0 : Fin 4) = 0 from congrFun e 0]; omega
  | ⟨1, _⟩ => show win4_0.index t (1 : Fin 4) * 1 + 1 * 0 = t.val / 8; rw [show win4_0.index t (1 : Fin 4) = t.val / 8 from congrFun e 1]; omega
  | ⟨2, _⟩ => show win4_0.index t (2 : Fin 4) * 1024 + 1 * j.val = j.val; rw [show win4_0.index t (2 : Fin 4) = 0 from congrFun e 2]; omega
  | ⟨3, _⟩ => show win4_0.index t (3 : Fin 4) * 1 + 1 * 0 = 0; rw [show win4_0.index t (3 : Fin 4) = 0 from congrFun e 3]

/-- Entry `(j, d)` of the weight columns the body loads at point `t` is entry `(j, 128 (t % 8) + d)` of the
    transposed weight array. -/
theorem wcols_apply (c : Dev nD) (t : Fin cfg4.N) (j : Fin 1024) (d : Fin 128) :
    View.ld (iblk4 V c 1 t) (Rect.unit (s := S1024x1024) (k4_off1 (grid4.coords t)) S1024x128.size (k4_off1_inb (grid4.coords t))) (ix2 j d)
      = V c main_v12 (ix2 j (⟨128 * (t.val % 8) + d.val, by have := d.isLt; omega⟩ : Fin 1024)) := by
  show V c main_v12 (((cfg4.win 1).blk t).view.emb ((Rect.unit (s := S1024x1024) (k4_off1 (grid4.coords t)) S1024x128.size (k4_off1_inb (grid4.coords t))).emb (ix2 j d))) = _
  refine congrArg (V c main_v12) (funext fun a => Fin.ext ?_)
  have e1 := (idx t).2.1
  have e3 := (idx t).2.2.2
  match a with
  | ⟨0, _⟩ =>
    show win4_1.index t (0 : Fin 2) * 1024 + 1 * (k4_off1 (grid4.coords t) 0 + 1 * j.val) = j.val
    rw [show win4_1.index t (0 : Fin 2) = 0 from congrFun e1 0, show k4_off1 (grid4.coords t) 0 = 0 from congrFun e3 0]; omega
  | ⟨1, _⟩ =>
    show win4_1.index t (1 : Fin 2) * 1024 + 1 * (k4_off1 (grid4.coords t) 1 + 1 * d.val) = 128 * (t.val % 8) + d.val
    rw [show win4_1.index t (1 : Fin 2) = 0 from congrFun e1 1, show k4_off1 (grid4.coords t) 1 = 128 * (t.val % 8) from congrFun e3 1]; omega

/-- An index of the result array lies in point `t`'s block iff every coordinate is in the block's range. -/
theorem mem_blk (t : Fin cfg4.N) (i : S4x8x1024x128.Idx) :
    i ∈ ((cfg4.win 2).blk t).view.set ↔ ∀ a : Fin 4, win4_2.index t a * S1x1x1024x128.size a ≤ (i a).val ∧ (i a).val < win4_2.index t a * S1x1x1024x128.size a + S1x1x1024x128.size a := by
  show i ∈ ((View.whole main_v14).slice (win4_2.rect t)).set ↔ _
  rw [View.set_slice_whole, Rect.mem_set_unit]
  exact Iff.rfl

/-- Where the output block at point `t` puts its entry `(0, 0, n, d)`. -/
theorem emb2 (t : Fin cfg4.N) (n : Fin 1024) (d : Fin 128) :
    ((cfg4.win 2).blk t).view.emb (ix4 (0 : Fin 1) (0 : Fin 1) n d) = ix4 (bq t) (hq t) n d := by
  funext a; apply Fin.ext
  have e := (idx t).2.2.1
  match a with
  | ⟨0, _⟩ => show win4_2.index t (0 : Fin 4) * 1 + 1 * 0 = t.val / 8; rw [show win4_2.index t (0 : Fin 4) = t.val / 8 from congrFun e 0]; omega
  | ⟨1, _⟩ => show win4_2.index t (1 : Fin 4) * 1 + 1 * 0 = t.val % 8; rw [show win4_2.index t (1 : Fin 4) = t.val % 8 from congrFun e 1]; omega
  | ⟨2, _⟩ => show win4_2.index t (2 : Fin 4) * 1024 + 1 * n.val = n.val; rw [show win4_2.index t (2 : Fin 4) = 0 from congrFun e 2]; omega
  | ⟨3, _⟩ => show win4_2.index t (3 : Fin 4) * 128 + 1 * d.val = d.val; rw [show win4_2.index t (3 : Fin 4) = 0 from congrFun e 3]; omega

/-- What point `t` writes back is block `t` of the projected array. -/
theorem flushed_eq (c : Dev nD) (t : Fin cfg4.N) :
    (dat4 V c).flushed 2 t = ((cfg4.win 2).blk t).view.read (Elt Ideal) (projK (V c main_v13) (V c main_v12)) := by
  show (cfg4.win 2).cut (grid4.coords t) ((dat4 V c).after 2 t) = _
  rw [after4_2]
  unfold outsAt4
  rw [out_A]
  have key : ∀ y : S1x1x1024x128.Idx,
      k0_pay1 (F := Ideal) (View.ld (iblk4 V c 1 t) (Rect.unit (s := S1024x1024) (k4_off1 (grid4.coords t)) S1024x128.size (k4_off1_inb (grid4.coords t)))) (iblk4 V c 0 t) y
        = (projK (V c main_v13) (V c main_v12)) (((cfg4.win 2).blk t).view.emb y) := by
    intro y
    obtain ⟨n, d, rfl⟩ : ∃ (n : Fin 1024) (d : Fin 128), y = ix4 (0 : Fin 1) (0 : Fin 1) n d :=
      ⟨y 2, y 3, funext fun a => by
        match a with
        | ⟨0, _⟩ => exact Fin.ext (Nat.lt_one_iff.mp (y 0).isLt)
        | ⟨1, _⟩ => exact Fin.ext (Nat.lt_one_iff.mp (y 1).isLt)
        | ⟨2, _⟩ => rfl
        | ⟨3, _⟩ => rfl⟩
    refine (pay_apply _ _ n d).trans ?_
    rw [emb2 t n d]
    unfold projK
    refine Finset.sum_congr rfl fun j _ => ?_
    rw [iblk0_apply V c t n j, wcols_apply V c t j d]
    rfl
  exact funext key

/-- The output blocks fill the result array: index `(b, h, ·, ·)` is in point `8 b + h`'s block. -/
theorem cover (i : S4x8x1024x128.Idx) : ∃ t : Fin cfg4.N, (cfg4.win 2).flush t = true ∧ i ∈ ((cfg4.win 2).blk t).view.set := by
  have h0 : (i 0).val < 4 := (i 0).isLt
  have h1 : (i 1).val < 8 := (i 1).isLt
  have h2 : (i 2).val < 1024 := (i 2).isLt
  have h3 : (i 3).val < 128 := (i 3).isLt
  have hN : cfg4.N = 32 := N_4
  refine ⟨⟨8 * (i 0).val + (i 1).val, by rw [hN]; omega⟩, flush4_2 _, ?_⟩
  rw [mem_blk]
  have e := (idx ⟨8 * (i 0).val + (i 1).val, by rw [hN]; omega⟩).2.2.1
  intro a
  match a with
  | ⟨0, _⟩ =>
    show win4_2.index _ (0 : Fin 4) * 1 ≤ (i 0).val ∧ (i 0).val < win4_2.index _ (0 : Fin 4) * 1 + 1
    rw [show win4_2.index _ (0 : Fin 4) = (8 * (i 0).val + (i 1).val) / 8 from congrFun e 0]; omega
  | ⟨1, _⟩ =>
    show win4_2.index _ (1 : Fin 4) * 1 ≤ (i 1).val ∧ (i 1).val < win4_2.index _ (1 : Fin 4) * 1 + 1
    rw [show win4_2.index _ (1 : Fin 4) = (8 * (i 0).val + (i 1).val) % 8 from congrFun e 1]; omega
  | ⟨2, _⟩ =>
    show win4_2.index _ (2 : Fin 4) * 1024 ≤ (i 2).val ∧ (i 2).val < win4_2.index _ (2 : Fin 4) * 1024 + 1024
    rw [show win4_2.index _ (2 : Fin 4) = 0 from congrFun e 2]; omega
  | ⟨3, _⟩ =>
    show win4_2.index _ (3 : Fin 4) * 128 ≤ (i 3).val ∧ (i 3).val < win4_2.index _ (3 : Fin 4) * 128 + 128
    rw [show win4_2.index _ (3 : Fin 4) = 0 from congrFun e 3]; omega

/-- So the result array ends holding the projected array. -/
theorem final (c : Dev nD) : (dat4 V c).arrAt 2 cfg4.N = projK (V c main_v13) (V c main_v12) :=
  (dat4 V c).arrAt_eq_of_cover 2 (projK (V c main_v13) (V c main_v12)) (fun t _ => flushed_eq V c t) cover

end Cert.KernelIdeal.Proj4

end
-- ==== Proof.Plumb.lean ====
/-
  The bookkeeping between the regions.  @main's buffer contents at each boundary are a fold from the launch memory:
  a stretch of host operations rewrites only the buffers it names, a region only its own arrays.  Walking the fold
  back, each projection kernel is handed the reshaped input and the transposed weight of the ARGUMENTS, the attention
  kernel is handed the five projected arrays, and the two results are the attention weights and the context after
  the host's two transposes and reshape.
-/
import proofs.«182138_j12103217840332_2_alg».proof.Proof.AttnArr
import proofs.«182138_j12103217840332_2_alg».proof.Proof.Proj0
import proofs.«182138_j12103217840332_2_alg».proof.Proof.Proj1
import proofs.«182138_j12103217840332_2_alg».proof.Proof.Proj2
import proofs.«182138_j12103217840332_2_alg».proof.Proof.Proj3
import proofs.«182138_j12103217840332_2_alg».proof.Proof.Proj4
import Idealize.ShloMosaic.Lib.StableHlo.Run

set_option maxRecDepth 16384

noncomputable section

namespace Cert.KernelIdeal.Plumb

open Cert.KernelIdeal Cert.KernelIdeal.Gen Idealize.ShloMosaic Idealize.ShloMosaic.TcCoe Idealize.SL.Sem Idealize.ShloMosaic.StableHlo
open Cert.KernelIdeal.ProjTile

variable (m : (ℓ : Loc nD τ sig) → Buf (Elt Ideal) ℓ) (ρ : Dev nD → PrngReg)

/-- A stretch of host operations leaves a buffer none of them writes as it was. -/
macro "host_skip " ops:ident : tactic => `(tactic| (
  refine StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))))

/-! ## The arguments, as each stretch of host operations finds them -/

theorem W2_arg1 (c : Dev nD) : W2 m ρ c (Proc.devRef .tc main_arg1) = m ((c : Thread nD τ).loc main_arg1) :=
  (W2_of_ne m ρ c main_arg1 (by decide)).trans
    (((by host_skip hostOps0 : W1 m ρ c (Proc.devRef .tc main_arg1) = W0 m ρ c (Proc.devRef .tc main_arg1))).trans
    ((rfl : W0 m ρ c (Proc.devRef .tc main_arg1) = m ((c : Thread nD τ).loc main_arg1))))

theorem W2_arg6 (c : Dev nD) : W2 m ρ c (Proc.devRef .tc main_arg6) = m ((c : Thread nD τ).loc main_arg6) :=
  (W2_of_ne m ρ c main_arg6 (by decide)).trans
    (((by host_skip hostOps0 : W1 m ρ c (Proc.devRef .tc main_arg6) = W0 m ρ c (Proc.devRef .tc main_arg6))).trans
    ((rfl : W0 m ρ c (Proc.devRef .tc main_arg6) = m ((c : Thread nD τ).loc main_arg6))))

theorem W4_arg2 (c : Dev nD) : W4 m ρ c (Proc.devRef .tc main_arg2) = m ((c : Thread nD τ).loc main_arg2) :=
  (W4_of_ne m ρ c main_arg2 (by decide)).trans
    (((by host_skip hostOps1 : W3 m ρ c (Proc.devRef .tc main_arg2) = W2 m ρ c (Proc.devRef .tc main_arg2))).trans
    ((W2_of_ne m ρ c main_arg2 (by decide)).trans
    (((by host_skip hostOps0 : W1 m ρ c (Proc.devRef .tc main_arg2) = W0 m ρ c (Proc.devRef .tc main_arg2))).trans
    ((rfl : W0 m ρ c (Proc.devRef .tc main_arg2) = m ((c : Thread nD τ).loc main_arg2))))))

theorem W4_arg7 (c : Dev nD) : W4 m ρ c (Proc.devRef .tc main_arg7) = m ((c : Thread nD τ).loc main_arg7) :=
  (W4_of_ne m ρ c main_arg7 (by decide)).trans
    (((by host_skip hostOps1 : W3 m ρ c (Proc.devRef .tc main_arg7) = W2 m ρ c (Proc.devRef .tc main_arg7))).trans
    ((W2_of_ne m ρ c main_arg7 (by decide)).trans
    (((by host_skip hostOps0 : W1 m ρ c (Proc.devRef .tc main_arg7) = W0 m ρ c (Proc.devRef .tc main_arg7))).trans
    ((rfl : W0 m ρ c (Proc.devRef .tc main_arg7) = m ((c : Thread nD τ).loc main_arg7))))))

theorem W6_arg3 (c : Dev nD) : W6 m ρ c (Proc.devRef .tc main_arg3) = m ((c : Thread nD τ).loc main_arg3) :=
  (W6_of_ne m ρ c main_arg3 (by decide)).trans
    (((by host_skip hostOps2 : W5 m ρ c (Proc.devRef .tc main_arg3) = W4 m ρ c (Proc.devRef .tc main_arg3))).trans
    ((W4_of_ne m ρ c main_arg3 (by decide)).trans
    (((by host_skip hostOps1 : W3 m ρ c (Proc.devRef .tc main_arg3) = W2 m ρ c (Proc.devRef .tc main_arg3))).trans
    ((W2_of_ne m ρ c main_arg3 (by decide)).trans
    (((by host_skip hostOps0 : W1 m ρ c (Proc.devRef .tc main_arg3) = W0 m ρ c (Proc.devRef .tc main_arg3))).trans
    ((rfl : W0 m ρ c (Proc.devRef .tc main_arg3) = m ((c : Thread nD τ).loc main_arg3))))))))

theorem W6_arg8 (c : Dev nD) : W6 m ρ c (Proc.devRef .tc main_arg8) = m ((c : Thread nD τ).loc main_arg8) :=
  (W6_of_ne m ρ c main_arg8 (by decide)).trans
    (((by host_skip hostOps2 : W5 m ρ c (Proc.devRef .tc main_arg8) = W4 m ρ c (Proc.devRef .tc main_arg8))).trans
    ((W4_of_ne m ρ c main_arg8 (by decide)).trans
    (((by host_skip hostOps1 : W3 m ρ c (Proc.devRef .tc main_arg8) = W2 m ρ c (Proc.devRef .tc main_arg8))).trans
    ((W2_of_ne m ρ c main_arg8 (by decide)).trans
    (((by host_skip hostOps0 : W1 m ρ c (Proc.devRef .tc main_arg8) = W0 m ρ c (Proc.devRef .tc main_arg8))).trans
    ((rfl : W0 m ρ c (Proc.devRef .tc main_arg8) = m ((c : Thread nD τ).loc main_arg8))))))))

theorem W8_arg4 (c : Dev nD) : W8 m ρ c (Proc.devRef .tc main_arg4) = m ((c : Thread nD τ).loc main_arg4) :=
  (W8_of_ne m ρ c main_arg4 (by decide)).trans
    (((by host_skip hostOps3 : W7 m ρ c (Proc.devRef .tc main_arg4) = W6 m ρ c (Proc.devRef .tc main_arg4))).trans
    ((W6_of_ne m ρ c main_arg4 (by decide)).trans
    (((by host_skip hostOps2 : W5 m ρ c (Proc.devRef .tc main_arg4) = W4 m ρ c (Proc.devRef .tc main_arg4))).trans
    ((W4_of_ne m ρ c main_arg4 (by decide)).trans
    (((by host_skip hostOps1 : W3 m ρ c (Proc.devRef .tc main_arg4) = W2 m ρ c (Proc.devRef .tc main_arg4))).trans
    ((W2_of_ne m ρ c main_arg4 (by decide)).trans
    (((by host_skip hostOps0 : W1 m ρ c (Proc.devRef .tc main_arg4) = W0 m ρ c (Proc.devRef .tc main_arg4))).trans
    ((rfl : W0 m ρ c (Proc.devRef .tc main_arg4) = m ((c : Thread nD τ).loc main_arg4))))))))))

theorem W8_arg9 (c : Dev nD) : W8 m ρ c (Proc.devRef .tc main_arg9) = m ((c : Thread nD τ).loc main_arg9) :=
  (W8_of_ne m ρ c main_arg9 (by decide)).trans
    (((by host_skip hostOps3 : W7 m ρ c (Proc.devRef .tc main_arg9) = W6 m ρ c (Proc.devRef .tc main_arg9))).trans
    ((W6_of_ne m ρ c main_arg9 (by decide)).trans
    (((by host_skip hostOps2 : W5 m ρ c (Proc.devRef .tc main_arg9) = W4 m ρ c (Proc.devRef .tc main_arg9))).trans
    ((W4_of_ne m ρ c main_arg9 (by decide)).trans
    (((by host_skip hostOps1 : W3 m ρ c (Proc.devRef .tc main_arg9) = W2 m ρ c (Proc.devRef .tc main_arg9))).trans
    ((W2_of_ne m ρ c main_arg9 (by decide)).trans
    (((by host_skip hostOps0 : W1 m ρ c (Proc.devRef .tc main_arg9) = W0 m ρ c (Proc.devRef .tc main_arg9))).trans
    ((rfl : W0 m ρ c (Proc.devRef .tc main_arg9) = m ((c : Thread nD τ).loc main_arg9))))))))))

/-! ## What each projection kernel is handed -/

/-- Input `k` with a trailing unit axis, and weight `k` transposed: the host's two operations before kernel `k`. -/
abbrev X4_0 (c : Dev nD) : S1024x4x1024x1.Idx → EReal := shapeCast S1024x4x1024x1 (m ((c : Thread nD τ).loc main_arg0)) shapeCasts_S1024x4x1024_S1024x4x1024x1
abbrev WT_0 (c : Dev nD) : S1024x1024.Idx → EReal := transpose S1024x1024 [1, 0] (m ((c : Thread nD τ).loc main_arg5)) transposes_S1024x1024_S1024x1024_1_0
abbrev X4_1 (c : Dev nD) : S1024x4x1024x1.Idx → EReal := shapeCast S1024x4x1024x1 (m ((c : Thread nD τ).loc main_arg1)) shapeCasts_S1024x4x1024_S1024x4x1024x1
abbrev WT_1 (c : Dev nD) : S1024x1024.Idx → EReal := transpose S1024x1024 [1, 0] (m ((c : Thread nD τ).loc main_arg6)) transposes_S1024x1024_S1024x1024_1_0
abbrev X4_2 (c : Dev nD) : S1024x4x1024x1.Idx → EReal := shapeCast S1024x4x1024x1 (m ((c : Thread nD τ).loc main_arg2)) shapeCasts_S1024x4x1024_S1024x4x1024x1
abbrev WT_2 (c : Dev nD) : S1024x1024.Idx → EReal := transpose S1024x1024 [1, 0] (m ((c : Thread nD τ).loc main_arg7)) transposes_S1024x1024_S1024x1024_1_0
abbrev X4_3 (c : Dev nD) : S1024x4x1024x1.Idx → EReal := shapeCast S1024x4x1024x1 (m ((c : Thread nD τ).loc main_arg3)) shapeCasts_S1024x4x1024_S1024x4x1024x1
abbrev WT_3 (c : Dev nD) : S1024x1024.Idx → EReal := transpose S1024x1024 [1, 0] (m ((c : Thread nD τ).loc main_arg8)) transposes_S1024x1024_S1024x1024_1_0
abbrev X4_4 (c : Dev nD) : S1024x4x1024x1.Idx → EReal := shapeCast S1024x4x1024x1 (m ((c : Thread nD τ).loc main_arg4)) shapeCasts_S1024x4x1024_S1024x4x1024x1
abbrev WT_4 (c : Dev nD) : S1024x1024.Idx → EReal := transpose S1024x1024 [1, 0] (m ((c : Thread nD τ).loc main_arg9)) transposes_S1024x1024_S1024x1024_1_0

theorem entry0_x (c : Dev nD) : V1 m ρ c main_v1 = X4_0 m c := by
  show StableHlo.after hostOps0 (W0 m ρ c) (Proc.devRef .tc main_v1) = _
  after_results
  try rfl
theorem entry0_w (c : Dev nD) : V1 m ρ c main_v0 = WT_0 m c := by
  show StableHlo.after hostOps0 (W0 m ρ c) (Proc.devRef .tc main_v0) = _
  after_results
  try rfl

theorem entry1_x (c : Dev nD) : V3 m ρ c main_v4 = X4_1 m c := by
  show StableHlo.after hostOps1 (W2 m ρ c) (Proc.devRef .tc main_v4) = _
  after_results
  rw [W2_arg1 m ρ c]
  try rfl
theorem entry1_w (c : Dev nD) : V3 m ρ c main_v3 = WT_1 m c := by
  show StableHlo.after hostOps1 (W2 m ρ c) (Proc.devRef .tc main_v3) = _
  after_results
  rw [W2_arg6 m ρ c]
  try rfl

theorem entry2_x (c : Dev nD) : V5 m ρ c main_v7 = X4_2 m c := by
  show StableHlo.after hostOps2 (W4 m ρ c) (Proc.devRef .tc main_v7) = _
  after_results
  rw [W4_arg2 m ρ c]
  try rfl
theorem entry2_w (c : Dev nD) : V5 m ρ c main_v6 = WT_2 m c := by
  show StableHlo.after hostOps2 (W4 m ρ c) (Proc.devRef .tc main_v6) = _
  after_results
  rw [W4_arg7 m ρ c]
  try rfl

theorem entry3_x (c : Dev nD) : V7 m ρ c main_v10 = X4_3 m c := by
  show StableHlo.after hostOps3 (W6 m ρ c) (Proc.devRef .tc main_v10) = _
  after_results
  rw [W6_arg3 m ρ c]
  try rfl
theorem entry3_w (c : Dev nD) : V7 m ρ c main_v9 = WT_3 m c := by
  show StableHlo.after hostOps3 (W6 m ρ c) (Proc.devRef .tc main_v9) = _
  after_results
  rw [W6_arg8 m ρ c]
  try rfl

theorem entry4_x (c : Dev nD) : V9 m ρ c main_v13 = X4_4 m c := by
  show StableHlo.after hostOps4 (W8 m ρ c) (Proc.devRef .tc main_v13) = _
  after_results
  rw [W8_arg4 m ρ c]
  try rfl
theorem entry4_w (c : Dev nD) : V9 m ρ c main_v12 = WT_4 m c := by
  show StableHlo.after hostOps4 (W8 m ρ c) (Proc.devRef .tc main_v12) = _
  after_results
  rw [W8_arg9 m ρ c]
  try rfl

/-! ## The five projected arrays, as the attention kernel finds them -/

theorem P0_eq (c : Dev nD) : V10 m ρ c main_v2 = projK (X4_0 m c) (WT_0 m c) := by
  show W10 m ρ c (Proc.devRef .tc main_v2) = _
  refine ((W10_of_ne m ρ c main_v2 (by decide)).trans
    (((by host_skip hostOps4 : W9 m ρ c (Proc.devRef .tc main_v2) = W8 m ρ c (Proc.devRef .tc main_v2))).trans
    ((W8_of_ne m ρ c main_v2 (by decide)).trans
    (((by host_skip hostOps3 : W7 m ρ c (Proc.devRef .tc main_v2) = W6 m ρ c (Proc.devRef .tc main_v2))).trans
    ((W6_of_ne m ρ c main_v2 (by decide)).trans
    (((by host_skip hostOps2 : W5 m ρ c (Proc.devRef .tc main_v2) = W4 m ρ c (Proc.devRef .tc main_v2))).trans
    ((W4_of_ne m ρ c main_v2 (by decide)).trans
    ((by host_skip hostOps1 : W3 m ρ c (Proc.devRef .tc main_v2) = W2 m ρ c (Proc.devRef .tc main_v2)))))))))).trans ?_
  refine (W2_arr m ρ c 2).trans ?_
  refine (Cert.KernelIdeal.Proj0.final (V1 m ρ) c).trans ?_
  rw [entry0_x m ρ c, entry0_w m ρ c]

theorem P1_eq (c : Dev nD) : V10 m ρ c main_v5 = projK (X4_1 m c) (WT_1 m c) := by
  show W10 m ρ c (Proc.devRef .tc main_v5) = _
  refine ((W10_of_ne m ρ c main_v5 (by decide)).trans
    (((by host_skip hostOps4 : W9 m ρ c (Proc.devRef .tc main_v5) = W8 m ρ c (Proc.devRef .tc main_v5))).trans
    ((W8_of_ne m ρ c main_v5 (by decide)).trans
    (((by host_skip hostOps3 : W7 m ρ c (Proc.devRef .tc main_v5) = W6 m ρ c (Proc.devRef .tc main_v5))).trans
    ((W6_of_ne m ρ c main_v5 (by decide)).trans
    ((by host_skip hostOps2 : W5 m ρ c (Proc.devRef .tc main_v5) = W4 m ρ c (Proc.devRef .tc main_v5)))))))).trans ?_
  refine (W4_arr m ρ c 2).trans ?_
  refine (Cert.KernelIdeal.Proj1.final (V3 m ρ) c).trans ?_
  rw [entry1_x m ρ c, entry1_w m ρ c]

theorem P2_eq (c : Dev nD) : V10 m ρ c main_v8 = projK (X4_2 m c) (WT_2 m c) := by
  show W10 m ρ c (Proc.devRef .tc main_v8) = _
  refine ((W10_of_ne m ρ c main_v8 (by decide)).trans
    (((by host_skip hostOps4 : W9 m ρ c (Proc.devRef .tc main_v8) = W8 m ρ c (Proc.devRef .tc main_v8))).trans
    ((W8_of_ne m ρ c main_v8 (by decide)).trans
    ((by host_skip hostOps3 : W7 m ρ c (Proc.devRef .tc main_v8) = W6 m ρ c (Proc.devRef .tc main_v8)))))).trans ?_
  refine (W6_arr m ρ c 2).trans ?_
  refine (Cert.KernelIdeal.Proj2.final (V5 m ρ) c).trans ?_
  rw [entry2_x m ρ c, entry2_w m ρ c]

theorem P3_eq (c : Dev nD) : V10 m ρ c main_v11 = projK (X4_3 m c) (WT_3 m c) := by
  show W10 m ρ c (Proc.devRef .tc main_v11) = _
  refine ((W10_of_ne m ρ c main_v11 (by decide)).trans
    ((by host_skip hostOps4 : W9 m ρ c (Proc.devRef .tc main_v11) = W8 m ρ c (Proc.devRef .tc main_v11)))).trans ?_
  refine (W8_arr m ρ c 2).trans ?_
  refine (Cert.KernelIdeal.Proj3.final (V7 m ρ) c).trans ?_
  rw [entry3_x m ρ c, entry3_w m ρ c]

theorem P4_eq (c : Dev nD) : V10 m ρ c main_v14 = projK (X4_4 m c) (WT_4 m c) := by
  show W10 m ρ c (Proc.devRef .tc main_v14) = _
  refine Eq.trans rfl ?_
  refine (W10_arr m ρ c 2).trans ?_
  refine (Cert.KernelIdeal.Proj4.final (V9 m ρ) c).trans ?_
  rw [entry4_x m ρ c, entry4_w m ρ c]

/-! ## The two results -/

/-- The attention weights: the second result. -/
theorem attn_res (c : Dev nD) : W12 m ρ c (Proc.devRef .tc main_v15_1)
    = Cert.Spec.attnArr (projK (X4_0 m c) (WT_0 m c)) (projK (X4_1 m c) (WT_1 m c)) (projK (X4_2 m c) (WT_2 m c)) (projK (X4_3 m c) (WT_3 m c)) := by
  refine (by host_skip hostOps6 : W12 m ρ c (Proc.devRef .tc main_v15_1) = W11 m ρ c (Proc.devRef .tc main_v15_1)).trans ?_
  refine (W11_arr m ρ c 6).trans ?_
  refine (Cert.KernelIdeal.AttnArr.final6 (V10 m ρ) c).trans ?_
  rw [P0_eq m ρ c, P1_eq m ρ c, P2_eq m ρ c, P3_eq m ρ c]

/-- The context, as the attention kernel leaves it. -/
theorem ctx_res (c : Dev nD) : W11 m ρ c (Proc.devRef .tc main_v15_0)
    = Cert.Spec.ctxArr (projK (X4_0 m c) (WT_0 m c)) (projK (X4_1 m c) (WT_1 m c)) (projK (X4_2 m c) (WT_2 m c)) (projK (X4_3 m c) (WT_3 m c)) (projK (X4_4 m c) (WT_4 m c)) := by
  refine (W11_arr m ρ c 5).trans ?_
  refine (Cert.KernelIdeal.AttnArr.final5 (V10 m ρ) c).trans ?_
  rw [P0_eq m ρ c, P1_eq m ρ c, P2_eq m ρ c, P3_eq m ρ c, P4_eq m ρ c]

/-- The host's last three operations: heads back beside their features, then rows first. -/
def tail (x : S4x8x1024x128.Idx → EReal) : S1024x4x1024.Idx → EReal :=
  transpose S1024x4x1024 [1, 0, 2] (shapeCast S4x1024x1024 (transpose S4x1024x8x128 [0, 2, 1, 3] x transposes_S4x8x1024x128_S4x1024x8x128_0_2_1_3) shapeCasts_S4x1024x8x128_S4x1024x1024) transposes_S4x1024x1024_S1024x4x1024_1_0_2

/-- The first result: the context through the host's tail. -/
theorem x_res (c : Dev nD) : W12 m ρ c (Proc.devRef .tc main_v18) = tail (W11 m ρ c (Proc.devRef .tc main_v15_0)) := by
  show StableHlo.after hostOps6 (W11 m ρ c) (Proc.devRef .tc main_v18) = _
  after_results
  try rfl

end Cert.KernelIdeal.Plumb

end
-- ==== Proof.KernelValue.lean ====
/-
  The idealized kernel's two results as functions of the ARGUMENTS alone.  What a projection kernel computes from the
  reshaped input and the transposed weight is the specification's projection of the input and the weight themselves:
  the trailing unit axis and the transpose only rename indices.  With that, the attention weights are the
  specification's `attnArr` of four projections, and the output is the context `ctxArr` of all five, through the
  host's two transposes and reshape.
-/
import proofs.«182138_j12103217840332_2_alg».proof.Proof.KernelRun
import proofs.«182138_j12103217840332_2_alg».proof.Proof.Plumb

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem
open Cert.KernelIdeal.ProjTile Cert.KernelIdeal.Plumb

/-- The kernel's projection of the reshaped input against the transposed weight is the projection of the input
    against the weight: entry `(n, b, j, 0)` of the reshape is entry `(n, b, j)`, entry `(j, r)` of the transpose
    is entry `(r, j)`. -/
theorem projK_eq (x : S1024x4x1024.Idx → EReal) (w : S1024x1024.Idx → EReal) :
    projK (shapeCast S1024x4x1024x1 x shapeCasts_S1024x4x1024_S1024x4x1024x1) (transpose S1024x1024 [1, 0] w transposes_S1024x1024_S1024x1024_1_0)
      = Cert.Spec.projArr x w := by
  funext i
  obtain ⟨b, h, n, d, rfl⟩ : ∃ (b : Fin 4) (h : Fin 8) (n : Fin 1024) (d : Fin 128), i = ix4 b h n d := ⟨i 0, i 1, i 2, i 3, eq_ix4 i⟩
  unfold projK Cert.Spec.projArr Cert.Spec.proj
  refine Finset.sum_congr rfl fun j _ => ?_
  have e1 : shapeCast S1024x4x1024x1 x shapeCasts_S1024x4x1024_S1024x4x1024x1 (ix4 n b j (0 : Fin 1)) = x (ix3 n b j) :=
    shapeCast_apply x shapeCasts_S1024x4x1024_S1024x4x1024x1 (ix4 n b j (0 : Fin 1)) (ix3 n b j) (by
      rw [Shape.rowMajor_val_three, Shape.rowMajor_val_four]
      show (n.val * 4 + b.val) * 1024 + j.val = ((n.val * 4 + b.val) * 1024 + j.val) * 1 + 0
      omega)
  have e2 : ∀ r : Fin 1024, transpose S1024x1024 [1, 0] w transposes_S1024x1024_S1024x1024_1_0 (ix2 j r) = w (ix2 r j) := fun r =>
    transpose_apply [1, 0] w transposes_S1024x1024_S1024x1024_1_0 (ix2 j r) (ix2 r j) (fun a => by
      match a with
      | ⟨0, _⟩ => rfl
      | ⟨1, _⟩ => rfl)
  exact congrArg₂ (· * ·) e1 (e2 _)

variable (m : (ℓ : Loc nD τ sig) → Buf (Elt Ideal) ℓ) (ρ : Dev nD → PrngReg)

/-- The attention weights, from the arguments. -/
def attnOf (c : Dev nD) : S4x8x1024x1024.Idx → EReal :=
  Cert.Spec.attnArr (Cert.Spec.projArr (m ((c : Thread nD τ).loc main_arg0)) (m ((c : Thread nD τ).loc main_arg5))) (Cert.Spec.projArr (m ((c : Thread nD τ).loc main_arg1)) (m ((c : Thread nD τ).loc main_arg6)))
    (Cert.Spec.projArr (m ((c : Thread nD τ).loc main_arg2)) (m ((c : Thread nD τ).loc main_arg7))) (Cert.Spec.projArr (m ((c : Thread nD τ).loc main_arg3)) (m ((c : Thread nD τ).loc main_arg8)))

/-- The context, from the arguments. -/
def ctxOf (c : Dev nD) : S4x8x1024x128.Idx → EReal :=
  Cert.Spec.ctxArr (Cert.Spec.projArr (m ((c : Thread nD τ).loc main_arg0)) (m ((c : Thread nD τ).loc main_arg5))) (Cert.Spec.projArr (m ((c : Thread nD τ).loc main_arg1)) (m ((c : Thread nD τ).loc main_arg6)))
    (Cert.Spec.projArr (m ((c : Thread nD τ).loc main_arg2)) (m ((c : Thread nD τ).loc main_arg7))) (Cert.Spec.projArr (m ((c : Thread nD τ).loc main_arg3)) (m ((c : Thread nD τ).loc main_arg8))) (Cert.Spec.projArr (m ((c : Thread nD τ).loc main_arg4)) (m ((c : Thread nD τ).loc main_arg9)))

/-- Each projected array, from its two arguments. -/
theorem proj_spec0 (c : Dev nD) : projK (X4_0 m c) (WT_0 m c) = Cert.Spec.projArr (m ((c : Thread nD τ).loc main_arg0)) (m ((c : Thread nD τ).loc main_arg5)) := projK_eq _ _
theorem proj_spec1 (c : Dev nD) : projK (X4_1 m c) (WT_1 m c) = Cert.Spec.projArr (m ((c : Thread nD τ).loc main_arg1)) (m ((c : Thread nD τ).loc main_arg6)) := projK_eq _ _
theorem proj_spec2 (c : Dev nD) : projK (X4_2 m c) (WT_2 m c) = Cert.Spec.projArr (m ((c : Thread nD τ).loc main_arg2)) (m ((c : Thread nD τ).loc main_arg7)) := projK_eq _ _
theorem proj_spec3 (c : Dev nD) : projK (X4_3 m c) (WT_3 m c) = Cert.Spec.projArr (m ((c : Thread nD τ).loc main_arg3)) (m ((c : Thread nD τ).loc main_arg8)) := projK_eq _ _
theorem proj_spec4 (c : Dev nD) : projK (X4_4 m c) (WT_4 m c) = Cert.Spec.projArr (m ((c : Thread nD τ).loc main_arg4)) (m ((c : Thread nD τ).loc main_arg9)) := projK_eq _ _

theorem attn_val (c : Dev nD) : W12 m ρ c (Proc.devRef .tc main_v15_1) = attnOf m c := by
  rw [attn_res m ρ c, proj_spec0 m c, proj_spec1 m c, proj_spec2 m c, proj_spec3 m c]
  rfl

theorem out_val (c : Dev nD) : W12 m ρ c (Proc.devRef .tc main_v18) = tail (ctxOf m c) := by
  rw [x_res m ρ c, ctx_res m ρ c, proj_spec0 m c, proj_spec1 m c, proj_spec2 m c, proj_spec3 m c, proj_spec4 m c]
  rfl

/-- Every weakly fair execution of the idealized kernel terminates, nothing faulting, with its first result at the
    context through the host's tail, its second at the attention weights, and the arguments as launched. -/
theorem run : θ_run defs (onTc (τ := τ) (main (F := Ideal))) ⟨m, fun _ => 0, ρ⟩ (fun r => ∀ c : Dev nD,
      r.2.mem ((c.tc : Thread nD τ).loc main_v18) = tail (ctxOf m c)
      ∧ r.2.mem ((c.tc : Thread nD τ).loc main_v15_1) = attnOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (out_val m ρ c), (h c).2.1.trans (attn_val m ρ c), (h c).2.2⟩)
    (Cert.KernelIdeal.Named.run m ρ)

end Cert.KernelIdeal.Result

end
-- ==== Proof.RefSpec.lean ====
/-
  The idealized reference, read stage by stage into the specification: its five projections are `projArr` of the
  arguments, each normalisation is `l2n` of a head's tile, each softmax `smax` of a head's score matrix (the
  reference's extra maximum with −∞ changes nothing), the averaged weights `attn` (the reference multiplies by 1/2
  on the right, the kernel on the left), and the context `ctx`.
-/
import proofs.«182138_j12103217840332_2_alg».proof.Proof.Gen.ReferenceIdeal.Read
import proofs.«182138_j12103217840332_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefSpec

open Cert.ReferenceIdeal Cert.ReferenceIdeal.Gen Cert.ReferenceIdeal.Read Idealize.ShloMosaic Idealize.ShloMosaic.ValueIdx

/-! ## The projections -/

/-- Reading (n, b, h, d) of the [1024, 4, 8, 128] reshape back in [1024, 4, 1024]: the same row-major position. -/
theorem reshape_idx (idxf : S1024x4x8x128.Idx → S1024x4x1024.Idx)
    (h0 : ∀ i, (idxf i 0).val = ((((i 0).val * 4 + (i 1).val) * 8 + (i 2).val) * 128 + (i 3).val) / 4096)
    (h1 : ∀ i, (idxf i 1).val = ((((i 0).val * 4 + (i 1).val) * 8 + (i 2).val) * 128 + (i 3).val) / 1024 % 4)
    (h2 : ∀ i, (idxf i 2).val = ((((i 0).val * 4 + (i 1).val) * 8 + (i 2).val) * 128 + (i 3).val) % 1024)
    (n : Fin 1024) (b : Fin 4) (h : Fin 8) (d : Fin 128) :
    idxf (ix4 n b h d) = ix3 n b (⟨128 * h.val + d.val, by have := h.isLt; have := d.isLt; omega⟩ : Fin 1024) := by
  have hn := n.isLt; have hb := b.isLt; have hh := h.isLt; have hd := d.isLt
  funext a; apply Fin.ext
  match a with
  | ⟨0, _⟩ => refine (h0 (ix4 n b h d)).trans ?_; show (((n.val * 4 + b.val) * 8 + h.val) * 128 + d.val) / 4096 = n.val; omega
  | ⟨1, _⟩ => refine (h1 (ix4 n b h d)).trans ?_; show (((n.val * 4 + b.val) * 8 + h.val) * 128 + d.val) / 1024 % 4 = b.val; omega
  | ⟨2, _⟩ => refine (h2 (ix4 n b h d)).trans ?_; show (((n.val * 4 + b.val) * 8 + h.val) * 128 + d.val) % 1024 = 128 * h.val + d.val; omega

/-- Projection 0, with its reshape and transpose, is `projArr` of its two arguments. -/
theorem proj0_eq (x0 : (⟨S1024x4x1024, .f32⟩ : BufTy).Contents (Elt Ideal)) (x5 : (⟨S1024x1024, .f32⟩ : BufTy).Contents (Elt Ideal)) : val_main_v2 (F := Ideal) x0 x5 = Cert.Spec.projArr x0 x5 := by
  funext i
  obtain ⟨b, h, n, d, rfl⟩ : ∃ (b : Fin 4) (h : Fin 8) (n : Fin 1024) (d : Fin 128), i = ix4 b h n d := ⟨i 0, i 1, i 2, i 3, eq_ix4 i⟩
  have e2 : idx_main_v2 (ix4 b h n d) = ix4 n b h d := funext fun a => Fin.ext (by match a with | ⟨0, _⟩ => rfl | ⟨1, _⟩ => rfl | ⟨2, _⟩ => rfl | ⟨3, _⟩ => rfl)
  have e1 : idx_main_v1 (ix4 n b h d) = ix3 n b (⟨128 * h.val + d.val, by have := h.isLt; have := d.isLt; omega⟩ : Fin 1024) :=
    reshape_idx idx_main_v1 (fun _ => rfl) (fun _ => rfl) (fun _ => rfl) n b h d
  have el : ∀ k : Fin 1024, lidx_main_v0 (ix3 n b (⟨128 * h.val + d.val, by have := h.isLt; have := d.isLt; omega⟩ : Fin 1024)) k = ix3 n b k := fun k => funext fun a => Fin.ext (by match a with | ⟨0, _⟩ => rfl | ⟨1, _⟩ => rfl | ⟨2, _⟩ => rfl)
  have er : ∀ k : Fin 1024, ridx_main_v0 (ix3 n b (⟨128 * h.val + d.val, by have := h.isLt; have := d.isLt; omega⟩ : Fin 1024)) k = ix2 (⟨128 * h.val + d.val, by have := h.isLt; have := d.isLt; omega⟩ : Fin 1024) k := fun k => funext fun a => Fin.ext (by match a with | ⟨0, _⟩ => rfl | ⟨1, _⟩ => rfl)
  rw [val_main_v2_apply, e2, val_main_v1_apply, e1, val_main_v0_apply]
  simp only [el, er]
  rfl

/-- Projection 1, with its reshape and transpose, is `projArr` of its two arguments. -/
theorem proj1_eq (x1 : (⟨S1024x4x1024, .f32⟩ : BufTy).Contents (Elt Ideal)) (x6 : (⟨S1024x1024, .f32⟩ : BufTy).Contents (Elt Ideal)) : val_main_v8 (F := Ideal) x1 x6 = Cert.Spec.projArr x1 x6 := by
  funext i
  obtain ⟨b, h, n, d, rfl⟩ : ∃ (b : Fin 4) (h : Fin 8) (n : Fin 1024) (d : Fin 128), i = ix4 b h n d := ⟨i 0, i 1, i 2, i 3, eq_ix4 i⟩
  have e2 : idx_main_v8 (ix4 b h n d) = ix4 n b h d := funext fun a => Fin.ext (by match a with | ⟨0, _⟩ => rfl | ⟨1, _⟩ => rfl | ⟨2, _⟩ => rfl | ⟨3, _⟩ => rfl)
  have e1 : idx_main_v7 (ix4 n b h d) = ix3 n b (⟨128 * h.val + d.val, by have := h.isLt; have := d.isLt; omega⟩ : Fin 1024) :=
    reshape_idx idx_main_v7 (fun _ => rfl) (fun _ => rfl) (fun _ => rfl) n b h d
  have el : ∀ k : Fin 1024, lidx_main_v6 (ix3 n b (⟨128 * h.val + d.val, by have := h.isLt; have := d.isLt; omega⟩ : Fin 1024)) k = ix3 n b k := fun k => funext fun a => Fin.ext (by match a with | ⟨0, _⟩ => rfl | ⟨1, _⟩ => rfl | ⟨2, _⟩ => rfl)
  have er : ∀ k : Fin 1024, ridx_main_v6 (ix3 n b (⟨128 * h.val + d.val, by have := h.isLt; have := d.isLt; omega⟩ : Fin 1024)) k = ix2 (⟨128 * h.val + d.val, by have := h.isLt; have := d.isLt; omega⟩ : Fin 1024) k := fun k => funext fun a => Fin.ext (by match a with | ⟨0, _⟩ => rfl | ⟨1, _⟩ => rfl)
  rw [val_main_v8_apply, e2, val_main_v7_apply, e1, val_main_v6_apply]
  simp only [el, er]
  rfl

/-- Projection 2, with its reshape and transpose, is `projArr` of its two arguments. -/
theorem proj2_eq (x2 : (⟨S1024x4x1024, .f32⟩ : BufTy).Contents (Elt Ideal)) (x7 : (⟨S1024x1024, .f32⟩ : BufTy).Contents (Elt Ideal)) : val_main_v14 (F := Ideal) x2 x7 = Cert.Spec.projArr x2 x7 := by
  funext i
  obtain ⟨b, h, n, d, rfl⟩ : ∃ (b : Fin 4) (h : Fin 8) (n : Fin 1024) (d : Fin 128), i = ix4 b h n d := ⟨i 0, i 1, i 2, i 3, eq_ix4 i⟩
  have e2 : idx_main_v14 (ix4 b h n d) = ix4 n b h d := funext fun a => Fin.ext (by match a with | ⟨0, _⟩ => rfl | ⟨1, _⟩ => rfl | ⟨2, _⟩ => rfl | ⟨3, _⟩ => rfl)
  have e1 : idx_main_v13 (ix4 n b h d) = ix3 n b (⟨128 * h.val + d.val, by have := h.isLt; have := d.isLt; omega⟩ : Fin 1024) :=
    reshape_idx idx_main_v13 (fun _ => rfl) (fun _ => rfl) (fun _ => rfl) n b h d
  have el : ∀ k : Fin 1024, lidx_main_v12 (ix3 n b (⟨128 * h.val + d.val, by have := h.isLt; have := d.isLt; omega⟩ : Fin 1024)) k = ix3 n b k := fun k => funext fun a => Fin.ext (by match a with | ⟨0, _⟩ => rfl | ⟨1, _⟩ => rfl | ⟨2, _⟩ => rfl)
  have er : ∀ k : Fin 1024, ridx_main_v12 (ix3 n b (⟨128 * h.val + d.val, by have := h.isLt; have := d.isLt; omega⟩ : Fin 1024)) k = ix2 (⟨128 * h.val + d.val, by have := h.isLt; have := d.isLt; omega⟩ : Fin 1024) k := fun k => funext fun a => Fin.ext (by match a with | ⟨0, _⟩ => rfl | ⟨1, _⟩ => rfl)
  rw [val_main_v14_apply, e2, val_main_v13_apply, e1, val_main_v12_apply]
  simp only [el, er]
  rfl

/-- Projection 3, with its reshape and transpose, is `projArr` of its two arguments. -/
theorem proj3_eq (x3 : (⟨S1024x4x1024, .f32⟩ : BufTy).Contents (Elt Ideal)) (x8 : (⟨S1024x1024, .f32⟩ : BufTy).Contents (Elt Ideal)) : val_main_v20 (F := Ideal) x3 x8 = Cert.Spec.projArr x3 x8 := by
  funext i
  obtain ⟨b, h, n, d, rfl⟩ : ∃ (b : Fin 4) (h : Fin 8) (n : Fin 1024) (d : Fin 128), i = ix4 b h n d := ⟨i 0, i 1, i 2, i 3, eq_ix4 i⟩
  have e2 : idx_main_v20 (ix4 b h n d) = ix4 n b h d := funext fun a => Fin.ext (by match a with | ⟨0, _⟩ => rfl | ⟨1, _⟩ => rfl | ⟨2, _⟩ => rfl | ⟨3, _⟩ => rfl)
  have e1 : idx_main_v19 (ix4 n b h d) = ix3 n b (⟨128 * h.val + d.val, by have := h.isLt; have := d.isLt; omega⟩ : Fin 1024) :=
    reshape_idx idx_main_v19 (fun _ => rfl) (fun _ => rfl) (fun _ => rfl) n b h d
  have el : ∀ k : Fin 1024, lidx_main_v18 (ix3 n b (⟨128 * h.val + d.val, by have := h.isLt; have := d.isLt; omega⟩ : Fin 1024)) k = ix3 n b k := fun k => funext fun a => Fin.ext (by match a with | ⟨0, _⟩ => rfl | ⟨1, _⟩ => rfl | ⟨2, _⟩ => rfl)
  have er : ∀ k : Fin 1024, ridx_main_v18 (ix3 n b (⟨128 * h.val + d.val, by have := h.isLt; have := d.isLt; omega⟩ : Fin 1024)) k = ix2 (⟨128 * h.val + d.val, by have := h.isLt; have := d.isLt; omega⟩ : Fin 1024) k := fun k => funext fun a => Fin.ext (by match a with | ⟨0, _⟩ => rfl | ⟨1, _⟩ => rfl)
  rw [val_main_v20_apply, e2, val_main_v19_apply, e1, val_main_v18_apply]
  simp only [el, er]
  rfl

/-- Projection 4, with its reshape and transpose, is `projArr` of its two arguments. -/
theorem proj4_eq (x4 : (⟨S1024x4x1024, .f32⟩ : BufTy).Contents (Elt Ideal)) (x9 : (⟨S1024x1024, .f32⟩ : BufTy).Contents (Elt Ideal)) : val_main_v26 (F := Ideal) x4 x9 = Cert.Spec.projArr x4 x9 := by
  funext i
  obtain ⟨b, h, n, d, rfl⟩ : ∃ (b : Fin 4) (h : Fin 8) (n : Fin 1024) (d : Fin 128), i = ix4 b h n d := ⟨i 0, i 1, i 2, i 3, eq_ix4 i⟩
  have e2 : idx_main_v26 (ix4 b h n d) = ix4 n b h d := funext fun a => Fin.ext (by match a with | ⟨0, _⟩ => rfl | ⟨1, _⟩ => rfl | ⟨2, _⟩ => rfl | ⟨3, _⟩ => rfl)
  have e1 : idx_main_v25 (ix4 n b h d) = ix3 n b (⟨128 * h.val + d.val, by have := h.isLt; have := d.isLt; omega⟩ : Fin 1024) :=
    reshape_idx idx_main_v25 (fun _ => rfl) (fun _ => rfl) (fun _ => rfl) n b h d
  have el : ∀ k : Fin 1024, lidx_main_v24 (ix3 n b (⟨128 * h.val + d.val, by have := h.isLt; have := d.isLt; omega⟩ : Fin 1024)) k = ix3 n b k := fun k => funext fun a => Fin.ext (by match a with | ⟨0, _⟩ => rfl | ⟨1, _⟩ => rfl | ⟨2, _⟩ => rfl)
  have er : ∀ k : Fin 1024, ridx_main_v24 (ix3 n b (⟨128 * h.val + d.val, by have := h.isLt; have := d.isLt; omega⟩ : Fin 1024)) k = ix2 (⟨128 * h.val + d.val, by have := h.isLt; have := d.isLt; omega⟩ : Fin 1024) k := fun k => funext fun a => Fin.ext (by match a with | ⟨0, _⟩ => rfl | ⟨1, _⟩ => rfl)
  rw [val_main_v26_apply, e2, val_main_v25_apply, e1, val_main_v24_apply]
  simp only [el, er]
  rfl

/-! ## The normalisations -/

theorem norm0_apply (x0 : (⟨S1024x4x1024, .f32⟩ : BufTy).Contents (Elt Ideal)) (x5 : (⟨S1024x1024, .f32⟩ : BufTy).Contents (Elt Ideal)) (b : Fin 4) (h : Fin 8) (n : Fin 1024) (d : Fin 128) :
    val_main_v5 (F := Ideal) x0 x5 (ix4 b h n d) = Cert.Spec.l2n (Cert.Spec.headOf (val_main_v2 (F := Ideal) x0 x5) b h) n d := by
  have e4 : idx_main_v4 (ix4 b h n d) = ix4 b h n (0 : Fin 1) := funext fun a => Fin.ext (by match a with | ⟨0, _⟩ => rfl | ⟨1, _⟩ => rfl | ⟨2, _⟩ => rfl | ⟨3, _⟩ => rfl)
  have e2 : idx_main_call0_v2 (ix4 b h n (0 : Fin 1)) = ix3 b h n := funext fun a => Fin.ext (by match a with | ⟨0, _⟩ => rfl | ⟨1, _⟩ => rfl | ⟨2, _⟩ => rfl)
  have e1 : ∀ k : Fin 128, idx_main_call0_v1 (ix3 b h n) k = ix4 b h n k := fun k => funext fun a => Fin.ext (by match a with | ⟨0, _⟩ => rfl | ⟨1, _⟩ => rfl | ⟨2, _⟩ => rfl | ⟨3, _⟩ => rfl)
  rw [val_main_v5_apply, val_main_v4_apply, e4, val_main_v3_apply, val_main_call0_v2_apply, e2, val_main_call0_v1_apply]
  simp only [e1, val_main_call0_v0_apply, val_main_call0_cst_apply, Ideal.hostDivf_def, Ideal.hostUnary_sqrt_def, Ideal.mulf_def,
    Ideal.ofBits_def, Ideal.ofBits_zero_f32, zero_add]
  rfl

theorem norm1_apply (x1 : (⟨S1024x4x1024, .f32⟩ : BufTy).Contents (Elt Ideal)) (x6 : (⟨S1024x1024, .f32⟩ : BufTy).Contents (Elt Ideal)) (b : Fin 4) (h : Fin 8) (n : Fin 1024) (d : Fin 128) :
    val_main_v11 (F := Ideal) x1 x6 (ix4 b h n d) = Cert.Spec.l2n (Cert.Spec.headOf (val_main_v8 (F := Ideal) x1 x6) b h) n d := by
  have e4 : idx_main_v10 (ix4 b h n d) = ix4 b h n (0 : Fin 1) := funext fun a => Fin.ext (by match a with | ⟨0, _⟩ => rfl | ⟨1, _⟩ => rfl | ⟨2, _⟩ => rfl | ⟨3, _⟩ => rfl)
  have e2 : idx_main_call1_v2 (ix4 b h n (0 : Fin 1)) = ix3 b h n := funext fun a => Fin.ext (by match a with | ⟨0, _⟩ => rfl | ⟨1, _⟩ => rfl | ⟨2, _⟩ => rfl)
  have e1 : ∀ k : Fin 128, idx_main_call1_v1 (ix3 b h n) k = ix4 b h n k := fun k => funext fun a => Fin.ext (by match a with | ⟨0, _⟩ => rfl | ⟨1, _⟩ => rfl | ⟨2, _⟩ => rfl | ⟨3, _⟩ => rfl)
  rw [val_main_v11_apply, val_main_v10_apply, e4, val_main_v9_apply, val_main_call1_v2_apply, e2, val_main_call1_v1_apply]
  simp only [e1, val_main_call1_v0_apply, val_main_call1_cst_apply, Ideal.hostDivf_def, Ideal.hostUnary_sqrt_def, Ideal.mulf_def,
    Ideal.ofBits_def, Ideal.ofBits_zero_f32, zero_add]
  rfl

theorem norm2_apply (x2 : (⟨S1024x4x1024, .f32⟩ : BufTy).Contents (Elt Ideal)) (x7 : (⟨S1024x1024, .f32⟩ : BufTy).Contents (Elt Ideal)) (b : Fin 4) (h : Fin 8) (n : Fin 1024) (d : Fin 128) :
    val_main_v17 (F := Ideal) x2 x7 (ix4 b h n d) = Cert.Spec.l2n (Cert.Spec.headOf (val_main_v14 (F := Ideal) x2 x7) b h) n d := by
  have e4 : idx_main_v16 (ix4 b h n d) = ix4 b h n (0 : Fin 1) := funext fun a => Fin.ext (by match a with | ⟨0, _⟩ => rfl | ⟨1, _⟩ => rfl | ⟨2, _⟩ => rfl | ⟨3, _⟩ => rfl)
  have e2 : idx_main_call2_v2 (ix4 b h n (0 : Fin 1)) = ix3 b h n := funext fun a => Fin.ext (by match a with | ⟨0, _⟩ => rfl | ⟨1, _⟩ => rfl | ⟨2, _⟩ => rfl)
  have e1 : ∀ k : Fin 128, idx_main_call2_v1 (ix3 b h n) k = ix4 b h n k := fun k => funext fun a => Fin.ext (by match a with | ⟨0, _⟩ => rfl | ⟨1, _⟩ => rfl | ⟨2, _⟩ => rfl | ⟨3, _⟩ => rfl)
  rw [val_main_v17_apply, val_main_v16_apply, e4, val_main_v15_apply, val_main_call2_v2_apply, e2, val_main_call2_v1_apply]
  simp only [e1, val_main_call2_v0_apply, val_main_call2_cst_apply, Ideal.hostDivf_def, Ideal.hostUnary_sqrt_def, Ideal.mulf_def,
    Ideal.ofBits_def, Ideal.ofBits_zero_f32, zero_add]
  rfl

theorem norm3_apply (x3 : (⟨S1024x4x1024, .f32⟩ : BufTy).Contents (Elt Ideal)) (x8 : (⟨S1024x1024, .f32⟩ : BufTy).Contents (Elt Ideal)) (b : Fin 4) (h : Fin 8) (n : Fin 1024) (d : Fin 128) :
    val_main_v23 (F := Ideal) x3 x8 (ix4 b h n d) = Cert.Spec.l2n (Cert.Spec.headOf (val_main_v20 (F := Ideal) x3 x8) b h) n d := by
  have e4 : idx_main_v22 (ix4 b h n d) = ix4 b h n (0 : Fin 1) := funext fun a => Fin.ext (by match a with | ⟨0, _⟩ => rfl | ⟨1, _⟩ => rfl | ⟨2, _⟩ => rfl | ⟨3, _⟩ => rfl)
  have e2 : idx_main_call3_v2 (ix4 b h n (0 : Fin 1)) = ix3 b h n := funext fun a => Fin.ext (by match a with | ⟨0, _⟩ => rfl | ⟨1, _⟩ => rfl | ⟨2, _⟩ => rfl)
  have e1 : ∀ k : Fin 128, idx_main_call3_v1 (ix3 b h n) k = ix4 b h n k := fun k => funext fun a => Fin.ext (by match a with | ⟨0, _⟩ => rfl | ⟨1, _⟩ => rfl | ⟨2, _⟩ => rfl | ⟨3, _⟩ => rfl)
  rw [val_main_v23_apply, val_main_v22_apply, e4, val_main_v21_apply, val_main_call3_v2_apply, e2, val_main_call3_v1_apply]
  simp only [e1, val_main_call3_v0_apply, val_main_call3_cst_apply, Ideal.hostDivf_def, Ideal.hostUnary_sqrt_def, Ideal.mulf_def,
    Ideal.ofBits_def, Ideal.ofBits_zero_f32, zero_add]
  rfl

/-! ## The scores and the softmaxes -/

/-- The row reduction's witness at the literal shapes, and the reduced index with the column put back. -/
theorem red3 : S4x8x1024x1024.Reduces [3] S4x8x1024 := by decide
theorem lift3 (b : Fin 4) (h : Fin 8) (n : Fin 1024) (k : Fin 1024) : red3.lift (ix3 b h n) k = ix4 b h n k := by
  funext c; apply Fin.ext
  fin_cases c <;> rfl

/-- Branch 0's scores: inner products of the normalised query rows with the normalised key rows. -/
theorem score0_apply (x0 x1 : (⟨S1024x4x1024, .f32⟩ : BufTy).Contents (Elt Ideal)) (x5 x6 : (⟨S1024x1024, .f32⟩ : BufTy).Contents (Elt Ideal)) (b : Fin 4) (h : Fin 8) (n m : Fin 1024) :
    val_main_v27 (F := Ideal) x0 x1 x5 x6 (ix4 b h n m) = (Cert.Spec.score (Cert.Spec.l2n (Cert.Spec.headOf (val_main_v2 (F := Ideal) x0 x5) b h)) (Cert.Spec.l2n (Cert.Spec.headOf (val_main_v8 (F := Ideal) x1 x6) b h))) n m := by
  have el : ∀ j : Fin 128, lidx_main_v27 (ix4 b h n m) j = ix4 b h n j := fun j => funext fun a => Fin.ext (by match a with | ⟨0, _⟩ => rfl | ⟨1, _⟩ => rfl | ⟨2, _⟩ => rfl | ⟨3, _⟩ => rfl)
  have er : ∀ j : Fin 128, ridx_main_v27 (ix4 b h n m) j = ix4 b h m j := fun j => funext fun a => Fin.ext (by match a with | ⟨0, _⟩ => rfl | ⟨1, _⟩ => rfl | ⟨2, _⟩ => rfl | ⟨3, _⟩ => rfl)
  rw [val_main_v27_apply]
  simp only [el, er, norm0_apply, norm1_apply]
  rfl

/-- Branch 0's row maximum: the reference also takes the maximum with −∞, which the fold already is above. -/
theorem rowmax0_apply (x0 x1 : (⟨S1024x4x1024, .f32⟩ : BufTy).Contents (Elt Ideal)) (x5 x6 : (⟨S1024x1024, .f32⟩ : BufTy).Contents (Elt Ideal)) (b : Fin 4) (h : Fin 8) (n : Fin 1024) :
    val_main_v30 (F := Ideal) x0 x1 x5 x6 (ix3 b h n) = Cert.Spec.rowmax (Cert.Spec.score (Cert.Spec.l2n (Cert.Spec.headOf (val_main_v2 (F := Ideal) x0 x5) b h)) (Cert.Spec.l2n (Cert.Spec.headOf (val_main_v8 (F := Ideal) x1 x6) b h))) n := by
  rw [val_main_v30_apply, val_main_v29_apply, val_main_cst_0_apply]
  unfold val_main_v28
  rw [Host.reduce_eq_fold_single FloatOps.maximumf _ _ reducesTo_S4x8x1024x1024_S4x8x1024_d3 red3 h_S_]
  have hl : (val_main_v27 (F := Ideal) x0 x1 x5 x6 ∘ red3.lift (ix3 b h n)) = (Cert.Spec.score (Cert.Spec.l2n (Cert.Spec.headOf (val_main_v2 (F := Ideal) x0 x5) b h)) (Cert.Spec.l2n (Cert.Spec.headOf (val_main_v8 (F := Ideal) x1 x6) b h))) n :=
    funext fun j => (congrArg (val_main_v27 (F := Ideal) x0 x1 x5 x6) (lift3 b h n j)).trans (score0_apply x0 x1 x5 x6 b h n j)
  rw [hl]
  exact Cert.Spec.max_init_fold _ _ _

/-- Branch 0's softmax. -/
theorem smax0_apply (x0 x1 : (⟨S1024x4x1024, .f32⟩ : BufTy).Contents (Elt Ideal)) (x5 x6 : (⟨S1024x1024, .f32⟩ : BufTy).Contents (Elt Ideal)) (b : Fin 4) (h : Fin 8) (n m : Fin 1024) :
    val_main_v38 (F := Ideal) x0 x1 x5 x6 (ix4 b h n m) = Cert.Spec.smax (Cert.Spec.score (Cert.Spec.l2n (Cert.Spec.headOf (val_main_v2 (F := Ideal) x0 x5) b h)) (Cert.Spec.l2n (Cert.Spec.headOf (val_main_v8 (F := Ideal) x1 x6) b h))) n m := by
  have e5 : ∀ j : Fin 1024, idx_main_v32 (ix4 b h n j) = ix4 b h n (0 : Fin 1) := fun j => funext fun a => Fin.ext (by match a with | ⟨0, _⟩ => rfl | ⟨1, _⟩ => rfl | ⟨2, _⟩ => rfl | ⟨3, _⟩ => rfl)
  have e4 : idx_main_v31 (ix4 b h n (0 : Fin 1)) = ix3 b h n := funext fun a => Fin.ext (by match a with | ⟨0, _⟩ => rfl | ⟨1, _⟩ => rfl | ⟨2, _⟩ => rfl)
  have e10 : idx_main_v37 (ix4 b h n m) = ix4 b h n (0 : Fin 1) := funext fun a => Fin.ext (by match a with | ⟨0, _⟩ => rfl | ⟨1, _⟩ => rfl | ⟨2, _⟩ => rfl | ⟨3, _⟩ => rfl)
  have e9 : idx_main_v36 (ix4 b h n (0 : Fin 1)) = ix3 b h n := funext fun a => Fin.ext (by match a with | ⟨0, _⟩ => rfl | ⟨1, _⟩ => rfl | ⟨2, _⟩ => rfl)
  have e8 : ∀ j : Fin 1024, idx_main_v35 (ix3 b h n) j = ix4 b h n j := fun j => funext fun a => Fin.ext (by match a with | ⟨0, _⟩ => rfl | ⟨1, _⟩ => rfl | ⟨2, _⟩ => rfl | ⟨3, _⟩ => rfl)
  rw [val_main_v38_apply, val_main_v37_apply, e10, val_main_v36_apply, e9, val_main_v35_apply]
  simp only [e8, val_main_v34_apply, val_main_v33_apply, val_main_v32_apply, e5, val_main_v31_apply, e4,
    rowmax0_apply, score0_apply, val_main_cst_1_apply, Ideal.hostDivf_def, Ideal.hostUnary_exp_def, Ideal.subf_def,
    Ideal.ofBits_def, Ideal.ofBits_zero_f32, zero_add]
  rfl

/-- Branch 1's scores: inner products of the normalised query rows with the normalised key rows. -/
theorem score1_apply (x2 x3 : (⟨S1024x4x1024, .f32⟩ : BufTy).Contents (Elt Ideal)) (x7 x8 : (⟨S1024x1024, .f32⟩ : BufTy).Contents (Elt Ideal)) (b : Fin 4) (h : Fin 8) (n m : Fin 1024) :
    val_main_v39 (F := Ideal) x2 x3 x7 x8 (ix4 b h n m) = (Cert.Spec.score (Cert.Spec.l2n (Cert.Spec.headOf (val_main_v14 (F := Ideal) x2 x7) b h)) (Cert.Spec.l2n (Cert.Spec.headOf (val_main_v20 (F := Ideal) x3 x8) b h))) n m := by
  have el : ∀ j : Fin 128, lidx_main_v39 (ix4 b h n m) j = ix4 b h n j := fun j => funext fun a => Fin.ext (by match a with | ⟨0, _⟩ => rfl | ⟨1, _⟩ => rfl | ⟨2, _⟩ => rfl | ⟨3, _⟩ => rfl)
  have er : ∀ j : Fin 128, ridx_main_v39 (ix4 b h n m) j = ix4 b h m j := fun j => funext fun a => Fin.ext (by match a with | ⟨0, _⟩ => rfl | ⟨1, _⟩ => rfl | ⟨2, _⟩ => rfl | ⟨3, _⟩ => rfl)
  rw [val_main_v39_apply]
  simp only [el, er, norm2_apply, norm3_apply]
  rfl

/-- Branch 1's row maximum: the reference also takes the maximum with −∞, which the fold already is above. -/
theorem rowmax1_apply (x2 x3 : (⟨S1024x4x1024, .f32⟩ : BufTy).Contents (Elt Ideal)) (x7 x8 : (⟨S1024x1024, .f32⟩ : BufTy).Contents (Elt Ideal)) (b : Fin 4) (h : Fin 8) (n : Fin 1024) :
    val_main_v42 (F := Ideal) x2 x3 x7 x8 (ix3 b h n) = Cert.Spec.rowmax (Cert.Spec.score (Cert.Spec.l2n (Cert.Spec.headOf (val_main_v14 (F := Ideal) x2 x7) b h)) (Cert.Spec.l2n (Cert.Spec.headOf (val_main_v20 (F := Ideal) x3 x8) b h))) n := by
  rw [val_main_v42_apply, val_main_v41_apply, val_main_cst_3_apply]
  unfold val_main_v40
  rw [Host.reduce_eq_fold_single FloatOps.maximumf _ _ reducesTo_S4x8x1024x1024_S4x8x1024_d3 red3 h_S_]
  have hl : (val_main_v39 (F := Ideal) x2 x3 x7 x8 ∘ red3.lift (ix3 b h n)) = (Cert.Spec.score (Cert.Spec.l2n (Cert.Spec.headOf (val_main_v14 (F := Ideal) x2 x7) b h)) (Cert.Spec.l2n (Cert.Spec.headOf (val_main_v20 (F := Ideal) x3 x8) b h))) n :=
    funext fun j => (congrArg (val_main_v39 (F := Ideal) x2 x3 x7 x8) (lift3 b h n j)).trans (score1_apply x2 x3 x7 x8 b h n j)
  rw [hl]
  exact Cert.Spec.max_init_fold _ _ _

/-- Branch 1's softmax. -/
theorem smax1_apply (x2 x3 : (⟨S1024x4x1024, .f32⟩ : BufTy).Contents (Elt Ideal)) (x7 x8 : (⟨S1024x1024, .f32⟩ : BufTy).Contents (Elt Ideal)) (b : Fin 4) (h : Fin 8) (n m : Fin 1024) :
    val_main_v50 (F := Ideal) x2 x3 x7 x8 (ix4 b h n m) = Cert.Spec.smax (Cert.Spec.score (Cert.Spec.l2n (Cert.Spec.headOf (val_main_v14 (F := Ideal) x2 x7) b h)) (Cert.Spec.l2n (Cert.Spec.headOf (val_main_v20 (F := Ideal) x3 x8) b h))) n m := by
  have e5 : ∀ j : Fin 1024, idx_main_v44 (ix4 b h n j) = ix4 b h n (0 : Fin 1) := fun j => funext fun a => Fin.ext (by match a with | ⟨0, _⟩ => rfl | ⟨1, _⟩ => rfl | ⟨2, _⟩ => rfl | ⟨3, _⟩ => rfl)
  have e4 : idx_main_v43 (ix4 b h n (0 : Fin 1)) = ix3 b h n := funext fun a => Fin.ext (by match a with | ⟨0, _⟩ => rfl | ⟨1, _⟩ => rfl | ⟨2, _⟩ => rfl)
  have e10 : idx_main_v49 (ix4 b h n m) = ix4 b h n (0 : Fin 1) := funext fun a => Fin.ext (by match a with | ⟨0, _⟩ => rfl | ⟨1, _⟩ => rfl | ⟨2, _⟩ => rfl | ⟨3, _⟩ => rfl)
  have e9 : idx_main_v48 (ix4 b h n (0 : Fin 1)) = ix3 b h n := funext fun a => Fin.ext (by match a with | ⟨0, _⟩ => rfl | ⟨1, _⟩ => rfl | ⟨2, _⟩ => rfl)
  have e8 : ∀ j : Fin 1024, idx_main_v47 (ix3 b h n) j = ix4 b h n j := fun j => funext fun a => Fin.ext (by match a with | ⟨0, _⟩ => rfl | ⟨1, _⟩ => rfl | ⟨2, _⟩ => rfl | ⟨3, _⟩ => rfl)
  rw [val_main_v50_apply, val_main_v49_apply, e10, val_main_v48_apply, e9, val_main_v47_apply]
  simp only [e8, val_main_v46_apply, val_main_v45_apply, val_main_v44_apply, e5, val_main_v43_apply, e4,
    rowmax1_apply, score1_apply, val_main_cst_4_apply, Ideal.hostDivf_def, Ideal.hostUnary_exp_def, Ideal.subf_def,
    Ideal.ofBits_def, Ideal.ofBits_zero_f32, zero_add]
  rfl

/-! ## The averaged weights and the context -/

/-- The reference's attention weights are `attnArr` of the four query / key projections. -/
theorem attn_eq (x0 x1 x2 x3 : (⟨S1024x4x1024, .f32⟩ : BufTy).Contents (Elt Ideal)) (x5 x6 x7 x8 : (⟨S1024x1024, .f32⟩ : BufTy).Contents (Elt Ideal)) :
    val_main_v53 (F := Ideal) x0 x1 x2 x3 x5 x6 x7 x8
      = Cert.Spec.attnArr (val_main_v2 (F := Ideal) x0 x5) (val_main_v8 (F := Ideal) x1 x6) (val_main_v14 (F := Ideal) x2 x7) (val_main_v20 (F := Ideal) x3 x8) := by
  funext i
  obtain ⟨b, h, n, m, rfl⟩ : ∃ (b : Fin 4) (h : Fin 8) (n m : Fin 1024), i = ix4 b h n m := ⟨i 0, i 1, i 2, i 3, eq_ix4 i⟩
  rw [val_main_v53_apply, val_main_v51_apply, val_main_v52_apply, val_main_cst_5_apply, smax0_apply, smax1_apply]
  simp only [Ideal.mulf_def, Ideal.addf_def, Ideal.ofBits_def]
  exact mul_comm _ _

/-- The reference's context is `ctxArr` of the five projections. -/
theorem ctx_eq (x0 x1 x2 x3 x4 : (⟨S1024x4x1024, .f32⟩ : BufTy).Contents (Elt Ideal)) (x5 x6 x7 x8 x9 : (⟨S1024x1024, .f32⟩ : BufTy).Contents (Elt Ideal)) :
    val_main_v54 (F := Ideal) x0 x1 x2 x3 x4 x5 x6 x7 x8 x9
      = Cert.Spec.ctxArr (val_main_v2 (F := Ideal) x0 x5) (val_main_v8 (F := Ideal) x1 x6) (val_main_v14 (F := Ideal) x2 x7) (val_main_v20 (F := Ideal) x3 x8) (val_main_v26 (F := Ideal) x4 x9) := by
  funext i
  obtain ⟨b, h, n, d, rfl⟩ : ∃ (b : Fin 4) (h : Fin 8) (n : Fin 1024) (d : Fin 128), i = ix4 b h n d := ⟨i 0, i 1, i 2, i 3, eq_ix4 i⟩
  have el : ∀ j : Fin 1024, lidx_main_v54 (ix4 b h n d) j = ix4 b h n j := fun j => funext fun a => Fin.ext (by match a with | ⟨0, _⟩ => rfl | ⟨1, _⟩ => rfl | ⟨2, _⟩ => rfl | ⟨3, _⟩ => rfl)
  have er : ∀ j : Fin 1024, ridx_main_v54 (ix4 b h n d) j = ix4 b h j d := fun j => funext fun a => Fin.ext (by match a with | ⟨0, _⟩ => rfl | ⟨1, _⟩ => rfl | ⟨2, _⟩ => rfl | ⟨3, _⟩ => rfl)
  rw [val_main_v54_apply]
  simp only [el, er, attn_eq]
  rfl

/-- The reference's last three operations, as one function of the context. -/
def tail (x : S4x8x1024x128.Idx → EReal) : S1024x4x1024.Idx → EReal :=
  transpose S1024x4x1024 [1, 0, 2] (shapeCast S4x1024x1024 (transpose S4x1024x8x128 [0, 2, 1, 3] x transposes_S4x8x1024x128_S4x1024x8x128_0_2_1_3) shapeCasts_S4x1024x8x128_S4x1024x1024) transposes_S4x1024x1024_S1024x4x1024_1_0_2

theorem out_eq (x0 x1 x2 x3 x4 : (⟨S1024x4x1024, .f32⟩ : BufTy).Contents (Elt Ideal)) (x5 x6 x7 x8 x9 : (⟨S1024x1024, .f32⟩ : BufTy).Contents (Elt Ideal)) :
    val_main_v57 (F := Ideal) x0 x1 x2 x3 x4 x5 x6 x7 x8 x9 = tail (val_main_v54 (F := Ideal) x0 x1 x2 x3 x4 x5 x6 x7 x8 x9) := rfl

end Cert.ReferenceIdeal.RefSpec

end
-- ==== Proof.lean ====
/-
  Dual cosine-similarity attention: five head-wise projections, two branches of row-normalised query / key tiles,
  their row softmaxes averaged, the average applied to a shared value projection.  The kernel does this in six
  pipelined regions (five projection kernels over a (batch, head) grid, one attention kernel over the same grid); the
  reference in plain array operations.  Over the extended reals both compute the same function of the arguments:
  every sum is a finite sum whose order does not matter, a change of float format is the identity, the reference's
  extra maximum with −∞ is absorbed by the row maximum, and the factor 1/2 commutes.  No finiteness of the inputs is used.

  The three frames are the generated ones (the reference's is its generated run with the results dropped); the
  idealization rewrote nothing; the value claim pairs the kernel's run, re-posted in the specification's terms, with
  the reference's generated run read stage by stage into the same terms.
-/
import proofs.«182138_j12103217840332_2_alg».proof.Defs
import proofs.«182138_j12103217840332_2_alg».proof.Proof.Gen.Kernel
import proofs.«182138_j12103217840332_2_alg».proof.Proof.Gen.Kernel.Frame
import proofs.«182138_j12103217840332_2_alg».proof.Proof.Gen.KernelIdeal
import proofs.«182138_j12103217840332_2_alg».proof.Proof.Gen.KernelIdeal.Frame
import proofs.«182138_j12103217840332_2_alg».proof.Proof.Gen.ReferenceIdeal
import proofs.«182138_j12103217840332_2_alg».proof.Proof.Gen.ReferenceIdeal.Run
import proofs.«182138_j12103217840332_2_alg».proof.Proof.Gen.ReferenceIdeal.Read
import proofs.«182138_j12103217840332_2_alg».proof.Proof.Gen.Pre_finite_inputs
import proofs.«182138_j12103217840332_2_alg».proof.Proof.KernelValue
import proofs.«182138_j12103217840332_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem preserves : Cert.preserves_Kernel_KernelIdeal := trivial

/-- The host's tail is the same three operations in both programs. -/
theorem tail_eq (x : Cert.Spec.SH.Idx → EReal) : Cert.ReferenceIdeal.RefSpec.tail x = Cert.KernelIdeal.Plumb.tail x := rfl

/-- From memories that agree on the ten arguments both programs end with the context through the host's tail and
    the attention weights of the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Plumb.tail (Cert.KernelIdeal.Result.ctxOf m c), fun c => Cert.KernelIdeal.Result.attnOf m c,
    Cert.KernelIdeal.Result.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v57_eq, Cert.ReferenceIdeal.RefSpec.out_eq, Cert.ReferenceIdeal.RefSpec.ctx_eq,
      Cert.ReferenceIdeal.RefSpec.proj0_eq, Cert.ReferenceIdeal.RefSpec.proj1_eq, Cert.ReferenceIdeal.RefSpec.proj2_eq,
      Cert.ReferenceIdeal.RefSpec.proj3_eq, Cert.ReferenceIdeal.RefSpec.proj4_eq, tail_eq, a0, a1, a2, a3, a4, a5, a6, a7, a8, a9]
    rfl
  · obtain ⟨a0, a1, a2, a3, a4, a5, a6, a7, a8, a9⟩ := hagree c
    rw [Cert.ReferenceIdeal.Read.val_main_v53_eq, Cert.ReferenceIdeal.RefSpec.attn_eq,
      Cert.ReferenceIdeal.RefSpec.proj0_eq, Cert.ReferenceIdeal.RefSpec.proj1_eq, Cert.ReferenceIdeal.RefSpec.proj2_eq,
      Cert.ReferenceIdeal.RefSpec.proj3_eq, a0, a1, a2, a3, a5, a6, a7, a8]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
